-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v160)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v160) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S2x500000 : Shape := ⟨2, ![2, 500000]⟩
abbrev S2x250000 : Shape := ⟨2, ![2, 250000]⟩
abbrev S2x100000 : Shape := ⟨2, ![2, 100000]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_arg14 : FVec F S2x128 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg14
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  main_v58

def fn_part2 {F : FTy → Type} [FloatOps F] (main_arg10 : FVec F S2x128 .f32) (main_arg11 : FVec F S2x128x128 .f32) (main_arg12 : FVec F S2x128 .f32) (main_arg13 : FVec F S2x128x128 .f32) (main_arg14 : FVec F S2x128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128x128 .f32 := Host.absf main_arg11
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg13
  let main_cst_18 : FVec F S_ .f32 := constant S_ .f32 0x7F800000#32
  let main_v50 : FVec F S2x128x128 .f32 := broadcastInDim S2x128x128 ![] bcast_S_S2x128x128 main_cst_18
  fn_part3 (F := F) main_arg14 main_v48 main_v49 main_v50

def fn_part1 {F : FTy → Type} [FloatOps F] (main_arg7 : FVec F S2x128x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg7
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg8
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128x128 .f32 := Host.absf main_arg9
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : FVec F S200000x128 .f32) (main_arg2 : IVec S2x500000 32) (main_arg3 : IVec S2x250000 32) (main_arg4 : IVec S2x100000 32) (main_arg5 : FVec F S2x128x128 .f32) (main_arg6 : FVec F S2x128 .f32) (main_arg7 : FVec F S2x128x128 .f32) (main_arg8 : FVec F S2x128 .f32) (main_arg9 : FVec F S2x128x128 .f32) (main_arg10 : FVec F S2x128 .f32) (main_arg11 : FVec F S2x128x128 .f32) (main_arg12 : FVec F S2x128 .f32) (main_arg13 : FVec F S2x128x128 .f32) (main_arg14 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S2x128x128 .f32 := Host.absf main_arg5
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg6
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S200000x128 : Shape := ⟨2, ![200000, 128]⟩
abbrev S2x500000 : Shape := ⟨2, ![2, 500000]⟩
abbrev S2x250000 : Shape := ⟨2, ![2, 250000]⟩
abbrev S2x100000 : Shape := ⟨2, ![2, 100000]⟩
abbrev S2x128x128 : Shape := ⟨3, ![2, 128, 128]⟩
abbrev S2x128 : Shape := ⟨2, ![2, 128]⟩
abbrev S1x500000 : Shape := ⟨2, ![1, 500000]⟩
abbrev S500000 : Shape := ⟨1, ![500000]⟩
abbrev S1x250000 : Shape := ⟨2, ![1, 250000]⟩
abbrev S250000 : Shape := ⟨1, ![250000]⟩
abbrev S_ : Shape := ⟨0, ![]⟩
abbrev S200000 : Shape := ⟨1, ![200000]⟩
abbrev S500000x1 : Shape := ⟨2, ![500000, 1]⟩
abbrev S100000 : Shape := ⟨1, ![100000]⟩
abbrev S250000x1 : Shape := ⟨2, ![250000, 1]⟩
abbrev S500000x128 : Shape := ⟨2, ![500000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S200000x1 : Shape := ⟨2, ![200000, 1]⟩
abbrev S10000x128 : Shape := ⟨2, ![10000, 128]⟩
abbrev S10000x1 : Shape := ⟨2, ![10000, 1]⟩
abbrev S100000x1 : Shape := ⟨2, ![100000, 1]⟩
abbrev S250000x128 : Shape := ⟨2, ![250000, 128]⟩
abbrev S1x100000 : Shape := ⟨2, ![1, 100000]⟩
abbrev S10000 : Shape := ⟨1, ![10000]⟩

abbrev nBuf : Space → Nat
  | .hbm => 203
  | .vmem => 74
  | .smem => 0
  | _ => 0

abbrev hbmTy0_0 (i : Nat) : BufTy := match i % 128 with
  | 0 => ⟨S100000x128, .f32⟩
  | 1 => ⟨S200000x128, .f32⟩
  | 2 => ⟨S2x500000, .i32⟩
  | 3 => ⟨S2x250000, .i32⟩
  | 4 => ⟨S2x100000, .i32⟩
  | 5 => ⟨S2x128x128, .f32⟩
  | 6 => ⟨S2x128, .f32⟩
  | 7 => ⟨S2x128x128, .f32⟩
  | 8 => ⟨S2x128, .f32⟩
  | 9 => ⟨S2x128x128, .f32⟩
  | 10 => ⟨S2x128, .f32⟩
  | 11 => ⟨S2x128x128, .f32⟩
  | 12 => ⟨S2x128, .f32⟩
  | 13 => ⟨S2x128x128, .f32⟩
  | 14 => ⟨S2x128, .f32⟩
  | 15 => ⟨S1x500000, .i32⟩
  | 16 => ⟨S500000, .i32⟩
  | 17 => ⟨S1x500000, .i32⟩
  | 18 => ⟨S500000, .i32⟩
  | 19 => ⟨S1x250000, .i32⟩
  | 20 => ⟨S250000, .i32⟩
  | 21 => ⟨S1x250000, .i32⟩
  | 22 => ⟨S250000, .i32⟩
  | 23 => ⟨S_, .f32⟩
  | 24 => ⟨S500000, .f32⟩
  | 25 => ⟨S_, .f32⟩
  | 26 => ⟨S200000, .f32⟩
  | 27 => ⟨S500000x1, .i32⟩
  | 28 => ⟨S200000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S250000, .f32⟩
  | 35 => ⟨S_, .f32⟩
  | 36 => ⟨S100000, .f32⟩
  | 37 => ⟨S250000x1, .i32⟩
  | 38 => ⟨S100000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x128, .f32⟩
  | 48 => ⟨S_, .f32⟩
  | 49 => ⟨S200000x128, .f32⟩
  | 50 => ⟨S500000x1, .i32⟩
  | 51 => ⟨S200000x128, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x128, .f32⟩
  | 61 => ⟨S_, .f32⟩
  | 62 => ⟨S100000x128, .f32⟩
  | 63 => ⟨S500000x1, .i32⟩
  | 64 => ⟨S100000x128, .f32⟩
  | 65 => ⟨S1x128x128, .f32⟩
  | 66 => ⟨S128x128, .f32⟩
  | 67 => ⟨S1x128, .f32⟩
  | 68 => ⟨S128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S1x128, .f32⟩
  | 75 => ⟨S200000x1, .f32⟩
  | 76 => ⟨S200000x128, .f32⟩
  | 77 => ⟨S1x128x128, .f32⟩
  | 78 => ⟨S128x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S100000x1, .f32⟩
  | 88 => ⟨S100000x128, .f32⟩
  | 89 => ⟨S_, .i32⟩
  | 90 => ⟨S250000, .i32⟩
  | 91 => ⟨S250000, .i1⟩
  | 92 => ⟨S_, .i32⟩
  | 93 => ⟨S250000, .i32⟩
  | 94 => ⟨S250000, .i32⟩
  | 95 => ⟨S250000, .i32⟩
  | 96 => ⟨S250000x1, .i32⟩
  | 97 => ⟨S250000x128, .f32⟩
  | 98 => ⟨S_, .f32⟩
  | 99 => ⟨S100000x128, .f32⟩
  | 100 => ⟨S250000x1, .i32⟩
  | 101 => ⟨S100000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S100000x1, .f32⟩
  | 108 => ⟨S100000x128, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x128, .f32⟩
  | 118 => ⟨S_, .f32⟩
  | 119 => ⟨S200000x128, .f32⟩
  | 120 => ⟨S500000x1, .i32⟩
  | 121 => ⟨S200000x128, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x128, .f32⟩

abbrev hbmTy0_1 (i : Nat) : BufTy := match i % 128 with
  | 0 => ⟨S500000, .i32⟩
  | 1 => ⟨S500000x1, .i32⟩
  | 2 => ⟨S500000x128, .f32⟩
  | 3 => ⟨S_, .f32⟩
  | 4 => ⟨S100000x128, .f32⟩
  | 5 => ⟨S500000x1, .i32⟩
  | 6 => ⟨S100000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S1x128, .f32⟩
  | 17 => ⟨S200000x1, .f32⟩
  | 18 => ⟨S200000x128, .f32⟩
  | 19 => ⟨S1x128x128, .f32⟩
  | 20 => ⟨S128x128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S1x128, .f32⟩
  | 29 => ⟨S100000x1, .f32⟩
  | 30 => ⟨S100000x128, .f32⟩
  | 31 => ⟨S_, .i32⟩
  | 32 => ⟨S250000, .i32⟩
  | 33 => ⟨S250000, .i1⟩
  | 34 => ⟨S_, .i32⟩
  | 35 => ⟨S250000, .i32⟩
  | 36 => ⟨S250000, .i32⟩
  | 37 => ⟨S250000, .i32⟩
  | 38 => ⟨S250000x1, .i32⟩
  | 39 => ⟨S250000x128, .f32⟩
  | 40 => ⟨S_, .f32⟩
  | 41 => ⟨S100000x128, .f32⟩
  | 42 => ⟨S250000x1, .i32⟩
  | 43 => ⟨S100000x128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S100000x1, .f32⟩
  | 50 => ⟨S100000x128, .f32⟩
  | 51 => ⟨S1x100000, .i32⟩
  | 52 => ⟨S100000, .i32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x128, .f32⟩
  | 62 => ⟨S1x100000, .i32⟩
  | 63 => ⟨S100000, .i32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000x128, .f32⟩
  | 73 => ⟨S100000x1, .f32⟩
  | 74 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S128x128, .f32⟩
  | .local _ .vmem, ⟨27, _⟩ => ⟨S1x128, .f32⟩
  | .local _ .vmem, ⟨28, _⟩ => ⟨S10000x1, .f32⟩
  | .local _ .vmem, ⟨29, _⟩ => ⟨S10000x1, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S1x128, .f32⟩
  | .local _ .vmem, ⟨38, _⟩ => ⟨S10000x1, .f32⟩
  | .local _ .vmem, ⟨39, _⟩ => ⟨S10000x1, .f32⟩
  | .local _ .vmem, ⟨40, _⟩ => ⟨S10000x128, .f32⟩
  | .local _ .vmem, ⟨41, _⟩ => ⟨S10000x128, .f32⟩
  | .local _ .vmem, ⟨42, _⟩ => ⟨S128x128, .f32⟩
  | .local _ .vmem, ⟨43, _⟩ => ⟨S1x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S1x128, .f32⟩
  | .local _ .vmem, ⟨50, _⟩ => ⟨S10000x1, .f32⟩
  | .local _ .vmem, ⟨51, _⟩ => ⟨S10000x1, .f32⟩
  | .local _ .vmem, ⟨52, _⟩ => ⟨S10000x128, .f32⟩
  | .local _ .vmem, ⟨53, _⟩ => ⟨S10000x128, .f32⟩
  | .local _ .vmem, ⟨54, _⟩ => ⟨S128x128, .f32⟩
  | .local _ .vmem, ⟨55, _⟩ => ⟨S1x128, .f32⟩
  | .local _ .vmem, ⟨56, _⟩ => ⟨S10000x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S128x128, .f32⟩
  | .local _ .vmem, ⟨61, _⟩ => ⟨S1x128, .f32⟩
  | .local _ .vmem, ⟨62, _⟩ => ⟨S10000x1, .f32⟩
  | .local _ .vmem, ⟨63, _⟩ => ⟨S10000x1, .f32⟩
  | .local _ .vmem, ⟨64, _⟩ => ⟨S10000x128, .f32⟩
  | .local _ .vmem, ⟨65, _⟩ => ⟨S10000x128, .f32⟩
  | .local _ .vmem, ⟨66, _⟩ => ⟨S10000x128, .f32⟩
  | .local _ .vmem, ⟨67, _⟩ => ⟨S10000x128, .f32⟩
  | .local _ .vmem, ⟨68, _⟩ => ⟨S10000x128, .f32⟩
  | .local _ .vmem, ⟨69, _⟩ => ⟨S10000x128, .f32⟩
  | .local _ .vmem, ⟨70, _⟩ => ⟨S10000x128, .f32⟩
  | .local _ .vmem, ⟨71, _⟩ => ⟨S10000x128, .f32⟩
  | .local _ .vmem, ⟨72, _⟩ => ⟨S10000x1, .f32⟩
  | .local _ .vmem, ⟨73, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_8 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_12 : Ref sig .tc := ⟨.hbm, 109, rfl⟩
abbrev main_v80 : Ref sig .tc := ⟨.hbm, 110, rfl⟩
abbrev main_v81 : Ref sig .tc := ⟨.hbm, 111, rfl⟩
abbrev main_c_13 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_14 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_15 : Ref sig .tc := ⟨.hbm, 122, rfl⟩
abbrev main_v90 : Ref sig .tc := ⟨.hbm, 123, rfl⟩
abbrev main_v91 : Ref sig .tc := ⟨.hbm, 124, rfl⟩
abbrev main_c_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_18 : Ref sig .tc := ⟨.hbm, 159, rfl⟩
abbrev main_v124 : Ref sig .tc := ⟨.hbm, 160, rfl⟩
abbrev main_v125 : Ref sig .tc := ⟨.hbm, 161, rfl⟩
abbrev main_c_19 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_20 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_21 : Ref sig .tc := ⟨.hbm, 181, rfl⟩
abbrev main_v143 : Ref sig .tc := ⟨.hbm, 182, rfl⟩
abbrev main_v144 : Ref sig .tc := ⟨.hbm, 183, rfl⟩
abbrev main_c_22 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_c_23 : Ref sig .tc := ⟨.hbm, 192, rfl⟩
abbrev main_v152 : Ref sig .tc := ⟨.hbm, 193, rfl⟩
abbrev main_v153 : Ref sig .tc := ⟨.hbm, 194, rfl⟩
abbrev main_c_24 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem6_0 : DmaSem sig := 43
abbrev cc3_sem7_0 : DmaSem sig := 44
abbrev cc3_sem7_1 : DmaSem sig := 45
abbrev cc4_sem0_0 : DmaSem sig := 46
abbrev cc4_sem0_1 : DmaSem sig := 47
abbrev cc4_sem1_0 : DmaSem sig := 48
abbrev cc4_sem2_0 : DmaSem sig := 49
abbrev cc4_sem3_0 : DmaSem sig := 50
abbrev cc4_sem3_1 : DmaSem sig := 51
abbrev cc4_sem4_0 : DmaSem sig := 52
abbrev cc4_sem4_1 : DmaSem sig := 53
abbrev cc4_sem5_0 : DmaSem sig := 54
abbrev cc4_sem6_0 : DmaSem sig := 55
abbrev cc4_sem7_0 : DmaSem sig := 56
abbrev cc4_sem7_1 : DmaSem sig := 57
abbrev cc5_sem0_0 : DmaSem sig := 58
abbrev cc5_sem0_1 : DmaSem sig := 59
abbrev cc5_sem1_0 : DmaSem sig := 60
abbrev cc5_sem2_0 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S10000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S500000 : S_.BroadcastsInDim S500000 (![] : Fin 0 → Fin S500000.rank)
  bcast_S_S200000 : S_.BroadcastsInDim S200000 (![] : Fin 0 → Fin S200000.rank)
  bcast_S500000_S500000x1_0 : S500000.BroadcastsInDim S500000x1 (![0] : Fin 1 → Fin S500000x1.rank)
  bcast_S_S100000 : S_.BroadcastsInDim S100000 (![] : Fin 0 → Fin S100000.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S200000x128 : S_.BroadcastsInDim S200000x128 (![] : Fin 0 → Fin S200000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  shapeCasts_S200000_S200000x1 : S200000.ShapeCasts S200000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S10000x1_S10000x128 : S10000x1.Broadcasts S10000x128
  broadcasts_S1x128_S10000x128 : S1x128.Broadcasts S10000x128
  shapeCasts_S100000_S100000x1 : S100000.ShapeCasts S100000x1
  slices_S2x128x128_S1x128x128_1_0_0 : S2x128x128.Slices ![1, 0, 0] S1x128x128
  slices_S2x128_S1x128_1_0 : S2x128.Slices ![1, 0] S1x128
  slices_S2x100000_S1x100000_0_0 : S2x100000.Slices ![0, 0] S1x100000
  shapeCasts_S1x100000_S100000 : S1x100000.ShapeCasts S100000
  bcast_S100000_S100000x1_0 : S100000.BroadcastsInDim S100000x1 (![0] : Fin 1 → Fin S100000x1.rank)
  slices_S2x100000_S1x100000_1_0 : S2x100000.Slices ![1, 0] S1x100000
  reduces_S10000x128_S10000 : S10000x128.Reduces [1] S10000
  shapeCasts_S10000_S10000x1 : S10000.ShapeCasts S10000x1
  shapeCasts_S100000x1_S100000 : S100000x1.ShapeCasts S100000
  scatter_S200000_S500000x1_S500000_n_0_0_1_wf : ScatterDims.WF S200000 S500000x1 S500000 [] [0] [0] 1
  scatter_S100000_S500000x1_S500000_n_0_0_1_wf : ScatterDims.WF S100000 S500000x1 S500000 [] [0] [0] 1
  scatter_S100000_S250000x1_S250000_n_0_0_1_wf : ScatterDims.WF S100000 S250000x1 S250000 [] [0] [0] 1
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  dot_S10000x128_S128x128_S10000x128_1_1_0_0_n_n_wf : DotDims.WF S10000x128 S128x128 S10000x128 [1] [1] [0] [0] [] []
  gather_S100000x128_S250000x1_S250000x128_1_0_n_n_0_1_1128_wf : GatherDims.WF S100000x128 S250000x1 S250000x128 [1] [0] [] [0] [] 1 ![1, 128]
  scatter_S100000x128_S250000x1_S250000x128_1_0_0_1_wf : ScatterDims.WF S100000x128 S250000x1 S250000x128 [1] [0] [0] 1
  gather_S100000x128_S100000x1_S100000x128_1_0_n_n_0_1_1128_wf : GatherDims.WF S100000x128 S100000x1 S100000x128 [1] [0] [] [0] [] 1 ![1, 128]
  gather_S200000x128_S100000x1_S100000x128_1_0_n_n_0_1_1128_wf : GatherDims.WF S200000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S200000x128.size a
  hwx0_0 : ∀ i : grid0.Coords, EltTy.bits .f32 = 32 ∨ (Rect.block (s := S200000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S200000x1.size a
  hwx0_3 : ∀ i : grid0.Coords, EltTy.bits .f32 = 32 ∨ (Rect.block (s := S200000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S200000x128.size a
  hwx0_4 : ∀ i : grid0.Coords, EltTy.bits .f32 = 32 ∨ (Rect.block (s := S200000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S200000x128.size a
  hwx0_7 : ∀ i : grid0.Coords, EltTy.bits .f32 = 32 ∨ (Rect.block (s := S200000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x128.size a ≤ S100000x128.size a
  hwx1_7 : ∀ i : grid1.Coords, EltTy.bits .f32 = 32 ∨ (Rect.block (s := S100000x128) S10000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S200000x128.size a
  hwx3_0 : ∀ i : grid3.Coords, EltTy.bits .f32 = 32 ∨ (Rect.block (s := S200000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S200000x1.size a
  hwx3_3 : ∀ i : grid3.Coords, EltTy.bits .f32 = 32 ∨ (Rect.block (s := S200000x1) S10000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S200000x128.size a
  hwx3_4 : ∀ i : grid3.Coords, EltTy.bits .f32 = 32 ∨ (Rect.block (s := S200000x128) S10000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x128.size a ≤ S200000x128.size a
  hwx3_7 : ∀ i : grid3.Coords, EltTy.bits .f32 = 32 ∨ (Rect.block (s := S200000x128) S10000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S100000x128.size a
  hwx4_7 : ∀ i : grid4.Coords, EltTy.bits .f32 = 32 ∨ (Rect.block (s := S100000x128) S10000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x1.size a ≤ S100000x1.size a
  hwx5_3 : ∀ i : grid5.Coords, EltTy.bits .f32 = 32 ∨ (Rect.block (s := S100000x1) S10000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x128.size a ≤ S100000x128.size a
  hwx5_4 : ∀ i : grid5.Coords, EltTy.bits .f32 = 32 ∨ (Rect.block (s := S100000x128) S10000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S100000x128.size a
  hwx5_5 : ∀ i : grid5.Coords, EltTy.bits .f32 = 32 ∨ (Rect.block (s := S100000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S100000x1.size a
  hwx6_2 : ∀ i : grid6.Coords, EltTy.bits .f32 = 32 ∨ (Rect.block (s := S100000x1) S10000x1.size (cc6_transform_2 i) (hinb6_2 i)).WholeWords (EltTy.packing .f32)

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf

abbrev win0_0 : Pipeline.Window sig grid0 :=
  Pipeline.Window.ofSpec (Memref.whole main_v28) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v49) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S10000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S10000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S10000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v72) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62) S10000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v79) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v89) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v101) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v108) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v110) S10000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v50) S10000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v105) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v111) S10000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v99) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v113) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v120) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v122) S10000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v79) S10000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v117) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v121) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v123) S10000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v133) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v138) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v139) S10000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v123) S10000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v140) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v149) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v158) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v159) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S2x500000 : Shape := ⟨2, ![2, 500000]⟩
abbrev S2x250000 : Shape := ⟨2, ![2, 250000]⟩
abbrev S2x100000 : Shape := ⟨2, ![2, 100000]⟩
abbrev S2x128x128 : Shape := ⟨3, ![2, 128, 128]⟩
abbrev S2x128 : Shape := ⟨2, ![2, 128]⟩
abbrev S1x500000 : Shape := ⟨2, ![1, 500000]⟩
abbrev S500000 : Shape := ⟨1, ![500000]⟩
abbrev S1x250000 : Shape := ⟨2, ![1, 250000]⟩
abbrev S250000 : Shape := ⟨1, ![250000]⟩
abbrev S_ : Shape := ⟨0, ![]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S250000x1 : Shape := ⟨2, ![250000, 1]⟩
abbrev S250000x128 : Shape := ⟨2, ![250000, 128]⟩
abbrev S1x100000 : Shape := ⟨2, ![1, 100000]⟩
abbrev S100000 : Shape := ⟨1, ![100000]⟩
abbrev S100000x1 : Shape := ⟨2, ![100000, 1]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S200000x128, .f32⟩
  | 2 => ⟨S2x500000, .i32⟩
  | 3 => ⟨S2x250000, .i32⟩
  | 4 => ⟨S2x100000, .i32⟩
  | 5 => ⟨S2x128x128, .f32⟩
  | 6 => ⟨S2x128, .f32⟩
  | 7 => ⟨S2x128x128, .f32⟩
  | 8 => ⟨S2x128, .f32⟩
  | 9 => ⟨S2x128x128, .f32⟩
  | 10 => ⟨S2x128, .f32⟩
  | 11 => ⟨S2x128x128, .f32⟩
  | 12 => ⟨S2x128, .f32⟩
  | 13 => ⟨S2x128x128, .f32⟩
  | 14 => ⟨S2x128, .f32⟩
  | 15 => ⟨S1x500000, .i32⟩
  | 16 => ⟨S500000, .i32⟩
  | 17 => ⟨S1x500000, .i32⟩
  | 18 => ⟨S500000, .i32⟩
  | 19 => ⟨S1x250000, .i32⟩
  | 20 => ⟨S250000, .i32⟩
  | 21 => ⟨S1x250000, .i32⟩
  | 22 => ⟨S250000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S1x128x128, .f32⟩
  | 33 => ⟨S128x128, .f32⟩
  | 34 => ⟨S1x128, .f32⟩
  | 35 => ⟨S128, .f32⟩
  | 36 => ⟨S128x128, .f32⟩
  | 37 => ⟨S500000x128, .f32⟩
  | 38 => ⟨S1x128, .f32⟩
  | 39 => ⟨S500000x128, .f32⟩
  | 40 => ⟨S500000x128, .f32⟩
  | 41 => ⟨S_, .f32⟩
  | 42 => ⟨S200000x128, .f32⟩
  | 43 => ⟨S500000x1, .i32⟩
  | 44 => ⟨S200000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x128, .f32⟩
  | 54 => ⟨S1x128x128, .f32⟩
  | 55 => ⟨S128x128, .f32⟩
  | 56 => ⟨S1x128, .f32⟩
  | 57 => ⟨S128, .f32⟩
  | 58 => ⟨S128x128, .f32⟩
  | 59 => ⟨S500000x128, .f32⟩
  | 60 => ⟨S1x128, .f32⟩
  | 61 => ⟨S500000x128, .f32⟩
  | 62 => ⟨S500000x128, .f32⟩
  | 63 => ⟨S_, .f32⟩
  | 64 => ⟨S100000x128, .f32⟩
  | 65 => ⟨S500000x1, .i32⟩
  | 66 => ⟨S100000x128, .f32⟩
  | 67 => ⟨S1x128x128, .f32⟩
  | 68 => ⟨S128x128, .f32⟩
  | 69 => ⟨S1x128, .f32⟩
  | 70 => ⟨S128, .f32⟩
  | 71 => ⟨S128x128, .f32⟩
  | 72 => ⟨S200000x128, .f32⟩
  | 73 => ⟨S1x128, .f32⟩
  | 74 => ⟨S200000x128, .f32⟩
  | 75 => ⟨S200000x128, .f32⟩
  | 76 => ⟨S200000x128, .f32⟩
  | 77 => ⟨S1x128x128, .f32⟩
  | 78 => ⟨S128x128, .f32⟩
  | 79 => ⟨S1x128, .f32⟩
  | 80 => ⟨S128, .f32⟩
  | 81 => ⟨S128x128, .f32⟩
  | 82 => ⟨S100000x128, .f32⟩
  | 83 => ⟨S1x128, .f32⟩
  | 84 => ⟨S100000x128, .f32⟩
  | 85 => ⟨S100000x128, .f32⟩
  | 86 => ⟨S100000x128, .f32⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x128, .f32⟩
  | 96 => ⟨S1x128x128, .f32⟩
  | 97 => ⟨S128x128, .f32⟩
  | 98 => ⟨S1x128, .f32⟩
  | 99 => ⟨S128, .f32⟩
  | 100 => ⟨S128x128, .f32⟩
  | 101 => ⟨S250000x128, .f32⟩
  | 102 => ⟨S1x128, .f32⟩
  | 103 => ⟨S250000x128, .f32⟩
  | 104 => ⟨S250000x128, .f32⟩
  | 105 => ⟨S_, .f32⟩
  | 106 => ⟨S100000x128, .f32⟩
  | 107 => ⟨S250000x1, .i32⟩
  | 108 => ⟨S100000x128, .f32⟩
  | 109 => ⟨S100000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S1x128x128, .f32⟩
  | 120 => ⟨S128x128, .f32⟩
  | 121 => ⟨S1x128, .f32⟩
  | 122 => ⟨S128, .f32⟩
  | 123 => ⟨S128x128, .f32⟩
  | 124 => ⟨S500000x128, .f32⟩
  | 125 => ⟨S1x128, .f32⟩
  | 126 => ⟨S500000x128, .f32⟩
  | 127 => ⟨S500000x128, .f32⟩
  | _ => ⟨S100000x128, .f32⟩

abbrev hbmTy0_1 (i : Nat) : BufTy := match i % 128 with
  | 0 => ⟨S_, .f32⟩
  | 1 => ⟨S200000x128, .f32⟩
  | 2 => ⟨S500000x1, .i32⟩
  | 3 => ⟨S200000x128, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x128, .f32⟩
  | 13 => ⟨S1x128x128, .f32⟩
  | 14 => ⟨S128x128, .f32⟩
  | 15 => ⟨S1x128, .f32⟩
  | 16 => ⟨S128, .f32⟩
  | 17 => ⟨S128x128, .f32⟩
  | 18 => ⟨S500000x128, .f32⟩
  | 19 => ⟨S1x128, .f32⟩
  | 20 => ⟨S500000x128, .f32⟩
  | 21 => ⟨S500000x128, .f32⟩
  | 22 => ⟨S_, .f32⟩
  | 23 => ⟨S100000x128, .f32⟩
  | 24 => ⟨S500000x1, .i32⟩
  | 25 => ⟨S100000x128, .f32⟩
  | 26 => ⟨S1x128x128, .f32⟩
  | 27 => ⟨S128x128, .f32⟩
  | 28 => ⟨S1x128, .f32⟩
  | 29 => ⟨S128, .f32⟩
  | 30 => ⟨S128x128, .f32⟩
  | 31 => ⟨S200000x128, .f32⟩
  | 32 => ⟨S1x128, .f32⟩
  | 33 => ⟨S200000x128, .f32⟩
  | 34 => ⟨S200000x128, .f32⟩
  | 35 => ⟨S200000x128, .f32⟩
  | 36 => ⟨S1x128x128, .f32⟩
  | 37 => ⟨S128x128, .f32⟩
  | 38 => ⟨S1x128, .f32⟩
  | 39 => ⟨S128, .f32⟩
  | 40 => ⟨S128x128, .f32⟩
  | 41 => ⟨S100000x128, .f32⟩
  | 42 => ⟨S1x128, .f32⟩
  | 43 => ⟨S100000x128, .f32⟩
  | 44 => ⟨S100000x128, .f32⟩
  | 45 => ⟨S100000x128, .f32⟩
  | 46 => ⟨S_, .i32⟩
  | 47 => ⟨S250000, .i32⟩
  | 48 => ⟨S250000, .i1⟩
  | 49 => ⟨S_, .i32⟩
  | 50 => ⟨S250000, .i32⟩
  | 51 => ⟨S250000, .i32⟩
  | 52 => ⟨S250000, .i32⟩
  | 53 => ⟨S250000x1, .i32⟩
  | 54 => ⟨S250000x128, .f32⟩
  | 55 => ⟨S1x128x128, .f32⟩
  | 56 => ⟨S128x128, .f32⟩
  | 57 => ⟨S1x128, .f32⟩
  | 58 => ⟨S128, .f32⟩
  | 59 => ⟨S128x128, .f32⟩
  | 60 => ⟨S250000x128, .f32⟩
  | 61 => ⟨S1x128, .f32⟩
  | 62 => ⟨S250000x128, .f32⟩
  | 63 => ⟨S250000x128, .f32⟩
  | 64 => ⟨S_, .f32⟩
  | 65 => ⟨S100000x128, .f32⟩
  | 66 => ⟨S250000x1, .i32⟩
  | 67 => ⟨S100000x128, .f32⟩
  | 68 => ⟨S100000x128, .f32⟩
  | 69 => ⟨S1x100000, .i32⟩
  | 70 => ⟨S100000, .i32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000x128, .f32⟩
  | 80 => ⟨S1x100000, .i32⟩
  | 81 => ⟨S100000, .i32⟩
  | 82 => ⟨S_, .i32⟩
  | 83 => ⟨S100000, .i32⟩
  | 84 => ⟨S100000, .i1⟩
  | 85 => ⟨S_, .i32⟩
  | 86 => ⟨S100000, .i32⟩
  | 87 => ⟨S100000, .i32⟩
  | 88 => ⟨S100000, .i32⟩
  | 89 => ⟨S100000x1, .i32⟩
  | 90 => ⟨S100000x128, .f32⟩
  | 91 => ⟨S100000x128, .f32⟩
  | 92 => ⟨S_, .f32⟩
  | 93 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_4 : Ref sig .tc := ⟨.hbm, 87, rfl⟩
abbrev main_v66 : Ref sig .tc := ⟨.hbm, 88, rfl⟩
abbrev main_v67 : Ref sig .tc := ⟨.hbm, 89, rfl⟩
abbrev main_c_5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_6 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_7 : Ref sig .tc := ⟨.hbm, 110, rfl⟩
abbrev main_v86 : Ref sig .tc := ⟨.hbm, 111, rfl⟩
abbrev main_v87 : Ref sig .tc := ⟨.hbm, 112, rfl⟩
abbrev main_c_8 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_9 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_c_10 : Ref sig .tc := ⟨.hbm, 132, rfl⟩
abbrev main_v105 : Ref sig .tc := ⟨.hbm, 133, rfl⟩
abbrev main_v106 : Ref sig .tc := ⟨.hbm, 134, rfl⟩
abbrev main_c_11 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_12 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_c_13 : Ref sig .tc := ⟨.hbm, 174, rfl⟩
abbrev main_v144 : Ref sig .tc := ⟨.hbm, 175, rfl⟩
abbrev main_v145 : Ref sig .tc := ⟨.hbm, 176, rfl⟩
abbrev main_c_14 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_cst_15 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_c_16 : Ref sig .tc := ⟨.hbm, 199, rfl⟩
abbrev main_v166 : Ref sig .tc := ⟨.hbm, 200, rfl⟩
abbrev main_v167 : Ref sig .tc := ⟨.hbm, 201, rfl⟩
abbrev main_c_17 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_c_18 : Ref sig .tc := ⟨.hbm, 210, rfl⟩
abbrev main_v175 : Ref sig .tc := ⟨.hbm, 211, rfl⟩
abbrev main_v176 : Ref sig .tc := ⟨.hbm, 212, rfl⟩
abbrev main_c_19 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_20 : Ref sig .tc := ⟨.hbm, 220, rfl⟩
abbrev main_v183 : Ref sig .tc := ⟨.hbm, 221, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x250000_S1x250000_0_0 : S2x250000.Slices ![0, 0] S1x250000
  shapeCasts_S1x250000_S250000 : S1x250000.ShapeCasts S250000
  slices_S2x250000_S1x250000_1_0 : S2x250000.Slices ![1, 0] S1x250000
  bcast_S_S500000 : S_.BroadcastsInDim S500000 (![] : Fin 0 → Fin S500000.rank)
  bcast_S500000_S500000x1_0 : S500000.BroadcastsInDim S500000x1 (![0] : Fin 1 → Fin S500000x1.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S200000x128 : S_.BroadcastsInDim S200000x128 (![] : Fin 0 → Fin S200000x128.rank)
  bcast_S_S100000x128 : S_.BroadcastsInDim S100000x128 (![] : Fin 0 → Fin S100000x128.rank)
  bcast_S1x128_S200000x128_0_1 : S1x128.BroadcastsInDim S200000x128 (![0, 1] : Fin 2 → Fin S200000x128.rank)
  bcast_S1x128_S100000x128_0_1 : S1x128.BroadcastsInDim S100000x128 (![0, 1] : Fin 2 → Fin S100000x128.rank)
  bcast_S_S250000 : S_.BroadcastsInDim S250000 (![] : Fin 0 → Fin S250000.rank)
  bcast_S250000_S250000x1_0 : S250000.BroadcastsInDim S250000x1 (![0] : Fin 1 → Fin S250000x1.rank)
  bcast_S1x128_S250000x128_0_1 : S1x128.BroadcastsInDim S250000x128 (![0, 1] : Fin 2 → Fin S250000x128.rank)
  slices_S2x128x128_S1x128x128_1_0_0 : S2x128x128.Slices ![1, 0, 0] S1x128x128
  slices_S2x128_S1x128_1_0 : S2x128.Slices ![1, 0] S1x128
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x128_S100000_d1 : S100000x128.ReducesTo [1] S100000
  h_S_ : 0 < S_.numel
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  scatter_S200000x128_S500000x1_S500000x128_1_0_0_1_wf : ScatterDims.WF S200000x128 S500000x1 S500000x128 [1] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  dot_S200000x128_S128x128_S200000x128_1_0_0_1_n_n_wf : DotDims.WF S200000x128 S128x128 S200000x128 [1] [0] [0] [1] [] []
  dot_S100000x128_S128x128_S100000x128_1_0_0_1_n_n_wf : DotDims.WF S100000x128 S128x128 S100000x128 [1] [0] [0] [1] [] []
  gather_S100000x128_S250000x1_S250000x128_1_0_n_n_0_1_1128_wf : GatherDims.WF S100000x128 S250000x1 S250000x128 [1] [0] [] [0] [] 1 ![1, 128]
  dot_S250000x128_S128x128_S250000x128_1_0_0_1_n_n_wf : DotDims.WF S250000x128 S128x128 S250000x128 [1] [0] [0] [1] [] []
  scatter_S100000x128_S250000x1_S250000x128_1_0_0_1_wf : ScatterDims.WF S100000x128 S250000x1 S250000x128 [1] [0] [0] 1
  gather_S100000x128_S100000x1_S100000x128_1_0_n_n_0_1_1128_wf : GatherDims.WF S100000x128 S100000x1 S100000x128 [1] [0] [] [0] [] 1 ![1, 128]
  gather_S200000x128_S100000x1_S100000x128_1_0_n_n_0_1_1128_wf : GatherDims.WF S200000x128 S100000x1 S100000x128 [1] [0] [] [0] [] 1 ![1, 128]

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf

class Facts : Prop extends Facts₀ where

variable [Facts]
-- ==== Proof.KRun.lean ====
/-
  The kernel program's run with its result named: every weakly fair execution of @main terminates, nothing faulting, with
  the result buffer at what the fold of @main's fifteen segments (eight stretches of host operations, seven regions)
  leaves there, and the argument arrays as launched. The statement is the frame's with one more buffer read off the
  last thread state; the segments, their proof data and the launch are the frame's own.
-/
import proofs.«126235_j54030688583922_2_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_value : θ_run defs (onTc (τ := τ) (main (F := F))) ⟨m, fun _ => 0, ρ⟩ (fun r => ∀ c : Dev nD,
      r.2.mem ((c.tc : Thread nD τ).loc main_v160) = W15 m ρ c (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v160 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.Hand

end
-- ==== Proof.KKeep.lean ====
/-
  Which buffers each stretch of host operations of the kernel program writes, and so which it keeps: a buffer that is
  not the result of an operation of the stretch holds after the stretch what it held before it.
-/
import proofs.«126235_j54030688583922_2_alg».proof.Proof.Gen.KernelIdeal.Frame

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen

variable {F : FTy → Type} [FloatOps F]
variable (m : (ℓ : Loc nD τ sig) → Buf (Elt F) ℓ) (ρ : Dev nD → PrngReg)

/-- The buffers stretch 0 writes. -/
abbrev written0 : List (Ref sig .tc) := [main_v0, main_v1, main_v2, main_v3, main_v4, main_v5, main_v6, main_v7, main_cst, main_v8, main_cst_0, main_v9, main_v10, main_v11, main_cst_1, main_v12, main_v13, main_v14, main_cst_2, main_v15, main_cst_3, main_v16, main_v17, main_v18, main_c, main_v19, main_v20, main_c_4, main_v21, main_v22, main_v23, main_v24, main_v25, main_cst_5, main_v26, main_v27, main_v28, main_c_6, main_v29, main_v30, main_c_7, main_v31, main_v32, main_v33, main_v34, main_v35, main_cst_8, main_v36, main_v37, main_v38, main_v39, main_v40, main_v41, main_v42, main_v43, main_v44, main_v45, main_v46, main_v47, main_v48, main_v49]

theorem hostOps0_writes : (hostOps0 : List (HloOp τ sig (Elt F))).Forall fun op =>
    op.writes ⊆ (written0.map (Proc.devRef (τ := τ) .tc)).toFinset := by
  simp only [hostOps0, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 0 does not write keeps its contents through it. -/
theorem keepH0 (c : Dev nD) (r : Ref sig .tc) (h : r ∉ written0) :
    W1 m ρ c (Proc.devRef .tc r) = W0 m ρ c (Proc.devRef .tc r) :=
  after_of_writes_sub hostOps0 _ hostOps0_writes h

/-- The buffers stretch 1 writes. -/
abbrev written1 : List (Ref sig .tc) := [main_v51, main_v52, main_v53, main_v54, main_v55, main_v56, main_v57, main_v58, main_v59, main_v60, main_v61]

theorem hostOps1_writes : (hostOps1 : List (HloOp τ sig (Elt F))).Forall fun op =>
    op.writes ⊆ (written1.map (Proc.devRef (τ := τ) .tc)).toFinset := by
  simp only [hostOps1, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 1 does not write keeps its contents through it. -/
theorem keepH1 (c : Dev nD) (r : Ref sig .tc) (h : r ∉ written1) :
    W3 m ρ c (Proc.devRef .tc r) = W2 m ρ c (Proc.devRef .tc r) :=
  after_of_writes_sub hostOps1 _ hostOps1_writes h

/-- The buffers stretch 2 writes. -/
abbrev written2 : List (Ref sig .tc) := [main_c_9, main_v63, main_v64, main_c_10, main_v65, main_v66, main_v67, main_v68, main_v69, main_cst_11, main_v70, main_v71, main_v72, main_v73, main_v74, main_v75, main_v76, main_v77, main_v78]

theorem hostOps2_writes : (hostOps2 : List (HloOp τ sig (Elt F))).Forall fun op =>
    op.writes ⊆ (written2.map (Proc.devRef (τ := τ) .tc)).toFinset := by
  simp only [hostOps2, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 2 does not write keeps its contents through it. -/
theorem keepH2 (c : Dev nD) (r : Ref sig .tc) (h : r ∉ written2) :
    W5 m ρ c (Proc.devRef .tc r) = W4 m ρ c (Proc.devRef .tc r) :=
  after_of_writes_sub hostOps2 _ hostOps2_writes h

/-- The buffers stretch 3 writes. -/
abbrev written3 : List (Ref sig .tc) := [main_c_12, main_v80, main_v81, main_c_13, main_v82, main_v83, main_v84, main_v85, main_v86, main_cst_14, main_v87, main_v88, main_v89, main_c_15, main_v90, main_v91, main_c_16, main_v92, main_v93, main_v94, main_v95, main_v96, main_cst_17, main_v97, main_v98, main_v99, main_v100, main_v101, main_v102, main_v103, main_v104, main_v105, main_v106, main_v107, main_v108, main_v109, main_v110]

theorem hostOps3_writes : (hostOps3 : List (HloOp τ sig (Elt F))).Forall fun op =>
    op.writes ⊆ (written3.map (Proc.devRef (τ := τ) .tc)).toFinset := by
  simp only [hostOps3, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 3 does not write keeps its contents through it. -/
theorem keepH3 (c : Dev nD) (r : Ref sig .tc) (h : r ∉ written3) :
    W7 m ρ c (Proc.devRef .tc r) = W6 m ρ c (Proc.devRef .tc r) :=
  after_of_writes_sub hostOps3 _ hostOps3_writes h

/-- The buffers stretch 4 writes. -/
abbrev written4 : List (Ref sig .tc) := [main_v112, main_v113, main_v114, main_v115, main_v116, main_v117, main_v118, main_v119, main_v120, main_v121, main_v122]

theorem hostOps4_writes : (hostOps4 : List (HloOp τ sig (Elt F))).Forall fun op =>
    op.writes ⊆ (written4.map (Proc.devRef (τ := τ) .tc)).toFinset := by
  simp only [hostOps4, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 4 does not write keeps its contents through it. -/
theorem keepH4 (c : Dev nD) (r : Ref sig .tc) (h : r ∉ written4) :
    W9 m ρ c (Proc.devRef .tc r) = W8 m ρ c (Proc.devRef .tc r) :=
  after_of_writes_sub hostOps4 _ hostOps4_writes h

/-- The buffers stretch 5 writes. -/
abbrev written5 : List (Ref sig .tc) := [main_c_18, main_v124, main_v125, main_c_19, main_v126, main_v127, main_v128, main_v129, main_v130, main_cst_20, main_v131, main_v132, main_v133, main_v134, main_v135, main_v136, main_v137, main_v138, main_v139]

theorem hostOps5_writes : (hostOps5 : List (HloOp τ sig (Elt F))).Forall fun op =>
    op.writes ⊆ (written5.map (Proc.devRef (τ := τ) .tc)).toFinset := by
  simp only [hostOps5, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 5 does not write keeps its contents through it. -/
theorem keepH5 (c : Dev nD) (r : Ref sig .tc) (h : r ∉ written5) :
    W11 m ρ c (Proc.devRef .tc r) = W10 m ρ c (Proc.devRef .tc r) :=
  after_of_writes_sub hostOps5 _ hostOps5_writes h

/-- The buffers stretch 6 writes. -/
abbrev written6 : List (Ref sig .tc) := [main_v141, main_v142, main_c_21, main_v143, main_v144, main_c_22, main_v145, main_v146, main_v147, main_v148, main_v149, main_v150, main_v151, main_c_23, main_v152, main_v153, main_c_24, main_v154, main_v155, main_v156, main_v157, main_v158]

theorem hostOps6_writes : (hostOps6 : List (HloOp τ sig (Elt F))).Forall fun op =>
    op.writes ⊆ (written6.map (Proc.devRef (τ := τ) .tc)).toFinset := by
  simp only [hostOps6, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 6 does not write keeps its contents through it. -/
theorem keepH6 (c : Dev nD) (r : Ref sig .tc) (h : r ∉ written6) :
    W13 m ρ c (Proc.devRef .tc r) = W12 m ρ c (Proc.devRef .tc r) :=
  after_of_writes_sub hostOps6 _ hostOps6_writes h

/-- The buffers stretch 7 writes. -/
abbrev written7 : List (Ref sig .tc) := [main_v160]

theorem hostOps7_writes : (hostOps7 : List (HloOp τ sig (Elt F))).Forall fun op =>
    op.writes ⊆ (written7.map (Proc.devRef (τ := τ) .tc)).toFinset := by
  simp only [hostOps7, List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

/-- A buffer stretch 7 does not write keeps its contents through it. -/
theorem keepH7 (c : Dev nD) (r : Ref sig .tc) (h : r ∉ written7) :
    W15 m ρ c (Proc.devRef .tc r) = W14 m ρ c (Proc.devRef .tc r) :=
  after_of_writes_sub hostOps7 _ hostOps7_writes h

end Cert.KernelIdeal.Hand

end
-- ==== Proof.LibEdgeOps.lean ====
/-
  A gather of whole rows and a scatter that adds whole rows (or single numbers), read at an index.

  The operand is an array of `N` rows of `C` numbers, the index array holds one row number per edge (`E` edges, as an
  `E × 1` array of signed words). The gather reads, for edge `e`, the row whose number is the edge's word clamped
  into `[0, N − 1]`. The scatter adds, into row `i`, the update rows of exactly the edges whose word IS `i` (read
  signed, not clamped: an edge whose word is outside `[0, N)` adds nothing). The one-dimensional scatter (one number
  per edge, into an array of `N` numbers) lands on the same edges.
-/
import Idealize.ShloMosaic.PureOps.Ideal.Laws
import Idealize.ShloMosaic.Lib.ValueIdx

noncomputable section

namespace Cert.EdgeOps

open Idealize.ShloMosaic Idealize.ShloMosaic.ValueIdx

variable {N E C w : Nat}

/-! ## The row gather -/

/-- The dimension numbers of `x[idx]` for an array of rows: the row axis collapsed, the row taken whole. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its word, read signed, clamped into `[0, N − 1]`. -/
def rowOf (hN : 0 < N) (idx : IVec ⟨2, ![E, 1]⟩ w) (e : Fin E) : Fin N :=
  ⟨min (idx (ix2 e 0)).toInt.toNat (N - 1), by omega⟩

/-- THE ROW GATHER READ AT `(e, k)`: entry `k` of the row edge `e` reads. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k) = x (ix2 (rowOf hN idx e) k) := by
  have h0 : ((rowGather N E C wf).operandIdx (ix2 e k) idx (0 : Fin 2)).val = (rowOf hN idx e).val := by
    show (rowGather N E C wf).start (ix2 e k) idx 0 + (rowGather N E C wf).batchCoord (ix2 e k) 0
      + (rowGather N E C wf).offCoord (ix2 e k) 0 = _
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGather N E C wf).operandIdx (ix2 e k) idx (1 : Fin 2)).val = k.val := by
    show (rowGather N E C wf).start (ix2 e k) idx 1 + (rowGather N E C wf).batchCoord (ix2 e k) 1
      + (rowGather N E C wf).offCoord (ix2 e k) 1 = _
    rw [GatherDims.batchCoord_eq_zero _ _ _ List.not_mem_nil, Nat.add_zero]
    unfold GatherDims.start
    rw [dif_neg (show (1 : Fin 2) ∉ (rowGather N E C wf).startIndexMap from (by decide : (1 : Fin 2) ∉ [(0 : Fin 2)])), Nat.zero_add]
    unfold GatherDims.offCoord
    rw [dif_pos (show (1 : Fin 2) ∈ (rowGather N E C wf).sKept from (GatherDims.mem_sKept _ _).mpr
      ⟨(by decide : (1 : Fin 2) ∉ [(0 : Fin 2)]), List.not_mem_nil⟩)]
    rfl
  unfold Host.gather
  congr 1
  funext a
  refine Fin.ext ?_
  match a with
  | ⟨0, _⟩ => exact h0
  | ⟨1, _⟩ => exact h1

/-! ## The scatters that add -/

/-- The dimension numbers of `zeros.at[idx].add(rows)`: update `(e, k)` goes to `(idx[e], k)`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of `zeros.at[idx].add(numbers)`: update `e` goes to `idx[e]`. -/
abbrev numScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The edges that land on row `i`: those whose word, read signed, is `i`. -/
def lands (idx : IVec ⟨2, ![E, 1]⟩ w) (i : Fin N) : Finset (Fin E) :=
  Finset.univ.filter fun e => (idx (ix2 e 0)).toInt = (i.val : Int)

section RowScatter
variable (wf : ScatterDims.WF ⟨2, ![N, C]⟩ ⟨2, ![E, 1]⟩ ⟨2, ![E, C]⟩ [1] [0] [0] 1) (idx : IVec ⟨2, ![E, 1]⟩ w)
  (e : Fin E) (k : Fin C)

theorem rowScatter_start0 : (rowScatter N E C wf).start (ix2 e k) idx (0 : Fin 2) = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rowScatter_start1 : (rowScatter N E C wf).start (ix2 e k) idx (1 : Fin 2) = 0 := by
  unfold ScatterDims.start
  rw [dif_neg (show (1 : Fin 2) ∉ (rowScatter N E C wf).scatterDimsToOperandDims from
    (by decide : (1 : Fin 2) ∉ [(0 : Fin 2)]))]

theorem rowScatter_window0 : (rowScatter N E C wf).window (ix2 e k) (0 : Fin 2) = 0 := by
  unfold ScatterDims.window
  rw [dif_neg]
  show (0 : Fin 2) ∉ (⟨2, ![N, C]⟩ : Shape).kept [(0 : Fin 2)]
  simp [Shape.kept]

theorem rowScatter_window1 : (rowScatter N E C wf).window (ix2 e k) (1 : Fin 2) = k.val := by
  unfold ScatterDims.window
  rw [dif_pos (show (1 : Fin 2) ∈ (rowScatter N E C wf).sKept from by
    show (1 : Fin 2) ∈ (⟨2, ![N, C]⟩ : Shape).kept [(0 : Fin 2)]
    simp [Shape.kept])]
  rfl

/-- Update `(e, k)` lands on `(i, n)` exactly when edge `e`'s word is `i` and `k` is `n`. -/
theorem rowScatter_resultIdx (i : Fin N) (n : Fin C) :
    (rowScatter N E C wf).resultIdx? (ix2 e k) idx = some (ix2 i n)
      ↔ (idx (ix2 e 0)).toInt = (i.val : Int) ∧ k = n := by
  unfold ScatterDims.resultIdx?
  constructor
  · intro h
    split at h
    · rename_i hh
      have hf := Option.some.inj h
      have e0 : ((rowScatter N E C wf).start (ix2 e k) idx 0 + ((rowScatter N E C wf).window (ix2 e k) 0 : Nat)).toNat
          = i.val := congrArg (fun f => (f (0 : Fin 2)).val) hf
      have e1 : ((rowScatter N E C wf).start (ix2 e k) idx 1 + ((rowScatter N E C wf).window (ix2 e k) 1 : Nat)).toNat
          = n.val := congrArg (fun f => (f (1 : Fin 2)).val) hf
      have h0 := (hh 0).1
      rw [rowScatter_start0, rowScatter_window0] at e0 h0
      rw [rowScatter_start1, rowScatter_window1] at e1
      refine ⟨by omega, Fin.ext (by omega)⟩
    · exact absurd h (by simp)
  · rintro ⟨hz, rfl⟩
    have hall : ∀ a : Fin 2, 0 ≤ (rowScatter N E C wf).start (ix2 e k) idx a + ((rowScatter N E C wf).window (ix2 e k) a : Nat)
        ∧ (rowScatter N E C wf).start (ix2 e k) idx a + ((rowScatter N E C wf).window (ix2 e k) a : Nat)
          < ((⟨2, ![N, C]⟩ : Shape).size a : Nat) := by
      intro a
      match a with
      | ⟨0, _⟩ =>
        show 0 ≤ (rowScatter N E C wf).start (ix2 e k) idx 0 + ((rowScatter N E C wf).window (ix2 e k) 0 : Nat)
          ∧ (rowScatter N E C wf).start (ix2 e k) idx 0 + ((rowScatter N E C wf).window (ix2 e k) 0 : Nat) < (N : Int)
        rw [rowScatter_start0, rowScatter_window0, hz]
        have := i.isLt
        omega
      | ⟨1, _⟩ =>
        show 0 ≤ (rowScatter N E C wf).start (ix2 e k) idx 1 + ((rowScatter N E C wf).window (ix2 e k) 1 : Nat)
          ∧ (rowScatter N E C wf).start (ix2 e k) idx 1 + ((rowScatter N E C wf).window (ix2 e k) 1 : Nat) < (C : Int)
        rw [rowScatter_start1, rowScatter_window1]
        have := k.isLt
        omega
    rw [dif_pos hall]
    refine congrArg some (funext fun a => Fin.ext ?_)
    match a with
    | ⟨0, _⟩ =>
      show ((rowScatter N E C wf).start (ix2 e k) idx 0 + ((rowScatter N E C wf).window (ix2 e k) 0 : Nat)).toNat = i.val
      rw [rowScatter_start0, rowScatter_window0, hz]
      omega
    | ⟨1, _⟩ =>
      show ((rowScatter N E C wf).start (ix2 e k) idx 1 + ((rowScatter N E C wf).window (ix2 e k) 1 : Nat)).toNat = k.val
      rw [rowScatter_start1, rowScatter_window1]
      omega

/-- THE ROW SCATTER READ AT `(i, n)`: the operand there plus, over the edges landing on row `i`, entry `n` of
    their update rows. -/
theorem scatterAdd_rows_apply (z : (⟨2, ![N, C]⟩ : Shape).Idx → EReal) (upd : (⟨2, ![E, C]⟩ : Shape).Idx → EReal)
    (i : Fin N) (n : Fin C) :
    Ideal.hostScatterAdd (rowScatter N E C wf) z idx upd (ix2 i n)
      = z (ix2 i n) + ∑ e ∈ lands idx i, upd (ix2 e n) := by
  unfold Ideal.hostScatterAdd
  refine congrArg (z (ix2 i n) + ·) ?_
  rw [Finset.sum_filter, sum_idx2, lands, Finset.sum_filter]
  refine Finset.sum_congr rfl fun e _ => ?_
  simp only [rowScatter_resultIdx]
  by_cases hz : (idx (ix2 e 0)).toInt = (i.val : Int)
  · simp only [hz, true_and, if_true]
    rw [Finset.sum_ite_eq' Finset.univ n fun k => upd (ix2 e k)]
    simp
  · simp [hz]

end RowScatter

section NumScatter
variable (wf : ScatterDims.WF ⟨1, ![N]⟩ ⟨2, ![E, 1]⟩ ⟨1, ![E]⟩ [] [0] [0] 1) (idx : IVec ⟨2, ![E, 1]⟩ w) (e : Fin E)

theorem numScatter_start0 : (numScatter N E wf).start (ix1 e) idx (0 : Fin 1) = (idx (ix2 e 0)).toInt := by
  unfold ScatterDims.start
  rw [dif_pos (show (0 : Fin 1) ∈ (numScatter N E wf).scatterDimsToOperandDims from List.mem_singleton.mpr rfl)]
  have hsi : (numScatter N E wf).siIdx (ix1 e) ⟨List.idxOf (0 : Fin 1) (numScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem numScatter_window0 : (numScatter N E wf).window (ix1 e) (0 : Fin 1) = 0 := by
  unfold ScatterDims.window
  rw [dif_neg]
  show (0 : Fin 1) ∉ (⟨1, ![N]⟩ : Shape).kept [(0 : Fin 1)]
  simp [Shape.kept]

/-- Update `e` lands on `i` exactly when edge `e`'s word is `i`. -/
theorem numScatter_resultIdx (i : Fin N) :
    (numScatter N E wf).resultIdx? (ix1 e) idx = some (ix1 i) ↔ (idx (ix2 e 0)).toInt = (i.val : Int) := by
  unfold ScatterDims.resultIdx?
  constructor
  · intro h
    split at h
    · rename_i hh
      have hf := Option.some.inj h
      have e0 : ((numScatter N E wf).start (ix1 e) idx 0 + ((numScatter N E wf).window (ix1 e) 0 : Nat)).toNat
          = i.val := congrArg (fun f => (f (0 : Fin 1)).val) hf
      have h0 := (hh 0).1
      rw [numScatter_start0, numScatter_window0] at e0 h0
      omega
    · exact absurd h (by simp)
  · intro hz
    have hall : ∀ a : Fin 1, 0 ≤ (numScatter N E wf).start (ix1 e) idx a + ((numScatter N E wf).window (ix1 e) a : Nat)
        ∧ (numScatter N E wf).start (ix1 e) idx a + ((numScatter N E wf).window (ix1 e) a : Nat)
          < ((⟨1, ![N]⟩ : Shape).size a : Nat) := by
      intro a
      match a with
      | ⟨0, _⟩ =>
        show 0 ≤ (numScatter N E wf).start (ix1 e) idx 0 + ((numScatter N E wf).window (ix1 e) 0 : Nat)
          ∧ (numScatter N E wf).start (ix1 e) idx 0 + ((numScatter N E wf).window (ix1 e) 0 : Nat) < (N : Int)
        rw [numScatter_start0, numScatter_window0, hz]
        have := i.isLt
        omega
    rw [dif_pos hall]
    refine congrArg some (funext fun a => Fin.ext ?_)
    match a with
    | ⟨0, _⟩ =>
      show ((numScatter N E wf).start (ix1 e) idx 0 + ((numScatter N E wf).window (ix1 e) 0 : Nat)).toNat = i.val
      rw [numScatter_start0, numScatter_window0, hz]
      omega

/-- Every index of a one-axis shape is `ix1` of its coordinate: a sum over the indices is a sum over the coordinate. -/
theorem sum_idx1 {M : Type*} [AddCommMonoid M] {n : Nat} (f : (⟨1, ![n]⟩ : Shape).Idx → M) :
    ∑ j, f j = ∑ a : Fin n, f (ix1 a) := by
  refine Fintype.sum_equiv ⟨fun j => j 0, fun a => ix1 a, fun j => (eq_ix1 j).symm, fun _ => rfl⟩ _ _ fun j => ?_
  exact congrArg f (eq_ix1 j)

/-- THE NUMBER SCATTER READ AT `i`: the operand there plus the updates of the edges landing on `i`. -/
theorem scatterAdd_nums_apply (z : (⟨1, ![N]⟩ : Shape).Idx → EReal) (upd : (⟨1, ![E]⟩ : Shape).Idx → EReal) (i : Fin N) :
    Ideal.hostScatterAdd (numScatter N E wf) z idx upd (ix1 i) = z (ix1 i) + ∑ e ∈ lands idx i, upd (ix1 e) := by
  unfold Ideal.hostScatterAdd
  refine congrArg (z (ix1 i) + ·) ?_
  rw [Finset.sum_filter, sum_idx1, lands, Finset.sum_filter]
  refine Finset.sum_congr rfl fun e _ => ?_
  simp only [numScatter_resultIdx]

end NumScatter

end Cert.EdgeOps

end
-- ==== Proof.LibLinear.lean ====
/-
  A matrix product against a transposed weight matrix, read at an index, at the ideal values.

  `X` has rows of `K` numbers and `W` has `n` rows of `K` numbers; entry `(a, b)` of `X · Wᵀ` is the sum over `c` of
  `X[a, c] · W[b, c]`. The matrix unit computes it contracting the LAST axis of both operands into a zero
  accumulator; the host computes it as a plain product with the transposed matrix. Both are that sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Linear

open Idealize.ShloMosaic Idealize.ShloMosaic.ValueIdx

variable {M K n : Nat} {φ₁ φ₂ : FTy}

/-- The matrix unit's product contracting the last axis of both operands, into the zero accumulator. -/
theorem matmul_lastAxes_apply (w : DotDims.WF ⟨2, ![M, K]⟩ ⟨2, ![n, K]⟩ ⟨2, ![M, n]⟩ [1] [1] [0] [0] [] [])
    (prec : Option ContractPrecision) (A : FVec Ideal ⟨2, ![M, K]⟩ φ₁) (B : FVec Ideal ⟨2, ![n, K]⟩ φ₂) (a : Fin M) (b : Fin n) :
    FloatOps.matmul (⟨[1], [1], [0], [0], [], [], w⟩ : DotDims ⟨2, ![M, K]⟩ ⟨2, ![n, K]⟩ ⟨2, ![M, n]⟩) prec A B
        (constant ⟨2, ![M, n]⟩ .f32 0x00000000#32) (ix2 a b)
      = ∑ c : Fin K, A (ix2 a c) * B (ix2 b c) := by
  rw [Ideal.matmul_constant_zero_apply,
    ← Equiv.sum_comp (contrEquiv1 (⟨[1], [1], [0], [0], [], [], w⟩ : DotDims ⟨2, ![M, K]⟩ ⟨2, ![n, K]⟩ ⟨2, ![M, n]⟩) K rfl rfl).symm]
  refine Finset.sum_congr rfl fun c _ => ?_
  have c2 := contrEquiv1_symm_val
    (⟨[1], [1], [0], [0], [], [], w⟩ : DotDims ⟨2, ![M, K]⟩ ⟨2, ![n, K]⟩ ⟨2, ![M, n]⟩) K rfl rfl c
  have l2 : (⟨[1], [1], [0], [0], [], [], w⟩ : DotDims ⟨2, ![M, K]⟩ ⟨2, ![n, K]⟩ ⟨2, ![M, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![n, K]⟩ ⟨2, ![M, n]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The host's plain product with an operand on the right, read at an index. -/
theorem dotGeneral_plain_apply (w : DotDims.WF ⟨2, ![M, K]⟩ ⟨2, ![K, n]⟩ ⟨2, ![M, n]⟩ [1] [0] [0] [1] [] [])
    (prec : Option ContractPrecision) (A : FVec Ideal ⟨2, ![M, K]⟩ φ₁) (B : FVec Ideal ⟨2, ![K, n]⟩ φ₂) (a : Fin M) (b : Fin n) :
    Host.dotGeneral (⟨[1], [0], [0], [1], [], [], w⟩ : DotDims ⟨2, ![M, K]⟩ ⟨2, ![K, n]⟩ ⟨2, ![M, n]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, n]⟩ ⟨2, ![M, n]⟩) K rfl rfl).symm]
  refine Finset.sum_congr rfl fun c _ => ?_
  have c2 := contrEquiv1_symm_val
    (⟨[1], [0], [0], [1], [], [], w⟩ : DotDims ⟨2, ![M, K]⟩ ⟨2, ![K, n]⟩ ⟨2, ![M, n]⟩) K rfl rfl c
  have l2 : (⟨[1], [0], [0], [1], [], [], w⟩ : DotDims ⟨2, ![M, K]⟩ ⟨2, ![K, n]⟩ ⟨2, ![M, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, n]⟩ ⟨2, ![M, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The column forms of the layout operations -/

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[a]` reads, at `i`, the column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Linear

end
-- ==== Proof.LibRealEntries.lean ====
/-
  Families of extended reals all of whose members are real numbers (neither infinity), and what keeps that property:
  sums, products and maxima of two such families, re-indexing, finite sums (so matrix products, and a scatter that
  adds), and the reciprocal square root of a real number that is positive. A count of finitely many ones, plus one,
  is a real number at least one, so its reciprocal square root is real.
-/
import Idealize.ShloMosaic.PureOps.Ideal

noncomputable section

namespace Cert.GraphAE

open Idealize.ShloMosaic

/-! ## One extended real -/

/-- The sum of two real numbers, taken in the extended reals, is a real number. -/
theorem real_add {x y : EReal} (hx : ∃ a : ℝ, x = (a : EReal)) (hy : ∃ b : ℝ, y = (b : EReal)) :
    ∃ r : ℝ, x + y = (r : EReal) := by
  obtain ⟨a, rfl⟩ := hx
  obtain ⟨b, rfl⟩ := hy
  exact ⟨a + b, (EReal.coe_add a b).symm⟩

/-- The product of two real numbers, taken in the extended reals, is a real number. -/
theorem real_mul {x y : EReal} (hx : ∃ a : ℝ, x = (a : EReal)) (hy : ∃ b : ℝ, y = (b : EReal)) :
    ∃ r : ℝ, x * y = (r : EReal) := by
  obtain ⟨a, rfl⟩ := hx
  obtain ⟨b, rfl⟩ := hy
  exact ⟨a * b, (EReal.coe_mul a b).symm⟩

/-- The larger of two real numbers is a real number. -/
theorem real_max {x y : EReal} (hx : ∃ a : ℝ, x = (a : EReal)) (hy : ∃ b : ℝ, y = (b : EReal)) :
    ∃ r : ℝ, max x y = (r : EReal) := by
  rcases le_total x y with h | h
  · rw [max_eq_right h]; exact hy
  · rw [max_eq_left h]; exact hx

/-- Zero is a real number. -/
theorem real_zero : ∃ r : ℝ, (0 : EReal) = (r : EReal) := ⟨0, rfl⟩

/-- One is a real number. -/
theorem real_one : ∃ r : ℝ, (1 : EReal) = (r : EReal) := ⟨1, rfl⟩

/-- A real number cut off below at zero is a real number. -/
theorem real_max_zero {x : EReal} (hx : ∃ a : ℝ, x = (a : EReal)) : ∃ r : ℝ, max x 0 = (r : EReal) :=
  real_max hx real_zero

/-- A finite sum of real numbers embedded in the extended reals is the embedding of their sum. -/
theorem coe_sum {κ : Type*} (s : Finset κ) (g : κ → ℝ) :
    ∑ e ∈ s, ((g e : ℝ) : EReal) = ((∑ e ∈ s, g e : ℝ) : EReal) := by
  classical
  induction s using Finset.induction_on with
  | empty => simp
  | insert a s ha ih => rw [Finset.sum_insert ha, Finset.sum_insert ha, ih, EReal.coe_add]

/-- A finite sum of extended reals each of which is a real number is a real number. -/
theorem real_sum {κ : Type*} (s : Finset κ) (f : κ → EReal) (h : ∀ e ∈ s, ∃ r : ℝ, f e = (r : EReal)) :
    ∃ r : ℝ, ∑ e ∈ s, f e = (r : EReal) := by
  classical
  induction s using Finset.induction_on with
  | empty => exact ⟨0, by simp⟩
  | insert a s ha ih =>
    rw [Finset.sum_insert ha]
    exact real_add (h a (Finset.mem_insert_self a s)) (ih fun e he => h e (Finset.mem_insert_of_mem he))

/-! ## Families -/

/-- Every member of the family `f` is a real number. -/
def AllReal {ι : Type*} (f : ι → EReal) : Prop := ∀ i, ∃ r : ℝ, f i = (r : EReal)

/-- A family all of whose members are real is the embedding of a family of real numbers. -/
theorem AllReal.exists_eq_coe {ι : Type*} {f : ι → EReal} (hf : AllReal f) : ∃ g : ι → ℝ, f = fun i => (g i : EReal) :=
  ⟨fun i => (hf i).choose, funext fun i => (hf i).choose_spec⟩

/-- The embedding of a family of real numbers has only real members. -/
theorem allReal_coe {ι : Type*} (g : ι → ℝ) : AllReal (fun i => (g i : EReal)) := fun i => ⟨g i, rfl⟩

/-- A constant family at a real number has only real members. -/
theorem allReal_const {ι : Type*} (r : ℝ) : AllReal (fun _ : ι => (r : EReal)) := fun _ => ⟨r, rfl⟩

/-- The constant family at zero has only real members. -/
theorem allReal_zero {ι : Type*} : AllReal (fun _ : ι => (0 : EReal)) := fun _ => real_zero

/-- The constant family at one has only real members. -/
theorem allReal_one {ι : Type*} : AllReal (fun _ : ι => (1 : EReal)) := fun _ => real_one

/-- Re-indexing keeps every member real: the members of `fun j => f (g j)` are members of `f`. -/
theorem AllReal.comp {ι κ : Type*} {f : ι → EReal} (hf : AllReal f) (g : κ → ι) : AllReal (fun j => f (g j)) :=
  fun j => hf (g j)

/-- The pointwise sum of two families with real members has real members. -/
theorem AllReal.add {ι : Type*} {f g : ι → EReal} (hf : AllReal f) (hg : AllReal g) : AllReal (fun i => f i + g i) :=
  fun i => real_add (hf i) (hg i)

/-- The pointwise product of two families with real members has real members. -/
theorem AllReal.mul {ι : Type*} {f g : ι → EReal} (hf : AllReal f) (hg : AllReal g) : AllReal (fun i => f i * g i) :=
  fun i => real_mul (hf i) (hg i)

/-- The pointwise maximum of two families with real members has real members. -/
theorem AllReal.maximum {ι : Type*} {f g : ι → EReal} (hf : AllReal f) (hg : AllReal g) :
    AllReal (fun i => Max.max (f i) (g i)) :=
  fun i => real_max (hf i) (hg i)

/-- Cutting a family with real members off below at zero keeps its members real. -/
theorem AllReal.max_zero {ι : Type*} {f : ι → EReal} (hf : AllReal f) : AllReal (fun i => max (f i) 0) :=
  fun i => real_max_zero (hf i)

/-- A finite sum, index by index, of families with real members has real members. -/
theorem AllReal.sum {ι κ : Type*} (s : ι → Finset κ) {F : ι → κ → EReal}
    (hF : ∀ i, ∀ e ∈ s i, ∃ r : ℝ, F i e = (r : EReal)) : AllReal (fun i => ∑ e ∈ s i, F i e) :=
  fun i => real_sum (s i) (F i) (hF i)

/-- A family with real members plus, index by index, a finite sum of real numbers has real members. -/
theorem AllReal.add_sum {ι κ : Type*} {x : ι → EReal} (hx : AllReal x) (s : ι → Finset κ) {F : ι → κ → EReal}
    (hF : ∀ i, ∀ e ∈ s i, ∃ r : ℝ, F i e = (r : EReal)) : AllReal (fun i => x i + ∑ e ∈ s i, F i e) :=
  fun i => real_add (hx i) (real_sum (s i) (F i) (hF i))

/-- A sum over a shared finite axis of products of members of two families with real members is real: the entries
    of a matrix product, whatever the two index maps `p` and `q` into the operands are. -/
theorem AllReal.sum_mul {ι α β κ : Type*} [Fintype κ] {A : α → EReal} {B : β → EReal} (hA : AllReal A) (hB : AllReal B)
    (p : ι → κ → α) (q : ι → κ → β) : AllReal (fun i => ∑ k : κ, A (p i k) * B (q i k)) :=
  fun i => real_sum Finset.univ _ fun k _ => real_mul (hA (p i k)) (hB (q i k))

/-- The same with an accumulator added in front: the matrix unit's product into an accumulator with real members. -/
theorem AllReal.add_sum_mul {ι α β κ : Type*} [Fintype κ] {C : ι → EReal} {A : α → EReal} {B : β → EReal}
    (hC : AllReal C) (hA : AllReal A) (hB : AllReal B) (p : ι → κ → α) (q : ι → κ → β) :
    AllReal (fun i => C i + ∑ k : κ, A (p i k) * B (q i k)) :=
  fun i => real_add (hC i) (real_sum Finset.univ _ fun k _ => real_mul (hA (p i k)) (hB (q i k)))

/-- The ideal matrix product of two operands with real entries into an accumulator with real entries has real entries. -/
theorem AllReal.matmul {sl sr so : Shape} (d : DotDims sl sr so) {lhs : sl.Idx → EReal} {rhs : sr.Idx → EReal}
    {acc : so.Idx → EReal} (hl : AllReal lhs) (hr : AllReal rhs) (ha : AllReal acc) :
    AllReal (Ideal.matmul d lhs rhs acc) :=
  AllReal.add_sum_mul ha hl hr (fun j k => d.lhsIdx j k) (fun j k => d.rhsIdx j k)

/-- A scatter that adds updates with real entries into an operand with real entries leaves real entries. -/
theorem AllReal.hostScatterAdd {s si su : Shape} (d : ScatterDims s si su) {w : Nat} {x : s.Idx → EReal} (idx : IVec si w)
    {upd : su.Idx → EReal} (hx : AllReal x) (hu : AllReal upd) : AllReal (Ideal.hostScatterAdd d x idx upd) :=
  AllReal.add_sum hx _ fun _ j _ => hu j

/-! ## The reciprocal square root, and a count plus one -/

/-- The reciprocal square root of a positive real number is the real number `(√r)⁻¹`. -/
theorem rsqrt_coe_of_pos {r : ℝ} (h : 0 < r) : Ideal.rsqrt (r : EReal) = (((Real.sqrt r)⁻¹ : ℝ) : EReal) := by
  rw [Ideal.rsqrt_coe, if_neg (not_lt.2 h.le), if_neg h.ne']

/-- The reciprocal square root of a real number at least one is a real number. -/
theorem real_rsqrt_of_one_le {x : EReal} (hx : ∃ r : ℝ, 1 ≤ r ∧ x = (r : EReal)) : ∃ q : ℝ, Ideal.rsqrt x = (q : EReal) := by
  obtain ⟨r, hr, rfl⟩ := hx
  exact ⟨(Real.sqrt r)⁻¹, rsqrt_coe_of_pos (lt_of_lt_of_le one_pos hr)⟩

/-- Zero plus a sum of finitely many ones, plus one, is the real number "how many, plus one". -/
theorem zero_add_sum_one_add_one {κ : Type*} (s : Finset κ) :
    (0 : EReal) + ∑ _e ∈ s, (1 : EReal) + 1 = (((s.card : ℝ) + 1 : ℝ) : EReal) := by
  have h : ∑ _e ∈ s, (1 : EReal) = ((s.card : ℝ) : EReal) := by
    have := coe_sum s (fun _ => (1 : ℝ))
    simpa using this
  rw [zero_add, h, EReal.coe_add, EReal.coe_one]

/-- A count plus one is at least one. -/
theorem one_le_card_add_one {κ : Type*} (s : Finset κ) : (1 : ℝ) ≤ (s.card : ℝ) + 1 :=
  le_add_of_nonneg_left (Nat.cast_nonneg _)

/-- Zero plus a sum of finitely many ones, plus one, is a real number at least one. -/
theorem count_add_one_real {κ : Type*} (s : Finset κ) :
    ∃ r : ℝ, 1 ≤ r ∧ (0 : EReal) + ∑ _e ∈ s, (1 : EReal) + 1 = (r : EReal) :=
  ⟨(s.card : ℝ) + 1, one_le_card_add_one s, zero_add_sum_one_add_one s⟩

/-- The reciprocal square root of zero plus a count of ones plus one is a real number. -/
theorem real_rsqrt_count_add_one {κ : Type*} (s : Finset κ) :
    ∃ q : ℝ, Ideal.rsqrt ((0 : EReal) + ∑ _e ∈ s, (1 : EReal) + 1) = (q : EReal) :=
  real_rsqrt_of_one_le (count_add_one_real s)

end Cert.GraphAE

end
-- ==== Proof.LibRealOps.lean ====
/-
  Arrays of extended reals with real entries, under the array operations of a network read at the ideal values: the
  pointwise sum, product and maximum of two float arrays; a splat of the zero word or of the one word; a broadcast and a
  gather (each reads its operand at some index); a scatter that adds; a dot product on the host; and the reciprocal
  square root of "the number of updates that land on an element, plus one".
-/
import proofs.«126235_j54030688583922_2_alg».proof.Proof.LibRealEntries
import Idealize.ShloMosaic.PureOps.Ideal.Laws
import Idealize.ShloMosaic.Lib.IdealHost

noncomputable section

namespace Cert.GraphAE

open Idealize.ShloMosaic Idealize.ShloMosaic.ValueIdx

variable {s t : Shape} {φ : FTy}

/-- The sum of two float arrays with real entries has real entries. -/
theorem allReal_addf {a b : FVec Ideal s φ} (ha : AllReal a) (hb : AllReal b) : AllReal (addf a b) :=
  AllReal.add ha hb

/-- The product, entry by entry, of two float arrays with real entries has real entries. -/
theorem allReal_mulf {a b : FVec Ideal s φ} (ha : AllReal a) (hb : AllReal b) : AllReal (mulf a b) :=
  AllReal.mul ha hb

/-- The maximum, entry by entry, of two float arrays with real entries has real entries. -/
theorem allReal_maximumf {a b : FVec Ideal s φ} (ha : AllReal a) (hb : AllReal b) : AllReal (maximumf a b) :=
  AllReal.maximum ha hb

/-- The splat of the word of 0.0 has real entries. -/
theorem allReal_constant_zero (s : Shape) : AllReal (constant (F := Ideal) s .f32 0x00000000#32) :=
  fun _ => ⟨0, Ideal.ofBits_zero_f32⟩

/-- The splat of the word of 1.0 has real entries. -/
theorem allReal_constant_one (s : Shape) : AllReal (constant (F := Ideal) s .f32 0x3F800000#32) :=
  fun _ => ⟨1, Ideal.ofBits_one_f32⟩

/-- A broadcast of an array with real entries has real entries: each entry is an entry of the operand. -/
theorem allReal_broadcastInDim (dims : Fin s.rank → Fin t.rank) (h : s.BroadcastsInDim t dims) {x : s.Idx → EReal}
    (hx : AllReal x) : AllReal (broadcastInDim t dims h x) :=
  fun _ => hx _

/-- A gather from an array with real entries has real entries: each entry is an entry of the operand. -/
theorem allReal_gather {si : Shape} {w : Nat} (d : GatherDims s si t) (idx : IVec si w) {x : s.Idx → EReal}
    (hx : AllReal x) : AllReal (Host.gather d x idx) :=
  fun _ => hx _

/-- A scatter that adds updates with real entries into an operand with real entries leaves real entries. -/
theorem allReal_scatterAdd {si u : Shape} {w : Nat} (d : ScatterDims s si u) (idx : IVec si w) {x : FVec Ideal s φ}
    {upd : FVec Ideal u φ} (hx : AllReal x) (hu : AllReal upd) : AllReal (Host.scatterAdd d x idx upd) :=
  AllReal.hostScatterAdd d idx hx hu

/-- The host's dot product of two operands with real entries has real entries. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) :=
  AllReal.matmul d hl hr allReal_zero

/-- Scatter ones into zeros by adding, add one, take the reciprocal square root: every entry is the reciprocal square
    root of a count plus one, a real number. -/
theorem allReal_rsqrt_count_add_one {si u : Shape} {w : Nat} (d : ScatterDims s si u) (idx : IVec si w)
    {z : FVec Ideal s .f32} {o : FVec Ideal u .f32} {o' : FVec Ideal s .f32}
    (hz : ∀ i, z i = 0) (ho : ∀ j, o j = 1) (ho' : ∀ i, o' i = 1) :
    AllReal (Host.rsqrt (addf (Host.scatterAdd d z idx o) o')) := by
  intro i
  show ∃ q : ℝ, Ideal.rsqrt (Ideal.hostScatterAdd d z idx o i + o' i) = (q : EReal)
  simp only [Ideal.hostScatterAdd]
  rw [hz i, ho' i, Finset.sum_congr rfl fun j _ => ho j]
  exact real_rsqrt_count_add_one _

end Cert.GraphAE

end
-- ==== Proof.Spec.lean ====
/-
  The three dense row maps of the network, as functions of whole arrays, index by index.

  `X` is an array of `N` rows of 128 numbers, `W` a 128 × 128 weight matrix used transposed (`x ↦ x · Wᵀ`), `B` a
  bias row kept as a 1 × 128 array and `D` a column of row weights kept as an `N × 1` array.
    * `dualLin`:   row `i` ↦ `X₁[i] · W₁ᵀ + D[i] · B₁ + X₂[i] · W₂ᵀ + B₂`  (added in this order);
    * `linAdd`:    row `i` ↦ `X[i] · Wᵀ + D[i] · B + A[i]`;
    * `rowDot`:    row `i` ↦ the sum over the 128 columns of `A[i, k] · P[i, k]`, kept as an `N × 1` column.
-/
import Idealize.ShloMosaic.PureOps.Ideal.Laws
import Idealize.ShloMosaic.Lib.ValueIdx

noncomputable section

namespace Cert.Spec

open Idealize.ShloMosaic Idealize.ShloMosaic.ValueIdx

variable {N : Nat}

/-- Row `i` of `X` against row `n` of `W`: entry `(i, n)` of `X · Wᵀ`. -/
def rowMul (X : (⟨2, ![N, 128]⟩ : Shape).Idx → EReal) (W : (⟨2, ![128, 128]⟩ : Shape).Idx → EReal) (i : Fin N) (n : Fin 128) :
    EReal :=
  ∑ k : Fin 128, X (ix2 i k) * W (ix2 n k)

/-- Entry `(i, n)` of `X₁ · W₁ᵀ + D · B₁ + X₂ · W₂ᵀ + B₂`. -/
def dualLinAt (X1 : (⟨2, ![N, 128]⟩ : Shape).Idx → EReal) (W1 : (⟨2, ![128, 128]⟩ : Shape).Idx → EReal)
    (B1 : (⟨2, ![1, 128]⟩ : Shape).Idx → EReal) (D : (⟨2, ![N, 1]⟩ : Shape).Idx → EReal)
    (X2 : (⟨2, ![N, 128]⟩ : Shape).Idx → EReal) (W2 : (⟨2, ![128, 128]⟩ : Shape).Idx → EReal)
    (B2 : (⟨2, ![1, 128]⟩ : Shape).Idx → EReal) (i : Fin N) (n : Fin 128) : EReal :=
  ((rowMul X1 W1 i n + D (ix2 i 0) * B1 (ix2 0 n)) + rowMul X2 W2 i n) + B2 (ix2 0 n)

/-- `X₁ · W₁ᵀ + D · B₁ + X₂ · W₂ᵀ + B₂` as an array. -/
def dualLin (X1 : (⟨2, ![N, 128]⟩ : Shape).Idx → EReal) (W1 : (⟨2, ![128, 128]⟩ : Shape).Idx → EReal)
    (B1 : (⟨2, ![1, 128]⟩ : Shape).Idx → EReal) (D : (⟨2, ![N, 1]⟩ : Shape).Idx → EReal)
    (X2 : (⟨2, ![N, 128]⟩ : Shape).Idx → EReal) (W2 : (⟨2, ![128, 128]⟩ : Shape).Idx → EReal)
    (B2 : (⟨2, ![1, 128]⟩ : Shape).Idx → EReal) : (⟨2, ![N, 128]⟩ : Shape).Idx → EReal :=
  fun j => dualLinAt X1 W1 B1 D X2 W2 B2 ⟨(j 0).val, idx2_lt0 j⟩ ⟨(j 1).val, idx2_lt1 j⟩

theorem dualLin_ix2 (X1 : (⟨2, ![N, 128]⟩ : Shape).Idx → EReal) (W1 : (⟨2, ![128, 128]⟩ : Shape).Idx → EReal)
    (B1 : (⟨2, ![1, 128]⟩ : Shape).Idx → EReal) (D : (⟨2, ![N, 1]⟩ : Shape).Idx → EReal)
    (X2 : (⟨2, ![N, 128]⟩ : Shape).Idx → EReal) (W2 : (⟨2, ![128, 128]⟩ : Shape).Idx → EReal)
    (B2 : (⟨2, ![1, 128]⟩ : Shape).Idx → EReal) (i : Fin N) (n : Fin 128) :
    dualLin X1 W1 B1 D X2 W2 B2 (ix2 i n) = dualLinAt X1 W1 B1 D X2 W2 B2 i n := rfl

/-- Entry `(i, n)` of `X · Wᵀ + D · B + A`. -/
def linAddAt (X : (⟨2, ![N, 128]⟩ : Shape).Idx → EReal) (W : (⟨2, ![128, 128]⟩ : Shape).Idx → EReal)
    (B : (⟨2, ![1, 128]⟩ : Shape).Idx → EReal) (D : (⟨2, ![N, 1]⟩ : Shape).Idx → EReal)
    (A : (⟨2, ![N, 128]⟩ : Shape).Idx → EReal) (i : Fin N) (n : Fin 128) : EReal :=
  (rowMul X W i n + D (ix2 i 0) * B (ix2 0 n)) + A (ix2 i n)

/-- `X · Wᵀ + D · B + A` as an array. -/
def linAdd (X : (⟨2, ![N, 128]⟩ : Shape).Idx → EReal) (W : (⟨2, ![128, 128]⟩ : Shape).Idx → EReal)
    (B : (⟨2, ![1, 128]⟩ : Shape).Idx → EReal) (D : (⟨2, ![N, 1]⟩ : Shape).Idx → EReal)
    (A : (⟨2, ![N, 128]⟩ : Shape).Idx → EReal) : (⟨2, ![N, 128]⟩ : Shape).Idx → EReal :=
  fun j => linAddAt X W B D A ⟨(j 0).val, idx2_lt0 j⟩ ⟨(j 1).val, idx2_lt1 j⟩

theorem linAdd_ix2 (X : (⟨2, ![N, 128]⟩ : Shape).Idx → EReal) (W : (⟨2, ![128, 128]⟩ : Shape).Idx → EReal)
    (B : (⟨2, ![1, 128]⟩ : Shape).Idx → EReal) (D : (⟨2, ![N, 1]⟩ : Shape).Idx → EReal)
    (A : (⟨2, ![N, 128]⟩ : Shape).Idx → EReal) (i : Fin N) (n : Fin 128) :
    linAdd X W B D A (ix2 i n) = linAddAt X W B D A i n := rfl

/-- The dot product of row `i` of `A` with row `i` of `P`. -/
def rowDotAt (A P : (⟨2, ![N, 128]⟩ : Shape).Idx → EReal) (i : Fin N) : EReal :=
  ∑ k : Fin 128, A (ix2 i k) * P (ix2 i k)

/-- The row dot products as an `N × 1` column. -/
def rowDot (A P : (⟨2, ![N, 128]⟩ : Shape).Idx → EReal) : (⟨2, ![N, 1]⟩ : Shape).Idx → EReal :=
  fun j => rowDotAt A P ⟨(j 0).val, idx2_lt0 j⟩

theorem rowDot_ix2 (A P : (⟨2, ![N, 128]⟩ : Shape).Idx → EReal) (i : Fin N) (z : Fin 1) :
    rowDot A P (ix2 i z) = rowDotAt A P i := rfl

end Cert.Spec

end
-- ==== Proof.Net.lean ====
/-
  One round of message passing of the network, written two ways over the extended reals, and why they agree.

  Edges carry rows from a source table `X` (row `rowOf sidx e` for edge `e`) to the rows of a destination table (the
  edges `lands didx i` land on row `i`). THE REFERENCE projects each gathered row (`x ↦ x · Wᵀ + b`) and adds the
  projected rows up per destination. THE KERNEL adds the raw gathered rows up per destination, counts the edges per
  destination, and projects once: `(∑ₑ xₑ) · Wᵀ + (number of edges) · b`. For tables whose entries are real numbers
  the two are the same finite double sum, in the two orders; over the extended reals the product does not distribute
  over a sum of infinities of opposite sign, so the law is stated for real data.
-/
import proofs.«126235_j54030688583922_2_alg».proof.Proof.LibEdgeOps
import proofs.«126235_j54030688583922_2_alg».proof.Proof.LibLinear
import proofs.«126235_j54030688583922_2_alg».proof.Proof.LibRealOps
import proofs.«126235_j54030688583922_2_alg».proof.Proof.Spec
import Idealize.ShloMosaic.Lib.IdealHost
import Idealize.ShloMosaic.Lib.KernelVsHost

noncomputable section

namespace Cert.Net

open Idealize.ShloMosaic Idealize.ShloMosaic.ValueIdx Cert.EdgeOps Cert.GraphAE Cert.Spec

/-! ## Constant arrays and bias rows read at an index -/

theorem zeros_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply]
  exact Ideal.ofBits_zero_f32

theorem ones_apply {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply]
  exact Ideal.ofBits_one_f32

/-- A bias vector laid out as one row reads, at `(0, n)`, its entry `n`. -/
theorem biasRow_apply {α : Type} (hb1 : (⟨1, ![128]⟩ : Shape).BroadcastsInDim ⟨2, ![1, 128]⟩ ![1])
    (b : (⟨1, ![128]⟩ : Shape).Idx → α) (u : Fin 1) (n : Fin 128) :
    broadcastInDim ⟨2, ![1, 128]⟩ ![1] hb1 b (ix2 u n) = b (ix1 n) := by
  refine broadcastInDim_apply ![1] hb1 b (ix2 u n) (ix1 n) fun a => ?_
  match a with
  | ⟨0, _⟩ =>
    show n.val = if (128 : ℕ) = 1 then 0 else n.val
    rw [if_neg (by decide)]

/-- A bias vector repeated down `R` rows reads, at `(r, n)`, its entry `n`. -/
theorem biasRows_apply {R : Nat} (hb1 : (⟨1, ![128]⟩ : Shape).BroadcastsInDim ⟨2, ![1, 128]⟩ ![1])
    (hbR : (⟨2, ![1, 128]⟩ : Shape).BroadcastsInDim ⟨2, ![R, 128]⟩ ![0, 1]) (b : FVec Ideal ⟨1, ![128]⟩ .f32) (r : Fin R) (n : Fin 128) :
    broadcastInDim ⟨2, ![R, 128]⟩ ![0, 1] hbR (broadcastInDim ⟨2, ![1, 128]⟩ ![1] hb1 b) (ix2 r n) = b (ix1 n) := by
  rw [broadcastInDim_oneRow_apply, biasRow_apply]

/-! ## The two spellings of one aggregation -/

section Round

variable {M N E : Nat}
variable (wfG : GatherDims.WF ⟨2, ![M, 128]⟩ ⟨2, ![E, 1]⟩ ⟨2, ![E, 128]⟩ [1] [0] [] [0] [] 1 ![1, 128])
  (wfD : DotDims.WF ⟨2, ![E, 128]⟩ ⟨2, ![128, 128]⟩ ⟨2, ![E, 128]⟩ [1] [0] [0] [1] [] [])
  (hT : (⟨2, ![128, 128]⟩ : Shape).Transposes [1, 0] ⟨2, ![128, 128]⟩)
  (hb1 : (⟨1, ![128]⟩ : Shape).BroadcastsInDim ⟨2, ![1, 128]⟩ ![1])
  (hbE : (⟨2, ![1, 128]⟩ : Shape).BroadcastsInDim ⟨2, ![E, 128]⟩ ![0, 1])
  (wfS : ScatterDims.WF ⟨2, ![N, 128]⟩ ⟨2, ![E, 1]⟩ ⟨2, ![E, 128]⟩ [1] [0] [0] 1)
  (h0 : (⟨0, ![]⟩ : Shape).BroadcastsInDim ⟨2, ![N, 128]⟩ ![])
  (wfS1 : ScatterDims.WF ⟨1, ![N]⟩ ⟨2, ![E, 1]⟩ ⟨1, ![E]⟩ [] [0] [0] 1)
  (h0N : (⟨0, ![]⟩ : Shape).BroadcastsInDim ⟨1, ![N]⟩ ![])
  (h1E : (⟨0, ![]⟩ : Shape).BroadcastsInDim ⟨1, ![E]⟩ ![])
  (wfDN : DotDims.WF ⟨2, ![N, 128]⟩ ⟨2, ![128, 128]⟩ ⟨2, ![N, 128]⟩ [1] [0] [0] [1] [] [])
  (hbN : (⟨2, ![1, 128]⟩ : Shape).BroadcastsInDim ⟨2, ![N, 128]⟩ ![0, 1])
  (hc1 : (⟨1, ![128]⟩ : Shape).ShapeCasts ⟨2, ![1, 128]⟩)
  (hcN : (⟨1, ![N]⟩ : Shape).ShapeCasts ⟨2, ![N, 1]⟩)

/-- The reference's messages: each gathered row projected, `x · Wᵀ + b`. -/
def refMsg (X : FVec Ideal ⟨2, ![M, 128]⟩ .f32) (sidx : IVec ⟨2, ![E, 1]⟩ 32) (W : FVec Ideal ⟨2, ![128, 128]⟩ .f32)
    (b : FVec Ideal ⟨1, ![128]⟩ .f32) : FVec Ideal ⟨2, ![E, 128]⟩ .f32 :=
  addf (Host.dotGeneral (⟨[1], [0], [0], [1], [], [], wfD⟩ : DotDims ⟨2, ![E, 128]⟩ ⟨2, ![128, 128]⟩ ⟨2, ![E, 128]⟩) none
      (Host.gather (rowGather M E 128 wfG) X sidx) (transpose ⟨2, ![128, 128]⟩ [1, 0] W hT))
    (broadcastInDim ⟨2, ![E, 128]⟩ ![0, 1] hbE (broadcastInDim ⟨2, ![1, 128]⟩ ![1] hb1 b))

/-- The reference's aggregate: the messages added up per destination row, from zero. -/
def refAgg (X : FVec Ideal ⟨2, ![M, 128]⟩ .f32) (sidx didx : IVec ⟨2, ![E, 1]⟩ 32) (W : FVec Ideal ⟨2, ![128, 128]⟩ .f32)
    (b : FVec Ideal ⟨1, ![128]⟩ .f32) : FVec Ideal ⟨2, ![N, 128]⟩ .f32 :=
  Host.scatterAdd (rowScatter N E 128 wfS) (broadcastInDim ⟨2, ![N, 128]⟩ ![] h0 (constant ⟨0, ![]⟩ .f32 0x00000000#32)) didx
    (refMsg wfG wfD hT hb1 hbE X sidx W b)

/-- The reference's self term: the table projected, `Y · Wᵀ + b`. -/
def refSelf (Y : FVec Ideal ⟨2, ![N, 128]⟩ .f32) (W : FVec Ideal ⟨2, ![128, 128]⟩ .f32) (b : FVec Ideal ⟨1, ![128]⟩ .f32) :
    FVec Ideal ⟨2, ![N, 128]⟩ .f32 :=
  addf (Host.dotGeneral (⟨[1], [0], [0], [1], [], [], wfDN⟩ : DotDims ⟨2, ![N, 128]⟩ ⟨2, ![128, 128]⟩ ⟨2, ![N, 128]⟩) none Y
      (transpose ⟨2, ![128, 128]⟩ [1, 0] W hT))
    (broadcastInDim ⟨2, ![N, 128]⟩ ![0, 1] hbN (broadcastInDim ⟨2, ![1, 128]⟩ ![1] hb1 b))

/-- The kernel's raw aggregate: the gathered rows added up per destination row, from zero. -/
def kerRaw (X : FVec Ideal ⟨2, ![M, 128]⟩ .f32) (sidx didx : IVec ⟨2, ![E, 1]⟩ 32) : FVec Ideal ⟨2, ![N, 128]⟩ .f32 :=
  Host.scatterAdd (rowScatter N E 128 wfS) (broadcastInDim ⟨2, ![N, 128]⟩ ![] h0 (constant ⟨0, ![]⟩ .f32 0x00000000#32)) didx
    (Host.gather (rowGather M E 128 wfG) X sidx)

/-- The kernel's edge count per destination row: ones added up, from zero. -/
def kerDeg (didx : IVec ⟨2, ![E, 1]⟩ 32) : FVec Ideal ⟨1, ![N]⟩ .f32 :=
  Host.scatterAdd (numScatter N E wfS1) (broadcastInDim ⟨1, ![N]⟩ ![] h0N (constant ⟨0, ![]⟩ .f32 0x00000000#32)) didx
    (broadcastInDim ⟨1, ![E]⟩ ![] h1E (constant ⟨0, ![]⟩ .f32 0x3F800000#32))

variable (hM : 0 < M)

theorem refMsg_apply (X : FVec Ideal ⟨2, ![M, 128]⟩ .f32) (sidx : IVec ⟨2, ![E, 1]⟩ 32) (W : FVec Ideal ⟨2, ![128, 128]⟩ .f32)
    (b : FVec Ideal ⟨1, ![128]⟩ .f32) (e : Fin E) (n : Fin 128) :
    refMsg wfG wfD hT hb1 hbE X sidx W b (ix2 e n)
      = (∑ k : Fin 128, X (ix2 (rowOf hM sidx e) k) * W (ix2 n k)) + b (ix1 n) := by
  unfold refMsg
  rw [addf_apply, Cert.Linear.dotGeneral_plain_apply, biasRows_apply]
  refine congrArg (· + b (ix1 n)) (Finset.sum_congr rfl fun k _ => ?_)
  rw [gather_rows_apply hM, transpose_ix2_apply]

theorem refAgg_apply (X : FVec Ideal ⟨2, ![M, 128]⟩ .f32) (sidx didx : IVec ⟨2, ![E, 1]⟩ 32) (W : FVec Ideal ⟨2, ![128, 128]⟩ .f32)
    (b : FVec Ideal ⟨1, ![128]⟩ .f32) (i : Fin N) (n : Fin 128) :
    refAgg wfG wfD hT hb1 hbE wfS h0 X sidx didx W b (ix2 i n)
      = 0 + ∑ e ∈ lands didx i, ((∑ k : Fin 128, X (ix2 (rowOf hM sidx e) k) * W (ix2 n k)) + b (ix1 n)) := by
  unfold refAgg
  show Ideal.hostScatterAdd _ _ _ _ _ = _
  rw [scatterAdd_rows_apply, zeros_apply]
  exact congrArg (0 + ·) (Finset.sum_congr rfl fun e _ => refMsg_apply wfG wfD hT hb1 hbE hM X sidx W b e n)

theorem refSelf_apply (Y : FVec Ideal ⟨2, ![N, 128]⟩ .f32) (W : FVec Ideal ⟨2, ![128, 128]⟩ .f32) (b : FVec Ideal ⟨1, ![128]⟩ .f32)
    (i : Fin N) (n : Fin 128) :
    refSelf hT hb1 wfDN hbN Y W b (ix2 i n) = (∑ k : Fin 128, Y (ix2 i k) * W (ix2 n k)) + b (ix1 n) := by
  unfold refSelf
  rw [addf_apply, Cert.Linear.dotGeneral_plain_apply, biasRows_apply]
  refine congrArg (· + b (ix1 n)) (Finset.sum_congr rfl fun k _ => ?_)
  rw [transpose_ix2_apply]

theorem kerRaw_apply (X : FVec Ideal ⟨2, ![M, 128]⟩ .f32) (sidx didx : IVec ⟨2, ![E, 1]⟩ 32) (i : Fin N) (k : Fin 128) :
    kerRaw wfG wfS h0 X sidx didx (ix2 i k) = 0 + ∑ e ∈ lands didx i, X (ix2 (rowOf hM sidx e) k) := by
  unfold kerRaw
  show Ideal.hostScatterAdd _ _ _ _ _ = _
  rw [scatterAdd_rows_apply, zeros_apply]
  exact congrArg (0 + ·) (Finset.sum_congr rfl fun e _ => gather_rows_apply hM wfG X sidx e k)

theorem kerDeg_apply (didx : IVec ⟨2, ![E, 1]⟩ 32) (i : Fin N) :
    kerDeg wfS1 h0N h1E didx (ix1 i) = 0 + ∑ _e ∈ lands didx i, (1 : EReal) := by
  unfold kerDeg
  show Ideal.hostScatterAdd _ _ _ _ _ = _
  rw [scatterAdd_nums_apply, zeros_apply]
  exact congrArg (0 + ·) (Finset.sum_congr rfl fun e _ => ones_apply h1E _)

/-! ## The exchange -/

/-- Over the reals: adding up the projected rows is projecting the added-up rows, the bias once per edge. -/
theorem agg_exchange_real {ε : Type*} (S : Finset ε) (x : ε → Fin 128 → ℝ) (w : Fin 128 → ℝ) (b : ℝ) :
    ∑ e ∈ S, ((∑ k, x e k * w k) + b) = (∑ k, (∑ e ∈ S, x e k) * w k) + (∑ _e ∈ S, (1 : ℝ)) * b := by
  rw [Finset.sum_add_distrib, Finset.sum_comm]
  congr 1
  · exact Finset.sum_congr rfl fun k _ => (Finset.sum_mul _ _ _).symm
  · rw [Finset.sum_const, Finset.sum_const, nsmul_eq_mul, nsmul_eq_mul, mul_one]

/-- The same over the extended reals, for data that are real numbers. -/
theorem agg_exchange {ε : Type*} (S : Finset ε) (x : ε → Fin 128 → EReal) (w : Fin 128 → EReal) (b : EReal)
    (hx : ∀ e k, ∃ r : ℝ, x e k = (r : EReal)) (hw : ∀ k, ∃ r : ℝ, w k = (r : EReal)) (hb : ∃ r : ℝ, b = (r : EReal)) :
    0 + ∑ e ∈ S, ((∑ k, x e k * w k) + b)
      = (∑ k, (0 + ∑ e ∈ S, x e k) * w k) + (0 + ∑ _e ∈ S, (1 : EReal)) * b := by
  choose x' hx' using hx
  choose w' hw' using hw
  obtain ⟨b', rfl⟩ := hb
  simp only [hx', hw', zero_add, ← EReal.coe_one, ← EReal.coe_mul, coe_sum, ← EReal.coe_add]
  exact congrArg _ (agg_exchange_real S x' w' b')

include hM in
/-- ONE ROUND INTO A TABLE WITH A SELF TERM: the reference's aggregate of projected messages plus the projected table is
    the kernel's fused pair of projections of the raw aggregate and the table. -/
theorem round_exchange (X : FVec Ideal ⟨2, ![M, 128]⟩ .f32) (sidx didx : IVec ⟨2, ![E, 1]⟩ 32)
    (W : FVec Ideal ⟨2, ![128, 128]⟩ .f32) (b : FVec Ideal ⟨1, ![128]⟩ .f32)
    (Y : FVec Ideal ⟨2, ![N, 128]⟩ .f32) (W2 : FVec Ideal ⟨2, ![128, 128]⟩ .f32) (b2 : FVec Ideal ⟨1, ![128]⟩ .f32)
    (hX : AllReal X) (hW : AllReal W) (hb : AllReal b) :
    addf (refAgg wfG wfD hT hb1 hbE wfS h0 X sidx didx W b) (refSelf hT hb1 wfDN hbN Y W2 b2)
      = dualLin (kerRaw wfG wfS h0 X sidx didx) W (shapeCast ⟨2, ![1, 128]⟩ b hc1)
          (shapeCast ⟨2, ![N, 1]⟩ (kerDeg wfS1 h0N h1E didx) hcN) Y W2 (shapeCast ⟨2, ![1, 128]⟩ b2 hc1) := by
  funext j
  obtain ⟨i, n, rfl⟩ : ∃ (i : Fin N) (n : Fin 128), j = ix2 i n := ⟨j 0, j 1, eq_ix2 j⟩
  rw [addf_apply, refAgg_apply wfG wfD hT hb1 hbE wfS h0 hM, refSelf_apply, dualLin_ix2]
  unfold dualLinAt rowMul
  rw [shapeCast_a_1a_apply, shapeCast_a_1a_apply, Cert.Linear.shapeCast_a_a1_apply, kerDeg_apply]
  simp only [kerRaw_apply wfG wfS h0 hM]
  rw [agg_exchange _ _ _ _ (fun e k => hX _) (fun k => hW _) (hb _), ← add_assoc]

/-- ONE ROUND ADDED TO THE TABLE IT READS: the table plus the reference's aggregate of projected messages is the
    kernel's projection of the raw aggregate, plus the table. -/
theorem co_exchange (wfG' : GatherDims.WF ⟨2, ![N, 128]⟩ ⟨2, ![E, 1]⟩ ⟨2, ![E, 128]⟩ [1] [0] [] [0] [] 1 ![1, 128]) (hN : 0 < N)
    (A : FVec Ideal ⟨2, ![N, 128]⟩ .f32) (sidx didx : IVec ⟨2, ![E, 1]⟩ 32)
    (W : FVec Ideal ⟨2, ![128, 128]⟩ .f32) (b : FVec Ideal ⟨1, ![128]⟩ .f32)
    (hA : AllReal A) (hW : AllReal W) (hb : AllReal b) :
    addf A (refAgg wfG' wfD hT hb1 hbE wfS h0 A sidx didx W b)
      = linAdd (kerRaw wfG' wfS h0 A sidx didx) W (shapeCast ⟨2, ![1, 128]⟩ b hc1)
          (shapeCast ⟨2, ![N, 1]⟩ (kerDeg wfS1 h0N h1E didx) hcN) A := by
  funext j
  obtain ⟨i, n, rfl⟩ : ∃ (i : Fin N) (n : Fin 128), j = ix2 i n := ⟨j 0, j 1, eq_ix2 j⟩
  rw [addf_apply, refAgg_apply wfG' wfD hT hb1 hbE wfS h0 hN, linAdd_ix2]
  unfold linAddAt rowMul
  rw [shapeCast_a_1a_apply, Cert.Linear.shapeCast_a_a1_apply, kerDeg_apply]
  simp only [kerRaw_apply wfG' wfS h0 hN]
  rw [agg_exchange _ _ _ _ (fun e k => hA _) (fun k => hW _) (hb _), add_comm]

/-! ## Real entries stay real -/

theorem allReal_zeros {T : Shape} (h : (⟨0, ![]⟩ : Shape).BroadcastsInDim T ![]) :
    AllReal (broadcastInDim T ![] h (constant (F := Ideal) ⟨0, ![]⟩ .f32 0x00000000#32)) :=
  fun j => ⟨0, zeros_apply h j⟩

theorem allReal_ones {T : Shape} (h : (⟨0, ![]⟩ : Shape).BroadcastsInDim T ![]) :
    AllReal (broadcastInDim T ![] h (constant (F := Ideal) ⟨0, ![]⟩ .f32 0x3F800000#32)) :=
  fun j => ⟨1, ones_apply h j⟩

theorem allReal_shapeCast {s t : Shape} (x : s.Idx → EReal) (h : s.ShapeCasts t) (hx : AllReal x) : AllReal (shapeCast t x h) :=
  fun _ => hx _

theorem allReal_kerRaw (X : FVec Ideal ⟨2, ![M, 128]⟩ .f32) (sidx didx : IVec ⟨2, ![E, 1]⟩ 32) (hX : AllReal X) :
    AllReal (kerRaw wfG wfS h0 X sidx didx) :=
  allReal_scatterAdd _ _ (allReal_zeros h0) (allReal_gather _ _ hX)

theorem allReal_kerDeg (didx : IVec ⟨2, ![E, 1]⟩ 32) : AllReal (kerDeg wfS1 h0N h1E didx) :=
  allReal_scatterAdd _ _ (allReal_zeros h0N) (allReal_ones h1E)

end Round

theorem allReal_dualLin {N : Nat} (X1 : (⟨2, ![N, 128]⟩ : Shape).Idx → EReal) (W1 : (⟨2, ![128, 128]⟩ : Shape).Idx → EReal)
    (B1 : (⟨2, ![1, 128]⟩ : Shape).Idx → EReal) (D : (⟨2, ![N, 1]⟩ : Shape).Idx → EReal)
    (X2 : (⟨2, ![N, 128]⟩ : Shape).Idx → EReal) (W2 : (⟨2, ![128, 128]⟩ : Shape).Idx → EReal)
    (B2 : (⟨2, ![1, 128]⟩ : Shape).Idx → EReal) (h1 : AllReal X1) (h2 : AllReal W1) (h3 : AllReal B1) (h4 : AllReal D)
    (h5 : AllReal X2) (h6 : AllReal W2) (h7 : AllReal B2) : AllReal (dualLin X1 W1 B1 D X2 W2 B2) :=
  fun _ => real_add (real_add (real_add (real_sum _ _ fun k _ => real_mul (h1 _) (h2 _)) (real_mul (h4 _) (h3 _)))
    (real_sum _ _ fun k _ => real_mul (h5 _) (h6 _))) (h7 _)

theorem allReal_linAdd {N : Nat} (X : (⟨2, ![N, 128]⟩ : Shape).Idx → EReal) (W : (⟨2, ![128, 128]⟩ : Shape).Idx → EReal)
    (B : (⟨2, ![1, 128]⟩ : Shape).Idx → EReal) (D : (⟨2, ![N, 1]⟩ : Shape).Idx → EReal)
    (A : (⟨2, ![N, 128]⟩ : Shape).Idx → EReal) (h1 : AllReal X) (h2 : AllReal W) (h3 : AllReal B) (h4 : AllReal D)
    (h5 : AllReal A) : AllReal (linAdd X W B D A) :=
  fun _ => real_add (real_add (real_sum _ _ fun k _ => real_mul (h1 _) (h2 _)) (real_mul (h4 _) (h3 _))) (h5 _)

/-! ## The row dot products -/

/-- The host's sum over the columns of the products of two tables, from zero, is the column of row dot products. -/
theorem rowDot_eq {N : Nat} (a p : FVec Ideal ⟨2, ![N, 128]⟩ .f32)
    (hR' : (⟨2, ![N, 128]⟩ : Shape).ReducesTo [1] ⟨1, ![N]⟩) (hR : (⟨2, ![N, 128]⟩ : Shape).Reduces [1] ⟨1, ![N]⟩)
    (hu : 0 < (⟨0, ![]⟩ : Shape).numel) (hc : (⟨2, ![N, 1]⟩ : Shape).ShapeCasts ⟨1, ![N]⟩) :
    Host.reduceAdd (mulf a p) (constant ⟨0, ![]⟩ .f32 0x00000000#32) hR' hu = shapeCast ⟨1, ![N]⟩ (rowDot a p) hc := by
  funext j
  obtain ⟨i, rfl⟩ : ∃ i : Fin N, j = ix1 i := ⟨j 0, eq_ix1 j⟩
  rw [Cert.Linear.shapeCast_a1_a_apply, rowDot_ix2]
  show Ideal.hostReduceAdd hR' (mulf a p) (Ideal.ofBits .f32 0x00000000#32) (ix1 i) = _
  rw [Ideal.hostReduceAdd_single hR' hR, Ideal.ofBits_zero_f32, zero_add]
  unfold rowDotAt
  show ∑ k : Fin 128, _ = _
  refine Finset.sum_congr rfl fun k _ => ?_
  have hl : hR.lift (ix1 i) k = ix2 i k := by
    funext ax; apply Fin.ext
    match ax with
    | ⟨0, _⟩ => rfl
    | ⟨1, _⟩ => rfl
  rw [hl]
  rfl

end Cert.Net

end
-- ==== Proof.KValues.lean ====
/-
  The arrays the kernel program computes, as functions of its fifteen argument arrays.

  `eA`, `eP` are the author and paper ends of the author–paper edges, `cS`, `cD` the two ends of the coauthor edges,
  `sA`, `sP` the ends of the supervision edges. A gather reads a table through an edge end with negative words
  wrapped (`wrap`); a scatter adds per destination through the raw edge end. `rawAP`, `rawPA`, `rawCo` are the raw
  aggregates (gathered rows added per destination), `degP`, `degA`, `degC` the edge counts per destination. One layer is
  `paper ← rawAP(author) · W_a2pᵀ + deg · b_a2p + paper · W_pselfᵀ + b_pself`, the same for authors from papers, then
  `author ← rawCo(author) · W_coᵀ + deg · b_co + author`; the result is the row dot products of the gathered final rows.
-/
import proofs.«126235_j54030688583922_2_alg».proof.Proof.Gen.KernelIdeal
import proofs.«126235_j54030688583922_2_alg».proof.Proof.Net

noncomputable section

namespace Cert.KernelIdeal.Hand

open Idealize.ShloMosaic Cert.KernelIdeal Cert.KernelIdeal.Gen Cert.Spec

/-! ## Edge ends -/

def eA (a2 : IVec S2x500000 32) : IVec S500000 32 :=
  shapeCast _ (extractStridedSlice S1x500000 ![0, 0] a2 slices_S2x500000_S1x500000_0_0) shapeCasts_S1x500000_S500000
def eP (a2 : IVec S2x500000 32) : IVec S500000 32 :=
  shapeCast _ (extractStridedSlice S1x500000 ![1, 0] a2 slices_S2x500000_S1x500000_1_0) shapeCasts_S1x500000_S500000
def cS (a3 : IVec S2x250000 32) : IVec S250000 32 :=
  shapeCast _ (extractStridedSlice S1x250000 ![0, 0] a3 slices_S2x250000_S1x250000_0_0) shapeCasts_S1x250000_S250000
def cD (a3 : IVec S2x250000 32) : IVec S250000 32 :=
  shapeCast _ (extractStridedSlice S1x250000 ![1, 0] a3 slices_S2x250000_S1x250000_1_0) shapeCasts_S1x250000_S250000
def sA (a4 : IVec S2x100000 32) : IVec S100000 32 :=
  shapeCast _ (extractStridedSlice S1x100000 ![0, 0] a4 slices_S2x100000_S1x100000_0_0) shapeCasts_S1x100000_S100000
def sP (a4 : IVec S2x100000 32) : IVec S100000 32 :=
  shapeCast _ (extractStridedSlice S1x100000 ![1, 0] a4 slices_S2x100000_S1x100000_1_0) shapeCasts_S1x100000_S100000

def col5 (x : IVec S500000 32) : IVec S500000x1 32 := broadcastInDim S500000x1 ![0] bcast_S500000_S500000x1_0 x
def col25 (x : IVec S250000 32) : IVec S250000x1 32 := broadcastInDim S250000x1 ![0] bcast_S250000_S250000x1_0 x
def col1 (x : IVec S100000 32) : IVec S100000x1 32 := broadcastInDim S100000x1 ![0] bcast_S100000_S100000x1_0 x

/-- A negative word has the table's length `n` added (numpy's indexing from the end). -/
def wrap5 (n : BitVec 32) (x : IVec S500000 32) : IVec S500000 32 :=
  select (cmpi .slt x (broadcastInDim S500000 ![] bcast_S_S500000 (constantI S_ 32 0#32)))
    (addi x (broadcastInDim S500000 ![] bcast_S_S500000 (constantI S_ 32 n))) x
def wrap25 (n : BitVec 32) (x : IVec S250000 32) : IVec S250000 32 :=
  select (cmpi .slt x (broadcastInDim S250000 ![] bcast_S_S250000 (constantI S_ 32 0#32)))
    (addi x (broadcastInDim S250000 ![] bcast_S_S250000 (constantI S_ 32 n))) x
def wrap1 (n : BitVec 32) (x : IVec S100000 32) : IVec S100000 32 :=
  select (cmpi .slt x (broadcastInDim S100000 ![] bcast_S_S100000 (constantI S_ 32 0#32)))
    (addi x (broadcastInDim S100000 ![] bcast_S_S100000 (constantI S_ 32 n))) x

/-! ## Weights and biases of the two layers -/

def w0 (a : FVec Ideal S2x128x128 .f32) : FVec Ideal S128x128 .f32 :=
  shapeCast _ (extractStridedSlice S1x128x128 ![0, 0, 0] a slices_S2x128x128_S1x128x128_0_0_0) shapeCasts_S1x128x128_S128x128
def w1 (a : FVec Ideal S2x128x128 .f32) : FVec Ideal S128x128 .f32 :=
  shapeCast _ (extractStridedSlice S1x128x128 ![1, 0, 0] a slices_S2x128x128_S1x128x128_1_0_0) shapeCasts_S1x128x128_S128x128
def b0 (a : FVec Ideal S2x128 .f32) : FVec Ideal S128 .f32 :=
  shapeCast _ (extractStridedSlice S1x128 ![0, 0] a slices_S2x128_S1x128_0_0) shapeCasts_S1x128_S128
def b1 (a : FVec Ideal S2x128 .f32) : FVec Ideal S128 .f32 :=
  shapeCast _ (extractStridedSlice S1x128 ![1, 0] a slices_S2x128_S1x128_1_0) shapeCasts_S1x128_S128
/-- A bias vector as the one-row array a kernel reads. -/
def row (b : FVec Ideal S128 .f32) : FVec Ideal S1x128 .f32 := shapeCast S1x128 b shapeCasts_S128_S1x128

/-! ## Raw aggregates and edge counts -/

section
variable (a2 : IVec S2x500000 32) (a3 : IVec S2x250000 32)

def rawAP (X : FVec Ideal S100000x128 .f32) : FVec Ideal S200000x128 .f32 :=
  Cert.Net.kerRaw (M := 100000) (N := 200000) (E := 500000) gather_S100000x128_S500000x1_S500000x128_1_0_n_n_0_1_1128_wf
    scatter_S200000x128_S500000x1_S500000x128_1_0_0_1_wf bcast_S_S200000x128 X (col5 (wrap5 100000#32 (eA a2))) (col5 (eP a2))
def rawPA (X : FVec Ideal S200000x128 .f32) : FVec Ideal S100000x128 .f32 :=
  Cert.Net.kerRaw (M := 200000) (N := 100000) (E := 500000) gather_S200000x128_S500000x1_S500000x128_1_0_n_n_0_1_1128_wf
    scatter_S100000x128_S500000x1_S500000x128_1_0_0_1_wf bcast_S_S100000x128 X (col5 (wrap5 200000#32 (eP a2))) (col5 (eA a2))
def rawCo (X : FVec Ideal S100000x128 .f32) : FVec Ideal S100000x128 .f32 :=
  Cert.Net.kerRaw (M := 100000) (N := 100000) (E := 250000) gather_S100000x128_S250000x1_S250000x128_1_0_n_n_0_1_1128_wf
    scatter_S100000x128_S250000x1_S250000x128_1_0_0_1_wf bcast_S_S100000x128 X (col25 (wrap25 100000#32 (cS a3))) (col25 (cD a3))
def degP : FVec Ideal S200000 .f32 :=
  Cert.Net.kerDeg (N := 200000) (E := 500000) scatter_S200000_S500000x1_S500000_n_0_0_1_wf bcast_S_S200000 bcast_S_S500000 (col5 (eP a2))
def degA : FVec Ideal S100000 .f32 :=
  Cert.Net.kerDeg (N := 100000) (E := 500000) scatter_S100000_S500000x1_S500000_n_0_0_1_wf bcast_S_S100000 bcast_S_S500000 (col5 (eA a2))
def degC : FVec Ideal S100000 .f32 :=
  Cert.Net.kerDeg (N := 100000) (E := 250000) scatter_S100000_S250000x1_S250000_n_0_0_1_wf bcast_S_S100000 bcast_S_S250000 (col25 (cD a3))
def degColP : FVec Ideal S200000x1 .f32 := shapeCast S200000x1 (degP a2) shapeCasts_S200000_S200000x1
def degColA : FVec Ideal S100000x1 .f32 := shapeCast S100000x1 (degA a2) shapeCasts_S100000_S100000x1
def degColC : FVec Ideal S100000x1 .f32 := shapeCast S100000x1 (degC a3) shapeCasts_S100000_S100000x1
end

/-! ## The two layers and the result -/

section
variable (a0 : FVec Ideal S100000x128 .f32) (a1 : FVec Ideal S200000x128 .f32) (a2 : IVec S2x500000 32) (a3 : IVec S2x250000 32)
  (a4 : IVec S2x100000 32) (a5 : FVec Ideal S2x128x128 .f32) (a6 : FVec Ideal S2x128 .f32) (a7 : FVec Ideal S2x128x128 .f32)
  (a8 : FVec Ideal S2x128 .f32) (a9 : FVec Ideal S2x128x128 .f32) (a10 : FVec Ideal S2x128 .f32) (a11 : FVec Ideal S2x128x128 .f32)
  (a12 : FVec Ideal S2x128 .f32) (a13 : FVec Ideal S2x128x128 .f32) (a14 : FVec Ideal S2x128 .f32)

def kP1 : FVec Ideal S200000x128 .f32 :=
  dualLin (N := 200000) (rawAP a2 a0) (w0 a5) (row (b0 a6)) (degColP a2) a1 (w0 a11) (row (b0 a12))
def kA1p : FVec Ideal S100000x128 .f32 :=
  dualLin (N := 100000) (rawPA a2 a1) (w0 a7) (row (b0 a8)) (degColA a2) a0 (w0 a9) (row (b0 a10))
def kA1 : FVec Ideal S100000x128 .f32 :=
  linAdd (N := 100000) (rawCo a3 (kA1p a0 a1 a2 a7 a8 a9 a10)) (w0 a13) (row (b0 a14)) (degColC a3) (kA1p a0 a1 a2 a7 a8 a9 a10)
def kP2 : FVec Ideal S200000x128 .f32 :=
  dualLin (N := 200000) (rawAP a2 (kA1 a0 a1 a2 a3 a7 a8 a9 a10 a13 a14)) (w1 a5) (row (b1 a6)) (degColP a2)
    (kP1 a0 a1 a2 a5 a6 a11 a12) (w1 a11) (row (b1 a12))
def kA2p : FVec Ideal S100000x128 .f32 :=
  dualLin (N := 100000) (rawPA a2 (kP1 a0 a1 a2 a5 a6 a11 a12)) (w1 a7) (row (b1 a8)) (degColA a2)
    (kA1 a0 a1 a2 a3 a7 a8 a9 a10 a13 a14) (w1 a9) (row (b1 a10))
def kA2 : FVec Ideal S100000x128 .f32 :=
  linAdd (N := 100000) (rawCo a3 (kA2p a0 a1 a2 a3 a5 a6 a7 a8 a9 a10 a11 a12 a13 a14)) (w1 a13) (row (b1 a14)) (degColC a3)
    (kA2p a0 a1 a2 a3 a5 a6 a7 a8 a9 a10 a11 a12 a13 a14)
def gA : FVec Ideal S100000x128 .f32 :=
  Host.gather gather_S100000x128_S100000x1_S100000x128_1_0_n_n_0_1_1128 (kA2 a0 a1 a2 a3 a5 a6 a7 a8 a9 a10 a11 a12 a13 a14)
    (col1 (wrap1 100000#32 (sA a4)))
def gP : FVec Ideal S100000x128 .f32 :=
  Host.gather gather_S200000x128_S100000x1_S100000x128_1_0_n_n_0_1_1128 (kP2 a0 a1 a2 a3 a5 a6 a7 a8 a9 a10 a11 a12 a13 a14)
    (col1 (wrap1 200000#32 (sP a4)))
def kCol : FVec Ideal S100000x1 .f32 :=
  rowDot (N := 100000) (gA a0 a1 a2 a3 a4 a5 a6 a7 a8 a9 a10 a11 a12 a13 a14) (gP a0 a1 a2 a3 a4 a5 a6 a7 a8 a9 a10 a11 a12 a13 a14)
def kOut : FVec Ideal S100000 .f32 :=
  shapeCast S100000 (kCol a0 a1 a2 a3 a4 a5 a6 a7 a8 a9 a10 a11 a12 a13 a14) shapeCasts_S100000x1_S100000
end

end Cert.KernelIdeal.Hand

end
-- ==== Proof.KPay.lean ====
/-
  The arithmetic of the three kernel bodies, read at an index of the block they store.

  A body sees a block of 10000 rows. The two fused-projection bodies store, at row `r` and column `n`,
  `x₁[r] · w₁ᵀ + d[r] · b₁ + x₂[r] · w₂ᵀ + b₂` (resp. `x[r] · wᵀ + d[r] · b + a[r]`); the row-dot body stores the sum over
  the columns of `a[r, k] · p[r, k]`. These are the network's row maps (`Spec`) of the blocks.
-/
import proofs.«126235_j54030688583922_2_alg».proof.Proof.Gen.KernelIdeal.Skeleton
import proofs.«126235_j54030688583922_2_alg».proof.Proof.Spec
import proofs.«126235_j54030688583922_2_alg».proof.Proof.LibLinear

noncomputable section

namespace Cert.KernelIdeal.Hand

open Idealize.ShloMosaic Idealize.ShloMosaic.ValueIdx Cert.KernelIdeal Cert.KernelIdeal.Gen

/-- The matrix unit's `x · wᵀ` on a block, at `(r, n)`. -/
theorem mm_apply (x : FVec Ideal S10000x128 .f32) (w : FVec Ideal S128x128 .f32) (r : Fin 10000) (n : Fin 128) :
    matmul dot_S10000x128_S128x128_S10000x128_1_1_0_0_n_n none x w (constant S10000x128 .f32 0x00000000#32) (ix2 r n)
      = ∑ k : Fin 128, x (ix2 r k) * w (ix2 n k) :=
  Cert.Linear.matmul_lastAxes_apply _ none x w r n

theorem k0_pay1_apply (x0 : Vec Ideal S10000x128 .f32) (w1 : Vec Ideal S128x128 .f32) (x2 : Vec Ideal S10000x128 .f32)
    (w2 : Vec Ideal S128x128 .f32) (d : Vec Ideal S10000x1 .f32) (b1 b2 : Vec Ideal S1x128 .f32) (r : Fin 10000) (n : Fin 128) :
    k0_pay1 x0 w1 x2 w2 d b1 b2 (ix2 r n) = Cert.Spec.dualLinAt x0 w1 b1 d x2 w2 b2 r n := by
  unfold k0_pay1 Cert.Spec.dualLinAt Cert.Spec.rowMul
  simp only [shapeCast_self, addf_apply, mulf_apply, mm_apply, Cert.Linear.broadcastTo_a1_ab_apply,
    broadcastTo_1b_ab_apply]

theorem k1_pay1_apply (x0 : Vec Ideal S10000x128 .f32) (w1 : Vec Ideal S128x128 .f32) (x2 : Vec Ideal S10000x128 .f32)
    (w2 : Vec Ideal S128x128 .f32) (d : Vec Ideal S10000x1 .f32) (b1 b2 : Vec Ideal S1x128 .f32) (r : Fin 10000) (n : Fin 128) :
    k1_pay1 x0 w1 x2 w2 d b1 b2 (ix2 r n) = Cert.Spec.dualLinAt x0 w1 b1 d x2 w2 b2 r n := by
  unfold k1_pay1 Cert.Spec.dualLinAt Cert.Spec.rowMul
  simp only [shapeCast_self, addf_apply, mulf_apply, mm_apply, Cert.Linear.broadcastTo_a1_ab_apply,
    broadcastTo_1b_ab_apply]

theorem k3_pay1_apply (x0 : Vec Ideal S10000x128 .f32) (w1 : Vec Ideal S128x128 .f32) (x2 : Vec Ideal S10000x128 .f32)
    (w2 : Vec Ideal S128x128 .f32) (d : Vec Ideal S10000x1 .f32) (b1 b2 : Vec Ideal S1x128 .f32) (r : Fin 10000) (n : Fin 128) :
    k3_pay1 x0 w1 x2 w2 d b1 b2 (ix2 r n) = Cert.Spec.dualLinAt x0 w1 b1 d x2 w2 b2 r n := by
  unfold k3_pay1 Cert.Spec.dualLinAt Cert.Spec.rowMul
  simp only [shapeCast_self, addf_apply, mulf_apply, mm_apply, Cert.Linear.broadcastTo_a1_ab_apply,
    broadcastTo_1b_ab_apply]

theorem k4_pay1_apply (x0 : Vec Ideal S10000x128 .f32) (w1 : Vec Ideal S128x128 .f32) (x2 : Vec Ideal S10000x128 .f32)
    (w2 : Vec Ideal S128x128 .f32) (d : Vec Ideal S10000x1 .f32) (b1 b2 : Vec Ideal S1x128 .f32) (r : Fin 10000) (n : Fin 128) :
    k4_pay1 x0 w1 x2 w2 d b1 b2 (ix2 r n) = Cert.Spec.dualLinAt x0 w1 b1 d x2 w2 b2 r n := by
  unfold k4_pay1 Cert.Spec.dualLinAt Cert.Spec.rowMul
  simp only [shapeCast_self, addf_apply, mulf_apply, mm_apply, Cert.Linear.broadcastTo_a1_ab_apply,
    broadcastTo_1b_ab_apply]

theorem k2_pay1_apply (x : Vec Ideal S10000x128 .f32) (w : Vec Ideal S128x128 .f32) (d : Vec Ideal S10000x1 .f32)
    (b : Vec Ideal S1x128 .f32) (a : Vec Ideal S10000x128 .f32) (r : Fin 10000) (n : Fin 128) :
    k2_pay1 x w d b a (ix2 r n) = Cert.Spec.linAddAt x w b d a r n := by
  unfold k2_pay1 Cert.Spec.linAddAt Cert.Spec.rowMul
  simp only [shapeCast_self, addf_apply, mulf_apply, mm_apply, Cert.Linear.broadcastTo_a1_ab_apply,
    broadcastTo_1b_ab_apply]

theorem k5_pay1_apply (x : Vec Ideal S10000x128 .f32) (w : Vec Ideal S128x128 .f32) (d : Vec Ideal S10000x1 .f32)
    (b : Vec Ideal S1x128 .f32) (a : Vec Ideal S10000x128 .f32) (r : Fin 10000) (n : Fin 128) :
    k5_pay1 x w d b a (ix2 r n) = Cert.Spec.linAddAt x w b d a r n := by
  unfold k5_pay1 Cert.Spec.linAddAt Cert.Spec.rowMul
  simp only [shapeCast_self, addf_apply, mulf_apply, mm_apply, Cert.Linear.broadcastTo_a1_ab_apply,
    broadcastTo_1b_ab_apply]

theorem k6_pay1_apply (a p : Vec Ideal S10000x128 .f32) (r : Fin 10000) (z : Fin 1) :
    k6_pay1 a p (ix2 r z) = Cert.Spec.rowDotAt a p r := by
  unfold k6_pay1 Cert.Spec.rowDotAt
  simp only [shapeCast_self]
  rw [Cert.Linear.shapeCast_a_a1_apply]
  refine (Ideal.multiReduction_add_single _ _ _ _ _ (ix1 r)).trans ?_
  show ∑ k : Fin 128, _ = _
  refine Finset.sum_congr rfl fun k _ => ?_
  have hl : reduces_S10000x128_S10000.lift (ix1 r) k = ix2 r k := by
    funext ax; apply Fin.ext
    match ax with
    | ⟨0, _⟩ => rfl
    | ⟨1, _⟩ => rfl
  rw [hl]
  rfl

end Cert.KernelIdeal.Hand

end
-- ==== Proof.KRegion0.lean ====
/-
  Region 0 of the kernel program (a fused pair of projections
  over 200000 rows, in 20 blocks of 10000 rows): the array the region leaves is the network's row map of the arrays
  the region finds. Point `t` of the grid reads rows `10000·t … 10000·t + 9999` of the row arrays (and the whole weight
  matrix and bias row), and writes the same rows of the result; the 20 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: a row array's block index is `(t, 0)`, a weight's or a bias row's `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem blk0_0 (c : Dev nD) (t : Fin cfg0.N) (r : Fin 10000) (q : Fin 128) (R : Fin 200000) (hR : R.val = t.val * 10000 + r.val) :
    (iblk0 V c 0 t : Vec Ideal S10000x128 .f32) (ix2 r q) = (V c main_v28 : S200000x128.Idx → EReal) (ix2 R q) := by
  have e0 : win0_0.index t (0 : Fin 2) = t.val := (idx0 t).1
  have e1 : win0_0.index t (1 : Fin 2) = 0 := (idx0 t).2.1
  unfold iblk0
  rw [View.read_apply]
  show V c main_v28 _ = V c main_v28 _
  congr 1
  funext a
  apply Fin.ext
  match a with
  | ⟨0, _⟩ => show win0_0.index t (0 : Fin 2) * 10000 + 1 * r.val = R.val; rw [e0, hR]; omega
  | ⟨1, _⟩ => show win0_0.index t (1 : Fin 2) * 128 + 1 * q.val = q.val; rw [e1]; omega

theorem blk0_1 (c : Dev nD) (t : Fin cfg0.N) (p : Fin 128) (q : Fin 128) :
    (iblk0 V c 1 t : Vec Ideal S128x128 .f32) (ix2 p q) = (V c main_v40 : S128x128.Idx → EReal) (ix2 p q) := by
  have e0 : win0_1.index t (0 : Fin 2) = 0 := (idx0 t).2.2.1
  have e1 : win0_1.index t (1 : Fin 2) = 0 := (idx0 t).2.2.2.1
  unfold iblk0
  rw [View.read_apply]
  show V c main_v40 _ = V c main_v40 _
  congr 1
  funext a
  apply Fin.ext
  match a with
  | ⟨0, _⟩ => show win0_1.index t (0 : Fin 2) * 128 + 1 * p.val = p.val; rw [e0]; omega
  | ⟨1, _⟩ => show win0_1.index t (1 : Fin 2) * 128 + 1 * q.val = q.val; rw [e1]; omega

theorem blk0_2 (c : Dev nD) (t : Fin cfg0.N) (p : Fin 1) (q : Fin 128) :
    (iblk0 V c 2 t : Vec Ideal S1x128 .f32) (ix2 p q) = (V c main_v47 : S1x128.Idx → EReal) (ix2 p q) := by
  have e0 : win0_2.index t (0 : Fin 2) = 0 := (idx0 t).2.2.2.2.1
  have e1 : win0_2.index t (1 : Fin 2) = 0 := (idx0 t).2.2.2.2.2.1
  unfold iblk0
  rw [View.read_apply]
  show V c main_v47 _ = V c main_v47 _
  congr 1
  funext a
  apply Fin.ext
  match a with
  | ⟨0, _⟩ => show win0_2.index t (0 : Fin 2) * 1 + 1 * p.val = p.val; rw [e0]; omega
  | ⟨1, _⟩ => show win0_2.index t (1 : Fin 2) * 128 + 1 * q.val = q.val; rw [e1]; omega

theorem blk0_3 (c : Dev nD) (t : Fin cfg0.N) (r : Fin 10000) (q : Fin 1) (R : Fin 200000) (hR : R.val = t.val * 10000 + r.val) :
    (iblk0 V c 3 t : Vec Ideal S10000x1 .f32) (ix2 r q) = (V c main_v49 : S200000x1.Idx → EReal) (ix2 R q) := by
  have e0 : win0_3.index t (0 : Fin 2) = t.val := (idx0 t).2.2.2.2.2.2.1
  have e1 : win0_3.index t (1 : Fin 2) = 0 := (idx0 t).2.2.2.2.2.2.2.1
  unfold iblk0
  rw [View.read_apply]
  show V c main_v49 _ = V c main_v49 _
  congr 1
  funext a
  apply Fin.ext
  match a with
  | ⟨0, _⟩ => show win0_3.index t (0 : Fin 2) * 10000 + 1 * r.val = R.val; rw [e0, hR]; omega
  | ⟨1, _⟩ => show win0_3.index t (1 : Fin 2) * 1 + 1 * q.val = q.val; rw [e1]; omega

theorem blk0_4 (c : Dev nD) (t : Fin cfg0.N) (r : Fin 10000) (q : Fin 128) (R : Fin 200000) (hR : R.val = t.val * 10000 + r.val) :
    (iblk0 V c 4 t : Vec Ideal S10000x128 .f32) (ix2 r q) = (V c main_arg1 : S200000x128.Idx → EReal) (ix2 R q) := by
  have e0 : win0_4.index t (0 : Fin 2) = t.val := (idx0 t).2.2.2.2.2.2.2.2.1
  have e1 : win0_4.index t (1 : Fin 2) = 0 := (idx0 t).2.2.2.2.2.2.2.2.2.1
  unfold iblk0
  rw [View.read_apply]
  show V c main_arg1 _ = V c main_arg1 _
  congr 1
  funext a
  apply Fin.ext
  match a with
  | ⟨0, _⟩ => show win0_4.index t (0 : Fin 2) * 10000 + 1 * r.val = R.val; rw [e0, hR]; omega
  | ⟨1, _⟩ => show win0_4.index t (1 : Fin 2) * 128 + 1 * q.val = q.val; rw [e1]; omega

theorem blk0_5 (c : Dev nD) (t : Fin cfg0.N) (p : Fin 128) (q : Fin 128) :
    (iblk0 V c 5 t : Vec Ideal S128x128 .f32) (ix2 p q) = (V c main_v44 : S128x128.Idx → EReal) (ix2 p q) := by
  have e0 : win0_5.index t (0 : Fin 2) = 0 := (idx0 t).2.2.2.2.2.2.2.2.2.2.1
  have e1 : win0_5.index t (1 : Fin 2) = 0 := (idx0 t).2.2.2.2.2.2.2.2.2.2.2.1
  unfold iblk0
  rw [View.read_apply]
  show V c main_v44 _ = V c main_v44 _
  congr 1
  funext a
  apply Fin.ext
  match a with
  | ⟨0, _⟩ => show win0_5.index t (0 : Fin 2) * 128 + 1 * p.val = p.val; rw [e0]; omega
  | ⟨1, _⟩ => show win0_5.index t (1 : Fin 2) * 128 + 1 * q.val = q.val; rw [e1]; omega

theorem blk0_6 (c : Dev nD) (t : Fin cfg0.N) (p : Fin 1) (q : Fin 128) :
    (iblk0 V c 6 t : Vec Ideal S1x128 .f32) (ix2 p q) = (V c main_v48 : S1x128.Idx → EReal) (ix2 p q) := by
  have e0 : win0_6.index t (0 : Fin 2) = 0 := (idx0 t).2.2.2.2.2.2.2.2.2.2.2.2.1
  have e1 : win0_6.index t (1 : Fin 2) = 0 := (idx0 t).2.2.2.2.2.2.2.2.2.2.2.2.2.1
  unfold iblk0
  rw [View.read_apply]
  show V c main_v48 _ = V c main_v48 _
  congr 1
  funext a
  apply Fin.ext
  match a with
  | ⟨0, _⟩ => show win0_6.index t (0 : Fin 2) * 1 + 1 * p.val = p.val; rw [e0]; omega
  | ⟨1, _⟩ => show win0_6.index t (1 : Fin 2) * 128 + 1 * q.val = q.val; rw [e1]; omega

/-- WHAT POINT `t` WRITES BACK: rows `10000·t …` of the row map of the arrays the region finds. -/
theorem flushed0 (c : Dev nD) (t : Fin cfg0.N) :
    (dat0 V c).flushed 7 t = ((cfg0.win 7).blk t).view.read (Elt Ideal) (Cert.Spec.dualLin (N := 200000) (V c main_v28) (V c main_v40) (V c main_v47) (V c main_v49) (V c main_arg1) (V c main_v44) (V c main_v48)) := by
  show (cfg0.win 7).cut (grid0.coords t) ((dat0 V c).after 7 t) = _
  rw [after0_7]
  unfold out0_7
  rw [View.canon_unit_zero hz0]
  simp only [View.ld_unit_zero (S := S10000x128) hz0, View.ld_unit_zero (S := S128x128) hz0, View.ld_unit_zero (S := S10000x1) hz0, View.ld_unit_zero (S := S1x128) hz0]
  funext y
  obtain ⟨r, n, rfl⟩ : ∃ (r : Fin 10000) (n : Fin 128), y = ix2 r n := ⟨y 0, y 1, eq_ix2 y⟩
  have hN : cfg0.N = 20 := N_0
  have ht : t.val < 20 := hN ▸ t.isLt
  have e0 : win0_7.index t (0 : Fin 2) = t.val := (idx0 t).2.2.2.2.2.2.2.2.2.2.2.2.2.2.1
  have e1 : win0_7.index t (1 : Fin 2) = 0 := (idx0 t).2.2.2.2.2.2.2.2.2.2.2.2.2.2.2
  obtain ⟨R, hR⟩ : ∃ R : Fin 200000, R.val = t.val * 10000 + r.val := ⟨⟨t.val * 10000 + r.val, by omega⟩, rfl⟩
  have hemb : ((cfg0.win 7).blk t).view.emb (ix2 r n) = (ix2 R n : S200000x128.Idx) := by
    funext a
    apply Fin.ext
    match a with
    | ⟨0, _⟩ => show win0_7.index t (0 : Fin 2) * 10000 + 1 * r.val = R.val; rw [e0, hR]; omega
    | ⟨1, _⟩ => show win0_7.index t (1 : Fin 2) * 128 + 1 * n.val = n.val; rw [e1]; omega
  rw [View.read_apply, hemb]
  refine (k0_pay1_apply (iblk0 V c 0 t) (iblk0 V c 1 t) (iblk0 V c 4 t) (iblk0 V c 5 t) (iblk0 V c 3 t) (iblk0 V c 2 t) (iblk0 V c 6 t) r n).trans ?_
  rw [Cert.Spec.dualLin_ix2]
  unfold Cert.Spec.dualLinAt Cert.Spec.rowMul
  simp only [fun q => blk0_0 V c t r q R hR, blk0_1 V c t, blk0_2 V c t, fun q => blk0_3 V c t r q R hR,
    fun q => blk0_4 V c t r q R hR, blk0_5 V c t, blk0_6 V c t]
  rfl

/-- The 20 blocks tile the result: row `i` is in block `i / 10000`. -/
theorem cover0 (i : S200000x128.Idx) :
    ∃ t : Fin cfg0.N, (cfg0.win 7).flush t = true ∧ i ∈ ((cfg0.win 7).blk t).view.set := by
  have hN : cfg0.N = 20 := N_0
  have hi0 : (i 0).val < 200000 := (i 0).isLt
  have hi1 : (i 1).val < 128 := (i 1).isLt
  obtain ⟨t, htv⟩ : ∃ t : Fin cfg0.N, t.val = (i 0).val / 10000 := ⟨⟨(i 0).val / 10000, by rw [hN]; omega⟩, rfl⟩
  have e0 : win0_7.index t (0 : Fin 2) = t.val := (idx0 t).2.2.2.2.2.2.2.2.2.2.2.2.2.2.1
  have e1 : win0_7.index t (1 : Fin 2) = 0 := (idx0 t).2.2.2.2.2.2.2.2.2.2.2.2.2.2.2
  refine ⟨t, flush0_7 t, ?_⟩
  show i ∈ ((View.whole main_v50).slice (win0_7.rect t)).set
  rw [View.set_slice_whole, Rect.mem_set_unit]
  intro a
  match a with
  | ⟨0, _⟩ =>
    show win0_7.index t (0 : Fin 2) * 10000 ≤ (i 0).val ∧ (i 0).val < win0_7.index t (0 : Fin 2) * 10000 + 10000
    rw [e0, htv]; omega
  | ⟨1, _⟩ =>
    show win0_7.index t (1 : Fin 2) * 128 ≤ (i 1).val ∧ (i 1).val < win0_7.index t (1 : Fin 2) * 128 + 128
    rw [e1]; omega

/-- THE ARRAY THE REGION LEAVES: the row map of the arrays it finds. -/
theorem final0 (c : Dev nD) : (dat0 V c).arrAt 7 cfg0.N = Cert.Spec.dualLin (N := 200000) (V c main_v28) (V c main_v40) (V c main_v47) (V c main_v49) (V c main_arg1) (V c main_v44) (V c main_v48) :=
  (dat0 V c).arrAt_eq_of_cover 7 (Cert.Spec.dualLin (N := 200000) (V c main_v28) (V c main_v40) (V c main_v47) (V c main_v49) (V c main_arg1) (V c main_v44) (V c main_v48)) (fun t _ => flushed0 V c t) (cover0)

end Cert.KernelIdeal.Hand

end
-- ==== Proof.KStep0.lean ====
/-
  Step 0 of the kernel program's fold: what the buffers the next region reads hold after stretch 0 of host
  operations, and what region 0 leaves in its result, as the named functions of the argument arrays.
-/
import proofs.«126235_j54030688583922_2_alg».proof.Proof.Gen.KernelIdeal.Frame
import proofs.«126235_j54030688583922_2_alg».proof.Proof.KKeep
import proofs.«126235_j54030688583922_2_alg».proof.Proof.KValues
import proofs.«126235_j54030688583922_2_alg».proof.Proof.KRegion0

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

/-- Argument 0 of the program as launched, on core `c`. -/
abbrev aA0 : FVec Ideal S100000x128 .f32 := m ((c : Thread nD τ).loc main_arg0)
/-- Argument 1 of the program as launched, on core `c`. -/
abbrev aA1 : FVec Ideal S200000x128 .f32 := m ((c : Thread nD τ).loc main_arg1)
/-- Argument 2 of the program as launched, on core `c`. -/
abbrev aA2 : IVec S2x500000 32 := m ((c : Thread nD τ).loc main_arg2)
/-- Argument 3 of the program as launched, on core `c`. -/
abbrev aA3 : IVec S2x250000 32 := m ((c : Thread nD τ).loc main_arg3)
/-- Argument 4 of the program as launched, on core `c`. -/
abbrev aA4 : IVec S2x100000 32 := m ((c : Thread nD τ).loc main_arg4)
/-- Argument 5 of the program as launched, on core `c`. -/
abbrev aA5 : FVec Ideal S2x128x128 .f32 := m ((c : Thread nD τ).loc main_arg5)
/-- Argument 6 of the program as launched, on core `c`. -/
abbrev aA6 : FVec Ideal S2x128 .f32 := m ((c : Thread nD τ).loc main_arg6)
/-- Argument 7 of the program as launched, on core `c`. -/
abbrev aA7 : FVec Ideal S2x128x128 .f32 := m ((c : Thread nD τ).loc main_arg7)
/-- Argument 8 of the program as launched, on core `c`. -/
abbrev aA8 : FVec Ideal S2x128 .f32 := m ((c : Thread nD τ).loc main_arg8)
/-- Argument 9 of the program as launched, on core `c`. -/
abbrev aA9 : FVec Ideal S2x128x128 .f32 := m ((c : Thread nD τ).loc main_arg9)
/-- Argument 10 of the program as launched, on core `c`. -/
abbrev aA10 : FVec Ideal S2x128 .f32 := m ((c : Thread nD τ).loc main_arg10)
/-- Argument 11 of the program as launched, on core `c`. -/
abbrev aA11 : FVec Ideal S2x128x128 .f32 := m ((c : Thread nD τ).loc main_arg11)
/-- Argument 12 of the program as launched, on core `c`. -/
abbrev aA12 : FVec Ideal S2x128 .f32 := m ((c : Thread nD τ).loc main_arg12)
/-- Argument 13 of the program as launched, on core `c`. -/
abbrev aA13 : FVec Ideal S2x128x128 .f32 := m ((c : Thread nD τ).loc main_arg13)
/-- Argument 14 of the program as launched, on core `c`. -/
abbrev aA14 : FVec Ideal S2x128 .f32 := m ((c : Thread nD τ).loc main_arg14)

theorem at0_arg0 : W0 m ρ c (Proc.devRef .tc main_arg0) = (aA0 m c) := rfl
theorem at0_arg1 : W0 m ρ c (Proc.devRef .tc main_arg1) = (aA1 m c) := rfl
theorem at0_arg2 : W0 m ρ c (Proc.devRef .tc main_arg2) = (aA2 m c) := rfl
theorem at0_arg3 : W0 m ρ c (Proc.devRef .tc main_arg3) = (aA3 m c) := rfl
theorem at0_arg4 : W0 m ρ c (Proc.devRef .tc main_arg4) = (aA4 m c) := rfl
theorem at0_arg5 : W0 m ρ c (Proc.devRef .tc main_arg5) = (aA5 m c) := rfl
theorem at0_arg6 : W0 m ρ c (Proc.devRef .tc main_arg6) = (aA6 m c) := rfl
theorem at0_arg7 : W0 m ρ c (Proc.devRef .tc main_arg7) = (aA7 m c) := rfl
theorem at0_arg8 : W0 m ρ c (Proc.devRef .tc main_arg8) = (aA8 m c) := rfl
theorem at0_arg9 : W0 m ρ c (Proc.devRef .tc main_arg9) = (aA9 m c) := rfl
theorem at0_arg10 : W0 m ρ c (Proc.devRef .tc main_arg10) = (aA10 m c) := rfl
theorem at0_arg11 : W0 m ρ c (Proc.devRef .tc main_arg11) = (aA11 m c) := rfl
theorem at0_arg12 : W0 m ρ c (Proc.devRef .tc main_arg12) = (aA12 m c) := rfl
theorem at0_arg13 : W0 m ρ c (Proc.devRef .tc main_arg13) = (aA13 m c) := rfl
theorem at0_arg14 : W0 m ρ c (Proc.devRef .tc main_arg14) = (aA14 m c) := rfl

set_option maxHeartbeats 2000000 in
theorem at1_v1 : W1 m ρ c (Proc.devRef .tc main_v1) = eA (aA2 m c) := by
  show StableHlo.after hostOps0 _ _ = _
  simp only [hostOps0]
  after_results_simp
  rfl

set_option maxHeartbeats 2000000 in
theorem at1_v3 : W1 m ρ c (Proc.devRef .tc main_v3) = eP (aA2 m c) := by
  show StableHlo.after hostOps0 _ _ = _
  simp only [hostOps0]
  after_results_simp
  rfl

set_option maxHeartbeats 2000000 in
theorem at1_v5 : W1 m ρ c (Proc.devRef .tc main_v5) = cS (aA3 m c) := by
  show StableHlo.after hostOps0 _ _ = _
  simp only [hostOps0]
  after_results_simp
  rfl

set_option maxHeartbeats 2000000 in
theorem at1_v7 : W1 m ρ c (Proc.devRef .tc main_v7) = cD (aA3 m c) := by
  show StableHlo.after hostOps0 _ _ = _
  simp only [hostOps0]
  after_results_simp
  rfl

set_option maxHeartbeats 2000000 in
theorem at1_v11 : W1 m ρ c (Proc.devRef .tc main_v11) = degP (aA2 m c) := by
  show StableHlo.after hostOps0 _ _ = _
  simp only [hostOps0]
  after_results_simp
  rfl

set_option maxHeartbeats 2000000 in
theorem at1_v14 : W1 m ρ c (Proc.devRef .tc main_v14) = degA (aA2 m c) := by
  show StableHlo.after hostOps0 _ _ = _
  simp only [hostOps0]
  after_results_simp
  rfl

set_option maxHeartbeats 2000000 in
theorem at1_v18 : W1 m ρ c (Proc.devRef .tc main_v18) = degC (aA3 m c) := by
  show StableHlo.after hostOps0 _ _ = _
  simp only [hostOps0]
  after_results_simp
  rfl

set_option maxHeartbeats 2000000 in
theorem at1_v28 : W1 m ρ c (Proc.devRef .tc main_v28) = rawAP (aA2 m c) (aA0 m c) := by
  show StableHlo.after hostOps0 _ _ = _
  simp only [hostOps0]
  after_results_simp
  rfl

set_option maxHeartbeats 2000000 in
theorem at1_v38 : W1 m ρ c (Proc.devRef .tc main_v38) = rawPA (aA2 m c) (aA1 m c) := by
  show StableHlo.after hostOps0 _ _ = _
  simp only [hostOps0]
  after_results_simp
  rfl

set_option maxHeartbeats 2000000 in
theorem at1_v40 : W1 m ρ c (Proc.devRef .tc main_v40) = w0 (aA5 m c) := by
  show StableHlo.after hostOps0 _ _ = _
  simp only [hostOps0]
  after_results_simp
  rfl

set_option maxHeartbeats 2000000 in
theorem at1_v44 : W1 m ρ c (Proc.devRef .tc main_v44) = w0 (aA11 m c) := by
  show StableHlo.after hostOps0 _ _ = _
  simp only [hostOps0]
  after_results_simp
  rfl

set_option maxHeartbeats 2000000 in
theorem at1_v47 : W1 m ρ c (Proc.devRef .tc main_v47) = row (b0 (aA6 m c)) := by
  show StableHlo.after hostOps0 _ _ = _
  simp only [hostOps0]
  after_results_simp
  rfl

set_option maxHeartbeats 2000000 in
theorem at1_v48 : W1 m ρ c (Proc.devRef .tc main_v48) = row (b0 (aA12 m c)) := by
  show StableHlo.after hostOps0 _ _ = _
  simp only [hostOps0]
  after_results_simp
  rfl

set_option maxHeartbeats 2000000 in
theorem at1_v49 : W1 m ρ c (Proc.devRef .tc main_v49) = degColP (aA2 m c) := by
  show StableHlo.after hostOps0 _ _ = _
  simp only [hostOps0]
  after_results_simp
  rfl

theorem at2_v50 : W2 m ρ c (Proc.devRef .tc main_v50) = kP1 (aA0 m c) (aA1 m c) (aA2 m c) (aA5 m c) (aA6 m c) (aA11 m c) (aA12 m c) := by
  have e0 : W1 m ρ c (Proc.devRef .tc main_v28) = rawAP (aA2 m c) (aA0 m c) := at1_v28 m ρ c
  have e1 : W1 m ρ c (Proc.devRef .tc main_v40) = w0 (aA5 m c) := at1_v40 m ρ c
  have e2 : W1 m ρ c (Proc.devRef .tc main_v47) = row (b0 (aA6 m c)) := at1_v47 m ρ c
  have e3 : W1 m ρ c (Proc.devRef .tc main_v49) = degColP (aA2 m c) := at1_v49 m ρ c
  have e4 : W1 m ρ c (Proc.devRef .tc main_arg1) = (aA1 m c) := (keepH0 m ρ c main_arg1 (by decide)).trans (at0_arg1 m ρ c)
  have e5 : W1 m ρ c (Proc.devRef .tc main_v44) = w0 (aA11 m c) := at1_v44 m ρ c
  have e6 : W1 m ρ c (Proc.devRef .tc main_v48) = row (b0 (aA12 m c)) := at1_v48 m ρ c
  refine (W2_arr m ρ c 7).trans ((final0 (V1 m ρ) c).trans ?_)
  show dualLin (N := 200000) (W1 m ρ c (Proc.devRef .tc main_v28)) (W1 m ρ c (Proc.devRef .tc main_v40)) (W1 m ρ c (Proc.devRef .tc main_v47)) (W1 m ρ c (Proc.devRef .tc main_v49)) (W1 m ρ c (Proc.devRef .tc main_arg1)) (W1 m ρ c (Proc.devRef .tc main_v44)) (W1 m ρ c (Proc.devRef .tc main_v48)) = _
  rw [e0, e1, e2, e3, e4, e5, e6]
  rfl

end Cert.KernelIdeal.Hand

end
-- ==== Proof.KRegion1.lean ====
/-
  Region 1 of the kernel program (a fused pair of projections
  over 100000 rows, in 10 blocks of 10000 rows): the array the region leaves is the network's row map of the arrays
  the region finds. Point `t` of the grid reads rows `10000·t … 10000·t + 9999` of the row arrays (and the whole weight
  matrix and bias row), and writes the same rows of the result; the 10 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: a row array's block index is `(t, 0)`, a weight's or a bias row's `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem blk1_0 (c : Dev nD) (t : Fin cfg1.N) (r : Fin 10000) (q : Fin 128) (R : Fin 100000) (hR : R.val = t.val * 10000 + r.val) :
    (iblk1 V c 0 t : Vec Ideal S10000x128 .f32) (ix2 r q) = (V c main_v38 : S100000x128.Idx → EReal) (ix2 R q) := by
  have e0 : win1_0.index t (0 : Fin 2) = t.val := (idx1 t).1
  have e1 : win1_0.index t (1 : Fin 2) = 0 := (idx1 t).2.1
  unfold iblk1
  rw [View.read_apply]
  show V c main_v38 _ = V c main_v38 _
  congr 1
  funext a
  apply Fin.ext
  match a with
  | ⟨0, _⟩ => show win1_0.index t (0 : Fin 2) * 10000 + 1 * r.val = R.val; rw [e0, hR]; omega
  | ⟨1, _⟩ => show win1_0.index t (1 : Fin 2) * 128 + 1 * q.val = q.val; rw [e1]; omega

theorem blk1_1 (c : Dev nD) (t : Fin cfg1.N) (p : Fin 128) (q : Fin 128) :
    (iblk1 V c 1 t : Vec Ideal S128x128 .f32) (ix2 p q) = (V c main_v52 : S128x128.Idx → EReal) (ix2 p q) := by
  have e0 : win1_1.index t (0 : Fin 2) = 0 := (idx1 t).2.2.1
  have e1 : win1_1.index t (1 : Fin 2) = 0 := (idx1 t).2.2.2.1
  unfold iblk1
  rw [View.read_apply]
  show V c main_v52 _ = V c main_v52 _
  congr 1
  funext a
  apply Fin.ext
  match a with
  | ⟨0, _⟩ => show win1_1.index t (0 : Fin 2) * 128 + 1 * p.val = p.val; rw [e0]; omega
  | ⟨1, _⟩ => show win1_1.index t (1 : Fin 2) * 128 + 1 * q.val = q.val; rw [e1]; omega

theorem blk1_2 (c : Dev nD) (t : Fin cfg1.N) (p : Fin 1) (q : Fin 128) :
    (iblk1 V c 2 t : Vec Ideal S1x128 .f32) (ix2 p q) = (V c main_v59 : S1x128.Idx → EReal) (ix2 p q) := by
  have e0 : win1_2.index t (0 : Fin 2) = 0 := (idx1 t).2.2.2.2.1
  have e1 : win1_2.index t (1 : Fin 2) = 0 := (idx1 t).2.2.2.2.2.1
  unfold iblk1
  rw [View.read_apply]
  show V c main_v59 _ = V c main_v59 _
  congr 1
  funext a
  apply Fin.ext
  match a with
  | ⟨0, _⟩ => show win1_2.index t (0 : Fin 2) * 1 + 1 * p.val = p.val; rw [e0]; omega
  | ⟨1, _⟩ => show win1_2.index t (1 : Fin 2) * 128 + 1 * q.val = q.val; rw [e1]; omega

theorem blk1_3 (c : Dev nD) (t : Fin cfg1.N) (r : Fin 10000) (q : Fin 1) (R : Fin 100000) (hR : R.val = t.val * 10000 + r.val) :
    (iblk1 V c 3 t : Vec Ideal S10000x1 .f32) (ix2 r q) = (V c main_v61 : S100000x1.Idx → EReal) (ix2 R q) := by
  have e0 : win1_3.index t (0 : Fin 2) = t.val := (idx1 t).2.2.2.2.2.2.1
  have e1 : win1_3.index t (1 : Fin 2) = 0 := (idx1 t).2.2.2.2.2.2.2.1
  unfold iblk1
  rw [View.read_apply]
  show V c main_v61 _ = V c main_v61 _
  congr 1
  funext a
  apply Fin.ext
  match a with
  | ⟨0, _⟩ => show win1_3.index t (0 : Fin 2) * 10000 + 1 * r.val = R.val; rw [e0, hR]; omega
  | ⟨1, _⟩ => show win1_3.index t (1 : Fin 2) * 1 + 1 * q.val = q.val; rw [e1]; omega

theorem blk1_4 (c : Dev nD) (t : Fin cfg1.N) (r : Fin 10000) (q : Fin 128) (R : Fin 100000) (hR : R.val = t.val * 10000 + r.val) :
    (iblk1 V c 4 t : Vec Ideal S10000x128 .f32) (ix2 r q) = (V c main_arg0 : S100000x128.Idx → EReal) (ix2 R q) := by
  have e0 : win1_4.index t (0 : Fin 2) = t.val := (idx1 t).2.2.2.2.2.2.2.2.1
  have e1 : win1_4.index t (1 : Fin 2) = 0 := (idx1 t).2.2.2.2.2.2.2.2.2.1
  unfold iblk1
  rw [View.read_apply]
  show V c main_arg0 _ = V c main_arg0 _
  congr 1
  funext a
  apply Fin.ext
  match a with
  | ⟨0, _⟩ => show win1_4.index t (0 : Fin 2) * 10000 + 1 * r.val = R.val; rw [e0, hR]; omega
  | ⟨1, _⟩ => show win1_4.index t (1 : Fin 2) * 128 + 1 * q.val = q.val; rw [e1]; omega

theorem blk1_5 (c : Dev nD) (t : Fin cfg1.N) (p : Fin 128) (q : Fin 128) :
    (iblk1 V c 5 t : Vec Ideal S128x128 .f32) (ix2 p q) = (V c main_v56 : S128x128.Idx → EReal) (ix2 p q) := by
  have e0 : win1_5.index t (0 : Fin 2) = 0 := (idx1 t).2.2.2.2.2.2.2.2.2.2.1
  have e1 : win1_5.index t (1 : Fin 2) = 0 := (idx1 t).2.2.2.2.2.2.2.2.2.2.2.1
  unfold iblk1
  rw [View.read_apply]
  show V c main_v56 _ = V c main_v56 _
  congr 1
  funext a
  apply Fin.ext
  match a with
  | ⟨0, _⟩ => show win1_5.index t (0 : Fin 2) * 128 + 1 * p.val = p.val; rw [e0]; omega
  | ⟨1, _⟩ => show win1_5.index t (1 : Fin 2) * 128 + 1 * q.val = q.val; rw [e1]; omega

theorem blk1_6 (c : Dev nD) (t : Fin cfg1.N) (p : Fin 1) (q : Fin 128) :
    (iblk1 V c 6 t : Vec Ideal S1x128 .f32) (ix2 p q) = (V c main_v60 : S1x128.Idx → EReal) (ix2 p q) := by
  have e0 : win1_6.index t (0 : Fin 2) = 0 := (idx1 t).2.2.2.2.2.2.2.2.2.2.2.2.1
  have e1 : win1_6.index t (1 : Fin 2) = 0 := (idx1 t).2.2.2.2.2.2.2.2.2.2.2.2.2.1
  unfold iblk1
  rw [View.read_apply]
  show V c main_v60 _ = V c main_v60 _
  congr 1
  funext a
  apply Fin.ext
  match a with
  | ⟨0, _⟩ => show win1_6.index t (0 : Fin 2) * 1 + 1 * p.val = p.val; rw [e0]; omega
  | ⟨1, _⟩ => show win1_6.index t (1 : Fin 2) * 128 + 1 * q.val = q.val; rw [e1]; omega

/-- WHAT POINT `t` WRITES BACK: rows `10000·t …` of the row map of the arrays the region finds. -/
theorem flushed1 (c : Dev nD) (t : Fin cfg1.N) :
    (dat1 V c).flushed 7 t = ((cfg1.win 7).blk t).view.read (Elt Ideal) (Cert.Spec.dualLin (N := 100000) (V c main_v38) (V c main_v52) (V c main_v59) (V c main_v61) (V c main_arg0) (V c main_v56) (V c main_v60)) := by
  show (cfg1.win 7).cut (grid1.coords t) ((dat1 V c).after 7 t) = _
  rw [after1_7]
  unfold out1_7
  rw [View.canon_unit_zero hz1]
  simp only [View.ld_unit_zero (S := S10000x128) hz1, View.ld_unit_zero (S := S128x128) hz1, View.ld_unit_zero (S := S10000x1) hz1, View.ld_unit_zero (S := S1x128) hz1]
  funext y
  obtain ⟨r, n, rfl⟩ : ∃ (r : Fin 10000) (n : Fin 128), y = ix2 r n := ⟨y 0, y 1, eq_ix2 y⟩
  have hN : cfg1.N = 10 := N_1
  have ht : t.val < 10 := hN ▸ t.isLt
  have e0 : win1_7.index t (0 : Fin 2) = t.val := (idx1 t).2.2.2.2.2.2.2.2.2.2.2.2.2.2.1
  have e1 : win1_7.index t (1 : Fin 2) = 0 := (idx1 t).2.2.2.2.2.2.2.2.2.2.2.2.2.2.2
  obtain ⟨R, hR⟩ : ∃ R : Fin 100000, R.val = t.val * 10000 + r.val := ⟨⟨t.val * 10000 + r.val, by omega⟩, rfl⟩
  have hemb : ((cfg1.win 7).blk t).view.emb (ix2 r n) = (ix2 R n : S100000x128.Idx) := by
    funext a
    apply Fin.ext
    match a with
    | ⟨0, _⟩ => show win1_7.index t (0 : Fin 2) * 10000 + 1 * r.val = R.val; rw [e0, hR]; omega
    | ⟨1, _⟩ => show win1_7.index t (1 : Fin 2) * 128 + 1 * n.val = n.val; rw [e1]; omega
  rw [View.read_apply, hemb]
  refine (k1_pay1_apply (iblk1 V c 0 t) (iblk1 V c 1 t) (iblk1 V c 4 t) (iblk1 V c 5 t) (iblk1 V c 3 t) (iblk1 V c 2 t) (iblk1 V c 6 t) r n).trans ?_
  rw [Cert.Spec.dualLin_ix2]
  unfold Cert.Spec.dualLinAt Cert.Spec.rowMul
  simp only [fun q => blk1_0 V c t r q R hR, blk1_1 V c t, blk1_2 V c t, fun q => blk1_3 V c t r q R hR,
    fun q => blk1_4 V c t r q R hR, blk1_5 V c t, blk1_6 V c t]
  rfl

/-- The 10 blocks tile the result: row `i` is in block `i / 10000`. -/
theorem cover1 (i : S100000x128.Idx) :
    ∃ t : Fin cfg1.N, (cfg1.win 7).flush t = true ∧ i ∈ ((cfg1.win 7).blk t).view.set := by
  have hN : cfg1.N = 10 := N_1
  have hi0 : (i 0).val < 100000 := (i 0).isLt
  have hi1 : (i 1).val < 128 := (i 1).isLt
  obtain ⟨t, htv⟩ : ∃ t : Fin cfg1.N, t.val = (i 0).val / 10000 := ⟨⟨(i 0).val / 10000, by rw [hN]; omega⟩, rfl⟩
  have e0 : win1_7.index t (0 : Fin 2) = t.val := (idx1 t).2.2.2.2.2.2.2.2.2.2.2.2.2.2.1
  have e1 : win1_7.index t (1 : Fin 2) = 0 := (idx1 t).2.2.2.2.2.2.2.2.2.2.2.2.2.2.2
  refine ⟨t, flush1_7 t, ?_⟩
  show i ∈ ((View.whole main_v62).slice (win1_7.rect t)).set
  rw [View.set_slice_whole, Rect.mem_set_unit]
  intro a
  match a with
  | ⟨0, _⟩ =>
    show win1_7.index t (0 : Fin 2) * 10000 ≤ (i 0).val ∧ (i 0).val < win1_7.index t (0 : Fin 2) * 10000 + 10000
    rw [e0, htv]; omega
  | ⟨1, _⟩ =>
    show win1_7.index t (1 : Fin 2) * 128 ≤ (i 1).val ∧ (i 1).val < win1_7.index t (1 : Fin 2) * 128 + 128
    rw [e1]; omega

/-- THE ARRAY THE REGION LEAVES: the row map of the arrays it finds. -/
theorem final1 (c : Dev nD) : (dat1 V c).arrAt 7 cfg1.N = Cert.Spec.dualLin (N := 100000) (V c main_v38) (V c main_v52) (V c main_v59) (V c main_v61) (V c main_arg0) (V c main_v56) (V c main_v60) :=
  (dat1 V c).arrAt_eq_of_cover 7 (Cert.Spec.dualLin (N := 100000) (V c main_v38) (V c main_v52) (V c main_v59) (V c main_v61) (V c main_arg0) (V c main_v56) (V c main_v60)) (fun t _ => flushed1 V c t) (cover1)

end Cert.KernelIdeal.Hand

end
-- ==== Proof.KStep1.lean ====
/-
  Step 1 of the kernel program's fold: what the buffers the next region reads hold after stretch 1 of host
  operations, and what region 1 leaves in its result, as the named functions of the argument arrays.
-/
import proofs.«126235_j54030688583922_2_alg».proof.Proof.KStep0
import proofs.«126235_j54030688583922_2_alg».proof.Proof.KRegion1

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at3_v52 : W3 m ρ c (Proc.devRef .tc main_v52) = w0 (aA7 m c) := by
  have e0 : W2 m ρ c (Proc.devRef .tc main_arg7) = (aA7 m c) := (W2_of_ne m ρ c main_arg7 (by decide)).trans ((keepH0 m ρ c main_arg7 (by decide)).trans (at0_arg7 m ρ c))
  show StableHlo.after hostOps1 _ _ = _
  simp only [hostOps1]
  after_results_simp
  rw [e0]
  rfl

set_option maxHeartbeats 2000000 in
theorem at3_v56 : W3 m ρ c (Proc.devRef .tc main_v56) = w0 (aA9 m c) := by
  have e0 : W2 m ρ c (Proc.devRef .tc main_arg9) = (aA9 m c) := (W2_of_ne m ρ c main_arg9 (by decide)).trans ((keepH0 m ρ c main_arg9 (by decide)).trans (at0_arg9 m ρ c))
  show StableHlo.after hostOps1 _ _ = _
  simp only [hostOps1]
  after_results_simp
  rw [e0]
  rfl

set_option maxHeartbeats 2000000 in
theorem at3_v59 : W3 m ρ c (Proc.devRef .tc main_v59) = row (b0 (aA8 m c)) := by
  have e0 : W2 m ρ c (Proc.devRef .tc main_arg8) = (aA8 m c) := (W2_of_ne m ρ c main_arg8 (by decide)).trans ((keepH0 m ρ c main_arg8 (by decide)).trans (at0_arg8 m ρ c))
  show StableHlo.after hostOps1 _ _ = _
  simp only [hostOps1]
  after_results_simp
  rw [e0]
  rfl

set_option maxHeartbeats 2000000 in
theorem at3_v60 : W3 m ρ c (Proc.devRef .tc main_v60) = row (b0 (aA10 m c)) := by
  have e0 : W2 m ρ c (Proc.devRef .tc main_arg10) = (aA10 m c) := (W2_of_ne m ρ c main_arg10 (by decide)).trans ((keepH0 m ρ c main_arg10 (by decide)).trans (at0_arg10 m ρ c))
  show StableHlo.after hostOps1 _ _ = _
  simp only [hostOps1]
  after_results_simp
  rw [e0]
  rfl

set_option maxHeartbeats 2000000 in
theorem at3_v61 : W3 m ρ c (Proc.devRef .tc main_v61) = degColA (aA2 m c) := by
  have e0 : W2 m ρ c (Proc.devRef .tc main_v14) = degA (aA2 m c) := (W2_of_ne m ρ c main_v14 (by decide)).trans (at1_v14 m ρ c)
  show StableHlo.after hostOps1 _ _ = _
  simp only [hostOps1]
  after_results_simp
  rw [e0]
  rfl

theorem at4_v62 : W4 m ρ c (Proc.devRef .tc main_v62) = kA1p (aA0 m c) (aA1 m c) (aA2 m c) (aA7 m c) (aA8 m c) (aA9 m c) (aA10 m c) := by
  have e0 : W3 m ρ c (Proc.devRef .tc main_v38) = rawPA (aA2 m c) (aA1 m c) := (keepH1 m ρ c main_v38 (by decide)).trans ((W2_of_ne m ρ c main_v38 (by decide)).trans (at1_v38 m ρ c))
  have e1 : W3 m ρ c (Proc.devRef .tc main_v52) = w0 (aA7 m c) := at3_v52 m ρ c
  have e2 : W3 m ρ c (Proc.devRef .tc main_v59) = row (b0 (aA8 m c)) := at3_v59 m ρ c
  have e3 : W3 m ρ c (Proc.devRef .tc main_v61) = degColA (aA2 m c) := at3_v61 m ρ c
  have e4 : W3 m ρ c (Proc.devRef .tc main_arg0) = (aA0 m c) := (keepH1 m ρ c main_arg0 (by decide)).trans ((W2_of_ne m ρ c main_arg0 (by decide)).trans ((keepH0 m ρ c main_arg0 (by decide)).trans (at0_arg0 m ρ c)))
  have e5 : W3 m ρ c (Proc.devRef .tc main_v56) = w0 (aA9 m c) := at3_v56 m ρ c
  have e6 : W3 m ρ c (Proc.devRef .tc main_v60) = row (b0 (aA10 m c)) := at3_v60 m ρ c
  refine (W4_arr m ρ c 7).trans ((final1 (V3 m ρ) c).trans ?_)
  show dualLin (N := 100000) (W3 m ρ c (Proc.devRef .tc main_v38)) (W3 m ρ c (Proc.devRef .tc main_v52)) (W3 m ρ c (Proc.devRef .tc main_v59)) (W3 m ρ c (Proc.devRef .tc main_v61)) (W3 m ρ c (Proc.devRef .tc main_arg0)) (W3 m ρ c (Proc.devRef .tc main_v56)) (W3 m ρ c (Proc.devRef .tc main_v60)) = _
  rw [e0, e1, e2, e3, e4, e5, e6]
  rfl

end Cert.KernelIdeal.Hand

end
-- ==== Proof.KRegion2.lean ====
/-
  Region 2 of the kernel program (a projection added to a table
  over 100000 rows, in 10 blocks of 10000 rows): the array the region leaves is the network's row map of the arrays
  the region finds. Point `t` of the grid reads rows `10000·t … 10000·t + 9999` of the row arrays (and the whole weight
  matrix and bias row), and writes the same rows of the result; the 10 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: a row array's block index is `(t, 0)`, a weight's or a bias row's `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem blk2_0 (c : Dev nD) (t : Fin cfg2.N) (r : Fin 10000) (q : Fin 128) (R : Fin 100000) (hR : R.val = t.val * 10000 + r.val) :
    (iblk2 V c 0 t : Vec Ideal S10000x128 .f32) (ix2 r q) = (V c main_v72 : S100000x128.Idx → EReal) (ix2 R q) := by
  have e0 : win2_0.index t (0 : Fin 2) = t.val := (idx2 t).1
  have e1 : win2_0.index t (1 : Fin 2) = 0 := (idx2 t).2.1
  unfold iblk2
  rw [View.read_apply]
  show V c main_v72 _ = V c main_v72 _
  congr 1
  funext a
  apply Fin.ext
  match a with
  | ⟨0, _⟩ => show win2_0.index t (0 : Fin 2) * 10000 + 1 * r.val = R.val; rw [e0, hR]; omega
  | ⟨1, _⟩ => show win2_0.index t (1 : Fin 2) * 128 + 1 * q.val = q.val; rw [e1]; omega

theorem blk2_1 (c : Dev nD) (t : Fin cfg2.N) (p : Fin 128) (q : Fin 128) :
    (iblk2 V c 1 t : Vec Ideal S128x128 .f32) (ix2 p q) = (V c main_v74 : S128x128.Idx → EReal) (ix2 p q) := by
  have e0 : win2_1.index t (0 : Fin 2) = 0 := (idx2 t).2.2.1
  have e1 : win2_1.index t (1 : Fin 2) = 0 := (idx2 t).2.2.2.1
  unfold iblk2
  rw [View.read_apply]
  show V c main_v74 _ = V c main_v74 _
  congr 1
  funext a
  apply Fin.ext
  match a with
  | ⟨0, _⟩ => show win2_1.index t (0 : Fin 2) * 128 + 1 * p.val = p.val; rw [e0]; omega
  | ⟨1, _⟩ => show win2_1.index t (1 : Fin 2) * 128 + 1 * q.val = q.val; rw [e1]; omega

theorem blk2_2 (c : Dev nD) (t : Fin cfg2.N) (p : Fin 1) (q : Fin 128) :
    (iblk2 V c 2 t : Vec Ideal S1x128 .f32) (ix2 p q) = (V c main_v77 : S1x128.Idx → EReal) (ix2 p q) := by
  have e0 : win2_2.index t (0 : Fin 2) = 0 := (idx2 t).2.2.2.2.1
  have e1 : win2_2.index t (1 : Fin 2) = 0 := (idx2 t).2.2.2.2.2.1
  unfold iblk2
  rw [View.read_apply]
  show V c main_v77 _ = V c main_v77 _
  congr 1
  funext a
  apply Fin.ext
  match a with
  | ⟨0, _⟩ => show win2_2.index t (0 : Fin 2) * 1 + 1 * p.val = p.val; rw [e0]; omega
  | ⟨1, _⟩ => show win2_2.index t (1 : Fin 2) * 128 + 1 * q.val = q.val; rw [e1]; omega

theorem blk2_3 (c : Dev nD) (t : Fin cfg2.N) (r : Fin 10000) (q : Fin 1) (R : Fin 100000) (hR : R.val = t.val * 10000 + r.val) :
    (iblk2 V c 3 t : Vec Ideal S10000x1 .f32) (ix2 r q) = (V c main_v78 : S100000x1.Idx → EReal) (ix2 R q) := by
  have e0 : win2_3.index t (0 : Fin 2) = t.val := (idx2 t).2.2.2.2.2.2.1
  have e1 : win2_3.index t (1 : Fin 2) = 0 := (idx2 t).2.2.2.2.2.2.2.1
  unfold iblk2
  rw [View.read_apply]
  show V c main_v78 _ = V c main_v78 _
  congr 1
  funext a
  apply Fin.ext
  match a with
  | ⟨0, _⟩ => show win2_3.index t (0 : Fin 2) * 10000 + 1 * r.val = R.val; rw [e0, hR]; omega
  | ⟨1, _⟩ => show win2_3.index t (1 : Fin 2) * 1 + 1 * q.val = q.val; rw [e1]; omega

theorem blk2_4 (c : Dev nD) (t : Fin cfg2.N) (r : Fin 10000) (q : Fin 128) (R : Fin 100000) (hR : R.val = t.val * 10000 + r.val) :
    (iblk2 V c 4 t : Vec Ideal S10000x128 .f32) (ix2 r q) = (V c main_v62 : S100000x128.Idx → EReal) (ix2 R q) := by
  have e0 : win2_4.index t (0 : Fin 2) = t.val := (idx2 t).2.2.2.2.2.2.2.2.1
  have e1 : win2_4.index t (1 : Fin 2) = 0 := (idx2 t).2.2.2.2.2.2.2.2.2.1
  unfold iblk2
  rw [View.read_apply]
  show V c main_v62 _ = V c main_v62 _
  congr 1
  funext a
  apply Fin.ext
  match a with
  | ⟨0, _⟩ => show win2_4.index t (0 : Fin 2) * 10000 + 1 * r.val = R.val; rw [e0, hR]; omega
  | ⟨1, _⟩ => show win2_4.index t (1 : Fin 2) * 128 + 1 * q.val = q.val; rw [e1]; omega

/-- WHAT POINT `t` WRITES BACK: rows `10000·t …` of the row map of the arrays the region finds. -/
theorem flushed2 (c : Dev nD) (t : Fin cfg2.N) :
    (dat2 V c).flushed 5 t = ((cfg2.win 5).blk t).view.read (Elt Ideal) (Cert.Spec.linAdd (N := 100000) (V c main_v72) (V c main_v74) (V c main_v77) (V c main_v78) (V c main_v62)) := by
  show (cfg2.win 5).cut (grid2.coords t) ((dat2 V c).after 5 t) = _
  rw [after2_5]
  unfold out2_5
  rw [View.canon_unit_zero hz2]
  simp only [View.ld_unit_zero (S := S10000x128) hz2, View.ld_unit_zero (S := S128x128) hz2, View.ld_unit_zero (S := S10000x1) hz2, View.ld_unit_zero (S := S1x128) hz2]
  funext y
  obtain ⟨r, n, rfl⟩ : ∃ (r : Fin 10000) (n : Fin 128), y = ix2 r n := ⟨y 0, y 1, eq_ix2 y⟩
  have hN : cfg2.N = 10 := N_2
  have ht : t.val < 10 := hN ▸ t.isLt
  have e0 : win2_5.index t (0 : Fin 2) = t.val := (idx2 t).2.2.2.2.2.2.2.2.2.2.1
  have e1 : win2_5.index t (1 : Fin 2) = 0 := (idx2 t).2.2.2.2.2.2.2.2.2.2.2
  obtain ⟨R, hR⟩ : ∃ R : Fin 100000, R.val = t.val * 10000 + r.val := ⟨⟨t.val * 10000 + r.val, by omega⟩, rfl⟩
  have hemb : ((cfg2.win 5).blk t).view.emb (ix2 r n) = (ix2 R n : S100000x128.Idx) := by
    funext a
    apply Fin.ext
    match a with
    | ⟨0, _⟩ => show win2_5.index t (0 : Fin 2) * 10000 + 1 * r.val = R.val; rw [e0, hR]; omega
    | ⟨1, _⟩ => show win2_5.index t (1 : Fin 2) * 128 + 1 * n.val = n.val; rw [e1]; omega
  rw [View.read_apply, hemb]
  refine (k2_pay1_apply (iblk2 V c 0 t) (iblk2 V c 1 t) (iblk2 V c 3 t) (iblk2 V c 2 t) (iblk2 V c 4 t) r n).trans ?_
  rw [Cert.Spec.linAdd_ix2]
  unfold Cert.Spec.linAddAt Cert.Spec.rowMul
  simp only [fun q => blk2_0 V c t r q R hR, blk2_1 V c t, blk2_2 V c t, fun q => blk2_3 V c t r q R hR,
    fun q => blk2_4 V c t r q R hR]
  rfl

/-- The 10 blocks tile the result: row `i` is in block `i / 10000`. -/
theorem cover2 (i : S100000x128.Idx) :
    ∃ t : Fin cfg2.N, (cfg2.win 5).flush t = true ∧ i ∈ ((cfg2.win 5).blk t).view.set := by
  have hN : cfg2.N = 10 := N_2
  have hi0 : (i 0).val < 100000 := (i 0).isLt
  have hi1 : (i 1).val < 128 := (i 1).isLt
  obtain ⟨t, htv⟩ : ∃ t : Fin cfg2.N, t.val = (i 0).val / 10000 := ⟨⟨(i 0).val / 10000, by rw [hN]; omega⟩, rfl⟩
  have e0 : win2_5.index t (0 : Fin 2) = t.val := (idx2 t).2.2.2.2.2.2.2.2.2.2.1
  have e1 : win2_5.index t (1 : Fin 2) = 0 := (idx2 t).2.2.2.2.2.2.2.2.2.2.2
  refine ⟨t, flush2_5 t, ?_⟩
  show i ∈ ((View.whole main_v79).slice (win2_5.rect t)).set
  rw [View.set_slice_whole, Rect.mem_set_unit]
  intro a
  match a with
  | ⟨0, _⟩ =>
    show win2_5.index t (0 : Fin 2) * 10000 ≤ (i 0).val ∧ (i 0).val < win2_5.index t (0 : Fin 2) * 10000 + 10000
    rw [e0, htv]; omega
  | ⟨1, _⟩ =>
    show win2_5.index t (1 : Fin 2) * 128 ≤ (i 1).val ∧ (i 1).val < win2_5.index t (1 : Fin 2) * 128 + 128
    rw [e1]; omega

/-- THE ARRAY THE REGION LEAVES: the row map of the arrays it finds. -/
theorem final2 (c : Dev nD) : (dat2 V c).arrAt 5 cfg2.N = Cert.Spec.linAdd (N := 100000) (V c main_v72) (V c main_v74) (V c main_v77) (V c main_v78) (V c main_v62) :=
  (dat2 V c).arrAt_eq_of_cover 5 (Cert.Spec.linAdd (N := 100000) (V c main_v72) (V c main_v74) (V c main_v77) (V c main_v78) (V c main_v62)) (fun t _ => flushed2 V c t) (cover2)

end Cert.KernelIdeal.Hand

end
-- ==== Proof.KStep2.lean ====
/-
  Step 2 of the kernel program's fold: what the buffers the next region reads hold after stretch 2 of host
  operations, and what region 2 leaves in its result, as the named functions of the argument arrays.
-/
import proofs.«126235_j54030688583922_2_alg».proof.Proof.KStep1
import proofs.«126235_j54030688583922_2_alg».proof.Proof.KRegion2

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at5_v72 : W5 m ρ c (Proc.devRef .tc main_v72) = rawCo (aA3 m c) (kA1p (aA0 m c) (aA1 m c) (aA2 m c) (aA7 m c) (aA8 m c) (aA9 m c) (aA10 m c)) := by
  have e0 : W4 m ρ c (Proc.devRef .tc main_v62) = kA1p (aA0 m c) (aA1 m c) (aA2 m c) (aA7 m c) (aA8 m c) (aA9 m c) (aA10 m c) := at4_v62 m ρ c
  have e1 : W4 m ρ c (Proc.devRef .tc main_v5) = cS (aA3 m c) := (W4_of_ne m ρ c main_v5 (by decide)).trans ((keepH1 m ρ c main_v5 (by decide)).trans ((W2_of_ne m ρ c main_v5 (by decide)).trans (at1_v5 m ρ c)))
  have e2 : W4 m ρ c (Proc.devRef .tc main_v7) = cD (aA3 m c) := (W4_of_ne m ρ c main_v7 (by decide)).trans ((keepH1 m ρ c main_v7 (by decide)).trans ((W2_of_ne m ρ c main_v7 (by decide)).trans (at1_v7 m ρ c)))
  show StableHlo.after hostOps2 _ _ = _
  simp only [hostOps2]
  after_results_simp
  rw [e0, e1, e2]
  rfl

set_option maxHeartbeats 2000000 in
theorem at5_v74 : W5 m ρ c (Proc.devRef .tc main_v74) = w0 (aA13 m c) := by
  have e0 : W4 m ρ c (Proc.devRef .tc main_arg13) = (aA13 m c) := (W4_of_ne m ρ c main_arg13 (by decide)).trans ((keepH1 m ρ c main_arg13 (by decide)).trans ((W2_of_ne m ρ c main_arg13 (by decide)).trans ((keepH0 m ρ c main_arg13 (by decide)).trans (at0_arg13 m ρ c))))
  show StableHlo.after hostOps2 _ _ = _
  simp only [hostOps2]
  after_results_simp
  rw [e0]
  rfl

set_option maxHeartbeats 2000000 in
theorem at5_v77 : W5 m ρ c (Proc.devRef .tc main_v77) = row (b0 (aA14 m c)) := by
  have e0 : W4 m ρ c (Proc.devRef .tc main_arg14) = (aA14 m c) := (W4_of_ne m ρ c main_arg14 (by decide)).trans ((keepH1 m ρ c main_arg14 (by decide)).trans ((W2_of_ne m ρ c main_arg14 (by decide)).trans ((keepH0 m ρ c main_arg14 (by decide)).trans (at0_arg14 m ρ c))))
  show StableHlo.after hostOps2 _ _ = _
  simp only [hostOps2]
  after_results_simp
  rw [e0]
  rfl

set_option maxHeartbeats 2000000 in
theorem at5_v78 : W5 m ρ c (Proc.devRef .tc main_v78) = degColC (aA3 m c) := by
  have e0 : W4 m ρ c (Proc.devRef .tc main_v18) = degC (aA3 m c) := (W4_of_ne m ρ c main_v18 (by decide)).trans ((keepH1 m ρ c main_v18 (by decide)).trans ((W2_of_ne m ρ c main_v18 (by decide)).trans (at1_v18 m ρ c)))
  show StableHlo.after hostOps2 _ _ = _
  simp only [hostOps2]
  after_results_simp
  rw [e0]
  rfl

theorem at6_v79 : W6 m ρ c (Proc.devRef .tc main_v79) = kA1 (aA0 m c) (aA1 m c) (aA2 m c) (aA3 m c) (aA7 m c) (aA8 m c) (aA9 m c) (aA10 m c) (aA13 m c) (aA14 m c) := by
  have e0 : W5 m ρ c (Proc.devRef .tc main_v72) = rawCo (aA3 m c) (kA1p (aA0 m c) (aA1 m c) (aA2 m c) (aA7 m c) (aA8 m c) (aA9 m c) (aA10 m c)) := at5_v72 m ρ c
  have e1 : W5 m ρ c (Proc.devRef .tc main_v74) = w0 (aA13 m c) := at5_v74 m ρ c
  have e2 : W5 m ρ c (Proc.devRef .tc main_v77) = row (b0 (aA14 m c)) := at5_v77 m ρ c
  have e3 : W5 m ρ c (Proc.devRef .tc main_v78) = degColC (aA3 m c) := at5_v78 m ρ c
  have e4 : W5 m ρ c (Proc.devRef .tc main_v62) = kA1p (aA0 m c) (aA1 m c) (aA2 m c) (aA7 m c) (aA8 m c) (aA9 m c) (aA10 m c) := (keepH2 m ρ c main_v62 (by decide)).trans (at4_v62 m ρ c)
  refine (W6_arr m ρ c 5).trans ((final2 (V5 m ρ) c).trans ?_)
  show linAdd (N := 100000) (W5 m ρ c (Proc.devRef .tc main_v72)) (W5 m ρ c (Proc.devRef .tc main_v74)) (W5 m ρ c (Proc.devRef .tc main_v77)) (W5 m ρ c (Proc.devRef .tc main_v78)) (W5 m ρ c (Proc.devRef .tc main_v62)) = _
  rw [e0, e1, e2, e3, e4]
  rfl

end Cert.KernelIdeal.Hand

end
-- ==== Proof.KRegion3.lean ====
/-
  Region 3 of the kernel program (a fused pair of projections
  over 200000 rows, in 20 blocks of 10000 rows): the array the region leaves is the network's row map of the arrays
  the region finds. Point `t` of the grid reads rows `10000·t … 10000·t + 9999` of the row arrays (and the whole weight
  matrix and bias row), and writes the same rows of the result; the 20 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: a row array's block index is `(t, 0)`, a weight's or a bias row's `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

theorem blk3_0 (c : Dev nD) (t : Fin cfg3.N) (r : Fin 10000) (q : Fin 128) (R : Fin 200000) (hR : R.val = t.val * 10000 + r.val) :
    (iblk3 V c 0 t : Vec Ideal S10000x128 .f32) (ix2 r q) = (V c main_v89 : S200000x128.Idx → EReal) (ix2 R q) := by
  have e0 : win3_0.index t (0 : Fin 2) = t.val := (idx3 t).1
  have e1 : win3_0.index t (1 : Fin 2) = 0 := (idx3 t).2.1
  unfold iblk3
  rw [View.read_apply]
  show V c main_v89 _ = V c main_v89 _
  congr 1
  funext a
  apply Fin.ext
  match a with
  | ⟨0, _⟩ => show win3_0.index t (0 : Fin 2) * 10000 + 1 * r.val = R.val; rw [e0, hR]; omega
  | ⟨1, _⟩ => show win3_0.index t (1 : Fin 2) * 128 + 1 * q.val = q.val; rw [e1]; omega

theorem blk3_1 (c : Dev nD) (t : Fin cfg3.N) (p : Fin 128) (q : Fin 128) :
    (iblk3 V c 1 t : Vec Ideal S128x128 .f32) (ix2 p q) = (V c main_v101 : S128x128.Idx → EReal) (ix2 p q) := by
  have e0 : win3_1.index t (0 : Fin 2) = 0 := (idx3 t).2.2.1
  have e1 : win3_1.index t (1 : Fin 2) = 0 := (idx3 t).2.2.2.1
  unfold iblk3
  rw [View.read_apply]
  show V c main_v101 _ = V c main_v101 _
  congr 1
  funext a
  apply Fin.ext
  match a with
  | ⟨0, _⟩ => show win3_1.index t (0 : Fin 2) * 128 + 1 * p.val = p.val; rw [e0]; omega
  | ⟨1, _⟩ => show win3_1.index t (1 : Fin 2) * 128 + 1 * q.val = q.val; rw [e1]; omega

theorem blk3_2 (c : Dev nD) (t : Fin cfg3.N) (p : Fin 1) (q : Fin 128) :
    (iblk3 V c 2 t : Vec Ideal S1x128 .f32) (ix2 p q) = (V c main_v108 : S1x128.Idx → EReal) (ix2 p q) := by
  have e0 : win3_2.index t (0 : Fin 2) = 0 := (idx3 t).2.2.2.2.1
  have e1 : win3_2.index t (1 : Fin 2) = 0 := (idx3 t).2.2.2.2.2.1
  unfold iblk3
  rw [View.read_apply]
  show V c main_v108 _ = V c main_v108 _
  congr 1
  funext a
  apply Fin.ext
  match a with
  | ⟨0, _⟩ => show win3_2.index t (0 : Fin 2) * 1 + 1 * p.val = p.val; rw [e0]; omega
  | ⟨1, _⟩ => show win3_2.index t (1 : Fin 2) * 128 + 1 * q.val = q.val; rw [e1]; omega

theorem blk3_3 (c : Dev nD) (t : Fin cfg3.N) (r : Fin 10000) (q : Fin 1) (R : Fin 200000) (hR : R.val = t.val * 10000 + r.val) :
    (iblk3 V c 3 t : Vec Ideal S10000x1 .f32) (ix2 r q) = (V c main_v110 : S200000x1.Idx → EReal) (ix2 R q) := by
  have e0 : win3_3.index t (0 : Fin 2) = t.val := (idx3 t).2.2.2.2.2.2.1
  have e1 : win3_3.index t (1 : Fin 2) = 0 := (idx3 t).2.2.2.2.2.2.2.1
  unfold iblk3
  rw [View.read_apply]
  show V c main_v110 _ = V c main_v110 _
  congr 1
  funext a
  apply Fin.ext
  match a with
  | ⟨0, _⟩ => show win3_3.index t (0 : Fin 2) * 10000 + 1 * r.val = R.val; rw [e0, hR]; omega
  | ⟨1, _⟩ => show win3_3.index t (1 : Fin 2) * 1 + 1 * q.val = q.val; rw [e1]; omega

theorem blk3_4 (c : Dev nD) (t : Fin cfg3.N) (r : Fin 10000) (q : Fin 128) (R : Fin 200000) (hR : R.val = t.val * 10000 + r.val) :
    (iblk3 V c 4 t : Vec Ideal S10000x128 .f32) (ix2 r q) = (V c main_v50 : S200000x128.Idx → EReal) (ix2 R q) := by
  have e0 : win3_4.index t (0 : Fin 2) = t.val := (idx3 t).2.2.2.2.2.2.2.2.1
  have e1 : win3_4.index t (1 : Fin 2) = 0 := (idx3 t).2.2.2.2.2.2.2.2.2.1
  unfold iblk3
  rw [View.read_apply]
  show V c main_v50 _ = V c main_v50 _
  congr 1
  funext a
  apply Fin.ext
  match a with
  | ⟨0, _⟩ => show win3_4.index t (0 : Fin 2) * 10000 + 1 * r.val = R.val; rw [e0, hR]; omega
  | ⟨1, _⟩ => show win3_4.index t (1 : Fin 2) * 128 + 1 * q.val = q.val; rw [e1]; omega

theorem blk3_5 (c : Dev nD) (t : Fin cfg3.N) (p : Fin 128) (q : Fin 128) :
    (iblk3 V c 5 t : Vec Ideal S128x128 .f32) (ix2 p q) = (V c main_v105 : S128x128.Idx → EReal) (ix2 p q) := by
  have e0 : win3_5.index t (0 : Fin 2) = 0 := (idx3 t).2.2.2.2.2.2.2.2.2.2.1
  have e1 : win3_5.index t (1 : Fin 2) = 0 := (idx3 t).2.2.2.2.2.2.2.2.2.2.2.1
  unfold iblk3
  rw [View.read_apply]
  show V c main_v105 _ = V c main_v105 _
  congr 1
  funext a
  apply Fin.ext
  match a with
  | ⟨0, _⟩ => show win3_5.index t (0 : Fin 2) * 128 + 1 * p.val = p.val; rw [e0]; omega
  | ⟨1, _⟩ => show win3_5.index t (1 : Fin 2) * 128 + 1 * q.val = q.val; rw [e1]; omega

theorem blk3_6 (c : Dev nD) (t : Fin cfg3.N) (p : Fin 1) (q : Fin 128) :
    (iblk3 V c 6 t : Vec Ideal S1x128 .f32) (ix2 p q) = (V c main_v109 : S1x128.Idx → EReal) (ix2 p q) := by
  have e0 : win3_6.index t (0 : Fin 2) = 0 := (idx3 t).2.2.2.2.2.2.2.2.2.2.2.2.1
  have e1 : win3_6.index t (1 : Fin 2) = 0 := (idx3 t).2.2.2.2.2.2.2.2.2.2.2.2.2.1
  unfold iblk3
  rw [View.read_apply]
  show V c main_v109 _ = V c main_v109 _
  congr 1
  funext a
  apply Fin.ext
  match a with
  | ⟨0, _⟩ => show win3_6.index t (0 : Fin 2) * 1 + 1 * p.val = p.val; rw [e0]; omega
  | ⟨1, _⟩ => show win3_6.index t (1 : Fin 2) * 128 + 1 * q.val = q.val; rw [e1]; omega

/-- WHAT POINT `t` WRITES BACK: rows `10000·t …` of the row map of the arrays the region finds. -/
theorem flushed3 (c : Dev nD) (t : Fin cfg3.N) :
    (dat3 V c).flushed 7 t = ((cfg3.win 7).blk t).view.read (Elt Ideal) (Cert.Spec.dualLin (N := 200000) (V c main_v89) (V c main_v101) (V c main_v108) (V c main_v110) (V c main_v50) (V c main_v105) (V c main_v109)) := by
  show (cfg3.win 7).cut (grid3.coords t) ((dat3 V c).after 7 t) = _
  rw [after3_7]
  unfold out3_7
  rw [View.canon_unit_zero hz3]
  simp only [View.ld_unit_zero (S := S10000x128) hz3, View.ld_unit_zero (S := S128x128) hz3, View.ld_unit_zero (S := S10000x1) hz3, View.ld_unit_zero (S := S1x128) hz3]
  funext y
  obtain ⟨r, n, rfl⟩ : ∃ (r : Fin 10000) (n : Fin 128), y = ix2 r n := ⟨y 0, y 1, eq_ix2 y⟩
  have hN : cfg3.N = 20 := N_3
  have ht : t.val < 20 := hN ▸ t.isLt
  have e0 : win3_7.index t (0 : Fin 2) = t.val := (idx3 t).2.2.2.2.2.2.2.2.2.2.2.2.2.2.1
  have e1 : win3_7.index t (1 : Fin 2) = 0 := (idx3 t).2.2.2.2.2.2.2.2.2.2.2.2.2.2.2
  obtain ⟨R, hR⟩ : ∃ R : Fin 200000, R.val = t.val * 10000 + r.val := ⟨⟨t.val * 10000 + r.val, by omega⟩, rfl⟩
  have hemb : ((cfg3.win 7).blk t).view.emb (ix2 r n) = (ix2 R n : S200000x128.Idx) := by
    funext a
    apply Fin.ext
    match a with
    | ⟨0, _⟩ => show win3_7.index t (0 : Fin 2) * 10000 + 1 * r.val = R.val; rw [e0, hR]; omega
    | ⟨1, _⟩ => show win3_7.index t (1 : Fin 2) * 128 + 1 * n.val = n.val; rw [e1]; omega
  rw [View.read_apply, hemb]
  refine (k3_pay1_apply (iblk3 V c 0 t) (iblk3 V c 1 t) (iblk3 V c 4 t) (iblk3 V c 5 t) (iblk3 V c 3 t) (iblk3 V c 2 t) (iblk3 V c 6 t) r n).trans ?_
  rw [Cert.Spec.dualLin_ix2]
  unfold Cert.Spec.dualLinAt Cert.Spec.rowMul
  simp only [fun q => blk3_0 V c t r q R hR, blk3_1 V c t, blk3_2 V c t, fun q => blk3_3 V c t r q R hR,
    fun q => blk3_4 V c t r q R hR, blk3_5 V c t, blk3_6 V c t]
  rfl

/-- The 20 blocks tile the result: row `i` is in block `i / 10000`. -/
theorem cover3 (i : S200000x128.Idx) :
    ∃ t : Fin cfg3.N, (cfg3.win 7).flush t = true ∧ i ∈ ((cfg3.win 7).blk t).view.set := by
  have hN : cfg3.N = 20 := N_3
  have hi0 : (i 0).val < 200000 := (i 0).isLt
  have hi1 : (i 1).val < 128 := (i 1).isLt
  obtain ⟨t, htv⟩ : ∃ t : Fin cfg3.N, t.val = (i 0).val / 10000 := ⟨⟨(i 0).val / 10000, by rw [hN]; omega⟩, rfl⟩
  have e0 : win3_7.index t (0 : Fin 2) = t.val := (idx3 t).2.2.2.2.2.2.2.2.2.2.2.2.2.2.1
  have e1 : win3_7.index t (1 : Fin 2) = 0 := (idx3 t).2.2.2.2.2.2.2.2.2.2.2.2.2.2.2
  refine ⟨t, flush3_7 t, ?_⟩
  show i ∈ ((View.whole main_v111).slice (win3_7.rect t)).set
  rw [View.set_slice_whole, Rect.mem_set_unit]
  intro a
  match a with
  | ⟨0, _⟩ =>
    show win3_7.index t (0 : Fin 2) * 10000 ≤ (i 0).val ∧ (i 0).val < win3_7.index t (0 : Fin 2) * 10000 + 10000
    rw [e0, htv]; omega
  | ⟨1, _⟩ =>
    show win3_7.index t (1 : Fin 2) * 128 ≤ (i 1).val ∧ (i 1).val < win3_7.index t (1 : Fin 2) * 128 + 128
    rw [e1]; omega

/-- THE ARRAY THE REGION LEAVES: the row map of the arrays it finds. -/
theorem final3 (c : Dev nD) : (dat3 V c).arrAt 7 cfg3.N = Cert.Spec.dualLin (N := 200000) (V c main_v89) (V c main_v101) (V c main_v108) (V c main_v110) (V c main_v50) (V c main_v105) (V c main_v109) :=
  (dat3 V c).arrAt_eq_of_cover 7 (Cert.Spec.dualLin (N := 200000) (V c main_v89) (V c main_v101) (V c main_v108) (V c main_v110) (V c main_v50) (V c main_v105) (V c main_v109)) (fun t _ => flushed3 V c t) (cover3)

end Cert.KernelIdeal.Hand

end
-- ==== Proof.KStep3.lean ====
/-
  Step 3 of the kernel program's fold: what the buffers the next region reads hold after stretch 3 of host
  operations, and what region 3 leaves in its result, as the named functions of the argument arrays.
-/
import proofs.«126235_j54030688583922_2_alg».proof.Proof.KStep2
import proofs.«126235_j54030688583922_2_alg».proof.Proof.KRegion3

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at7_v89 : W7 m ρ c (Proc.devRef .tc main_v89) = rawAP (aA2 m c) (kA1 (aA0 m c) (aA1 m c) (aA2 m c) (aA3 m c) (aA7 m c) (aA8 m c) (aA9 m c) (aA10 m c) (aA13 m c) (aA14 m c)) := by
  have e0 : W6 m ρ c (Proc.devRef .tc main_v79) = kA1 (aA0 m c) (aA1 m c) (aA2 m c) (aA3 m c) (aA7 m c) (aA8 m c) (aA9 m c) (aA10 m c) (aA13 m c) (aA14 m c) := at6_v79 m ρ c
  have e1 : W6 m ρ c (Proc.devRef .tc main_v1) = eA (aA2 m c) := (W6_of_ne m ρ c main_v1 (by decide)).trans ((keepH2 m ρ c main_v1 (by decide)).trans ((W4_of_ne m ρ c main_v1 (by decide)).trans ((keepH1 m ρ c main_v1 (by decide)).trans ((W2_of_ne m ρ c main_v1 (by decide)).trans (at1_v1 m ρ c)))))
  have e2 : W6 m ρ c (Proc.devRef .tc main_v3) = eP (aA2 m c) := (W6_of_ne m ρ c main_v3 (by decide)).trans ((keepH2 m ρ c main_v3 (by decide)).trans ((W4_of_ne m ρ c main_v3 (by decide)).trans ((keepH1 m ρ c main_v3 (by decide)).trans ((W2_of_ne m ρ c main_v3 (by decide)).trans (at1_v3 m ρ c)))))
  show StableHlo.after hostOps3 _ _ = _
  simp only [hostOps3]
  after_results_simp
  rw [e0, e1, e2]
  rfl

set_option maxHeartbeats 2000000 in
theorem at7_v99 : W7 m ρ c (Proc.devRef .tc main_v99) = rawPA (aA2 m c) (kP1 (aA0 m c) (aA1 m c) (aA2 m c) (aA5 m c) (aA6 m c) (aA11 m c) (aA12 m c)) := by
  have e0 : W6 m ρ c (Proc.devRef .tc main_v50) = kP1 (aA0 m c) (aA1 m c) (aA2 m c) (aA5 m c) (aA6 m c) (aA11 m c) (aA12 m c) := (W6_of_ne m ρ c main_v50 (by decide)).trans ((keepH2 m ρ c main_v50 (by decide)).trans ((W4_of_ne m ρ c main_v50 (by decide)).trans ((keepH1 m ρ c main_v50 (by decide)).trans (at2_v50 m ρ c))))
  have e1 : W6 m ρ c (Proc.devRef .tc main_v3) = eP (aA2 m c) := (W6_of_ne m ρ c main_v3 (by decide)).trans ((keepH2 m ρ c main_v3 (by decide)).trans ((W4_of_ne m ρ c main_v3 (by decide)).trans ((keepH1 m ρ c main_v3 (by decide)).trans ((W2_of_ne m ρ c main_v3 (by decide)).trans (at1_v3 m ρ c)))))
  have e2 : W6 m ρ c (Proc.devRef .tc main_v1) = eA (aA2 m c) := (W6_of_ne m ρ c main_v1 (by decide)).trans ((keepH2 m ρ c main_v1 (by decide)).trans ((W4_of_ne m ρ c main_v1 (by decide)).trans ((keepH1 m ρ c main_v1 (by decide)).trans ((W2_of_ne m ρ c main_v1 (by decide)).trans (at1_v1 m ρ c)))))
  show StableHlo.after hostOps3 _ _ = _
  simp only [hostOps3]
  after_results_simp
  rw [e0, e1, e2]
  rfl

set_option maxHeartbeats 2000000 in
theorem at7_v101 : W7 m ρ c (Proc.devRef .tc main_v101) = w1 (aA5 m c) := by
  have e0 : W6 m ρ c (Proc.devRef .tc main_arg5) = (aA5 m c) := (W6_of_ne m ρ c main_arg5 (by decide)).trans ((keepH2 m ρ c main_arg5 (by decide)).trans ((W4_of_ne m ρ c main_arg5 (by decide)).trans ((keepH1 m ρ c main_arg5 (by decide)).trans ((W2_of_ne m ρ c main_arg5 (by decide)).trans ((keepH0 m ρ c main_arg5 (by decide)).trans (at0_arg5 m ρ c))))))
  show StableHlo.after hostOps3 _ _ = _
  simp only [hostOps3]
  after_results_simp
  rw [e0]
  rfl

set_option maxHeartbeats 2000000 in
theorem at7_v105 : W7 m ρ c (Proc.devRef .tc main_v105) = w1 (aA11 m c) := by
  have e0 : W6 m ρ c (Proc.devRef .tc main_arg11) = (aA11 m c) := (W6_of_ne m ρ c main_arg11 (by decide)).trans ((keepH2 m ρ c main_arg11 (by decide)).trans ((W4_of_ne m ρ c main_arg11 (by decide)).trans ((keepH1 m ρ c main_arg11 (by decide)).trans ((W2_of_ne m ρ c main_arg11 (by decide)).trans ((keepH0 m ρ c main_arg11 (by decide)).trans (at0_arg11 m ρ c))))))
  show StableHlo.after hostOps3 _ _ = _
  simp only [hostOps3]
  after_results_simp
  rw [e0]
  rfl

set_option maxHeartbeats 2000000 in
theorem at7_v108 : W7 m ρ c (Proc.devRef .tc main_v108) = row (b1 (aA6 m c)) := by
  have e0 : W6 m ρ c (Proc.devRef .tc main_arg6) = (aA6 m c) := (W6_of_ne m ρ c main_arg6 (by decide)).trans ((keepH2 m ρ c main_arg6 (by decide)).trans ((W4_of_ne m ρ c main_arg6 (by decide)).trans ((keepH1 m ρ c main_arg6 (by decide)).trans ((W2_of_ne m ρ c main_arg6 (by decide)).trans ((keepH0 m ρ c main_arg6 (by decide)).trans (at0_arg6 m ρ c))))))
  show StableHlo.after hostOps3 _ _ = _
  simp only [hostOps3]
  after_results_simp
  rw [e0]
  rfl

set_option maxHeartbeats 2000000 in
theorem at7_v109 : W7 m ρ c (Proc.devRef .tc main_v109) = row (b1 (aA12 m c)) := by
  have e0 : W6 m ρ c (Proc.devRef .tc main_arg12) = (aA12 m c) := (W6_of_ne m ρ c main_arg12 (by decide)).trans ((keepH2 m ρ c main_arg12 (by decide)).trans ((W4_of_ne m ρ c main_arg12 (by decide)).trans ((keepH1 m ρ c main_arg12 (by decide)).trans ((W2_of_ne m ρ c main_arg12 (by decide)).trans ((keepH0 m ρ c main_arg12 (by decide)).trans (at0_arg12 m ρ c))))))
  show StableHlo.after hostOps3 _ _ = _
  simp only [hostOps3]
  after_results_simp
  rw [e0]
  rfl

set_option maxHeartbeats 2000000 in
theorem at7_v110 : W7 m ρ c (Proc.devRef .tc main_v110) = degColP (aA2 m c) := by
  have e0 : W6 m ρ c (Proc.devRef .tc main_v11) = degP (aA2 m c) := (W6_of_ne m ρ c main_v11 (by decide)).trans ((keepH2 m ρ c main_v11 (by decide)).trans ((W4_of_ne m ρ c main_v11 (by decide)).trans ((keepH1 m ρ c main_v11 (by decide)).trans ((W2_of_ne m ρ c main_v11 (by decide)).trans (at1_v11 m ρ c)))))
  show StableHlo.after hostOps3 _ _ = _
  simp only [hostOps3]
  after_results_simp
  rw [e0]
  rfl

theorem at8_v111 : W8 m ρ c (Proc.devRef .tc main_v111) = kP2 (aA0 m c) (aA1 m c) (aA2 m c) (aA3 m c) (aA5 m c) (aA6 m c) (aA7 m c) (aA8 m c) (aA9 m c) (aA10 m c) (aA11 m c) (aA12 m c) (aA13 m c) (aA14 m c) := by
  have e0 : W7 m ρ c (Proc.devRef .tc main_v89) = rawAP (aA2 m c) (kA1 (aA0 m c) (aA1 m c) (aA2 m c) (aA3 m c) (aA7 m c) (aA8 m c) (aA9 m c) (aA10 m c) (aA13 m c) (aA14 m c)) := at7_v89 m ρ c
  have e1 : W7 m ρ c (Proc.devRef .tc main_v101) = w1 (aA5 m c) := at7_v101 m ρ c
  have e2 : W7 m ρ c (Proc.devRef .tc main_v108) = row (b1 (aA6 m c)) := at7_v108 m ρ c
  have e3 : W7 m ρ c (Proc.devRef .tc main_v110) = degColP (aA2 m c) := at7_v110 m ρ c
  have e4 : W7 m ρ c (Proc.devRef .tc main_v50) = kP1 (aA0 m c) (aA1 m c) (aA2 m c) (aA5 m c) (aA6 m c) (aA11 m c) (aA12 m c) := (keepH3 m ρ c main_v50 (by decide)).trans ((W6_of_ne m ρ c main_v50 (by decide)).trans ((keepH2 m ρ c main_v50 (by decide)).trans ((W4_of_ne m ρ c main_v50 (by decide)).trans ((keepH1 m ρ c main_v50 (by decide)).trans (at2_v50 m ρ c)))))
  have e5 : W7 m ρ c (Proc.devRef .tc main_v105) = w1 (aA11 m c) := at7_v105 m ρ c
  have e6 : W7 m ρ c (Proc.devRef .tc main_v109) = row (b1 (aA12 m c)) := at7_v109 m ρ c
  refine (W8_arr m ρ c 7).trans ((final3 (V7 m ρ) c).trans ?_)
  show dualLin (N := 200000) (W7 m ρ c (Proc.devRef .tc main_v89)) (W7 m ρ c (Proc.devRef .tc main_v101)) (W7 m ρ c (Proc.devRef .tc main_v108)) (W7 m ρ c (Proc.devRef .tc main_v110)) (W7 m ρ c (Proc.devRef .tc main_v50)) (W7 m ρ c (Proc.devRef .tc main_v105)) (W7 m ρ c (Proc.devRef .tc main_v109)) = _
  rw [e0, e1, e2, e3, e4, e5, e6]
  rfl

end Cert.KernelIdeal.Hand

end
-- ==== Proof.KRegion4.lean ====
/-
  Region 4 of the kernel program (a fused pair of projections
  over 100000 rows, in 10 blocks of 10000 rows): the array the region leaves is the network's row map of the arrays
  the region finds. Point `t` of the grid reads rows `10000·t … 10000·t + 9999` of the row arrays (and the whole weight
  matrix and bias row), and writes the same rows of the result; the 10 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: a row array's block index is `(t, 0)`, a weight's or a bias row's `(0, 0)`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

theorem blk4_0 (c : Dev nD) (t : Fin cfg4.N) (r : Fin 10000) (q : Fin 128) (R : Fin 100000) (hR : R.val = t.val * 10000 + r.val) :
    (iblk4 V c 0 t : Vec Ideal S10000x128 .f32) (ix2 r q) = (V c main_v99 : S100000x128.Idx → EReal) (ix2 R q) := by
  have e0 : win4_0.index t (0 : Fin 2) = t.val := (idx4 t).1
  have e1 : win4_0.index t (1 : Fin 2) = 0 := (idx4 t).2.1
  unfold iblk4
  rw [View.read_apply]
  show V c main_v99 _ = V c main_v99 _
  congr 1
  funext a
  apply Fin.ext
  match a with
  | ⟨0, _⟩ => show win4_0.index t (0 : Fin 2) * 10000 + 1 * r.val = R.val; rw [e0, hR]; omega
  | ⟨1, _⟩ => show win4_0.index t (1 : Fin 2) * 128 + 1 * q.val = q.val; rw [e1]; omega

theorem blk4_1 (c : Dev nD) (t : Fin cfg4.N) (p : Fin 128) (q : Fin 128) :
    (iblk4 V c 1 t : Vec Ideal S128x128 .f32) (ix2 p q) = (V c main_v113 : S128x128.Idx → EReal) (ix2 p q) := by
  have e0 : win4_1.index t (0 : Fin 2) = 0 := (idx4 t).2.2.1
  have e1 : win4_1.index t (1 : Fin 2) = 0 := (idx4 t).2.2.2.1
  unfold iblk4
  rw [View.read_apply]
  show V c main_v113 _ = V c main_v113 _
  congr 1
  funext a
  apply Fin.ext
  match a with
  | ⟨0, _⟩ => show win4_1.index t (0 : Fin 2) * 128 + 1 * p.val = p.val; rw [e0]; omega
  | ⟨1, _⟩ => show win4_1.index t (1 : Fin 2) * 128 + 1 * q.val = q.val; rw [e1]; omega

theorem blk4_2 (c : Dev nD) (t : Fin cfg4.N) (p : Fin 1) (q : Fin 128) :
    (iblk4 V c 2 t : Vec Ideal S1x128 .f32) (ix2 p q) = (V c main_v120 : S1x128.Idx → EReal) (ix2 p q) := by
  have e0 : win4_2.index t (0 : Fin 2) = 0 := (idx4 t).2.2.2.2.1
  have e1 : win4_2.index t (1 : Fin 2) = 0 := (idx4 t).2.2.2.2.2.1
  unfold iblk4
  rw [View.read_apply]
  show V c main_v120 _ = V c main_v120 _
  congr 1
  funext a
  apply Fin.ext
  match a with
  | ⟨0, _⟩ => show win4_2.index t (0 : Fin 2) * 1 + 1 * p.val = p.val; rw [e0]; omega
  | ⟨1, _⟩ => show win4_2.index t (1 : Fin 2) * 128 + 1 * q.val = q.val; rw [e1]; omega

theorem blk4_3 (c : Dev nD) (t : Fin cfg4.N) (r : Fin 10000) (q : Fin 1) (R : Fin 100000) (hR : R.val = t.val * 10000 + r.val) :
    (iblk4 V c 3 t : Vec Ideal S10000x1 .f32) (ix2 r q) = (V c main_v122 : S100000x1.Idx → EReal) (ix2 R q) := by
  have e0 : win4_3.index t (0 : Fin 2) = t.val := (idx4 t).2.2.2.2.2.2.1
  have e1 : win4_3.index t (1 : Fin 2) = 0 := (idx4 t).2.2.2.2.2.2.2.1
  unfold iblk4
  rw [View.read_apply]
  show V c main_v122 _ = V c main_v122 _
  congr 1
  funext a
  apply Fin.ext
  match a with
  | ⟨0, _⟩ => show win4_3.index t (0 : Fin 2) * 10000 + 1 * r.val = R.val; rw [e0, hR]; omega
  | ⟨1, _⟩ => show win4_3.index t (1 : Fin 2) * 1 + 1 * q.val = q.val; rw [e1]; omega

theorem blk4_4 (c : Dev nD) (t : Fin cfg4.N) (r : Fin 10000) (q : Fin 128) (R : Fin 100000) (hR : R.val = t.val * 10000 + r.val) :
    (iblk4 V c 4 t : Vec Ideal S10000x128 .f32) (ix2 r q) = (V c main_v79 : S100000x128.Idx → EReal) (ix2 R q) := by
  have e0 : win4_4.index t (0 : Fin 2) = t.val := (idx4 t).2.2.2.2.2.2.2.2.1
  have e1 : win4_4.index t (1 : Fin 2) = 0 := (idx4 t).2.2.2.2.2.2.2.2.2.1
  unfold iblk4
  rw [View.read_apply]
  show V c main_v79 _ = V c main_v79 _
  congr 1
  funext a
  apply Fin.ext
  match a with
  | ⟨0, _⟩ => show win4_4.index t (0 : Fin 2) * 10000 + 1 * r.val = R.val; rw [e0, hR]; omega
  | ⟨1, _⟩ => show win4_4.index t (1 : Fin 2) * 128 + 1 * q.val = q.val; rw [e1]; omega

theorem blk4_5 (c : Dev nD) (t : Fin cfg4.N) (p : Fin 128) (q : Fin 128) :
    (iblk4 V c 5 t : Vec Ideal S128x128 .f32) (ix2 p q) = (V c main_v117 : S128x128.Idx → EReal) (ix2 p q) := by
  have e0 : win4_5.index t (0 : Fin 2) = 0 := (idx4 t).2.2.2.2.2.2.2.2.2.2.1
  have e1 : win4_5.index t (1 : Fin 2) = 0 := (idx4 t).2.2.2.2.2.2.2.2.2.2.2.1
  unfold iblk4
  rw [View.read_apply]
  show V c main_v117 _ = V c main_v117 _
  congr 1
  funext a
  apply Fin.ext
  match a with
  | ⟨0, _⟩ => show win4_5.index t (0 : Fin 2) * 128 + 1 * p.val = p.val; rw [e0]; omega
  | ⟨1, _⟩ => show win4_5.index t (1 : Fin 2) * 128 + 1 * q.val = q.val; rw [e1]; omega

theorem blk4_6 (c : Dev nD) (t : Fin cfg4.N) (p : Fin 1) (q : Fin 128) :
    (iblk4 V c 6 t : Vec Ideal S1x128 .f32) (ix2 p q) = (V c main_v121 : S1x128.Idx → EReal) (ix2 p q) := by
  have e0 : win4_6.index t (0 : Fin 2) = 0 := (idx4 t).2.2.2.2.2.2.2.2.2.2.2.2.1
  have e1 : win4_6.index t (1 : Fin 2) = 0 := (idx4 t).2.2.2.2.2.2.2.2.2.2.2.2.2.1
  unfold iblk4
  rw [View.read_apply]
  show V c main_v121 _ = V c main_v121 _
  congr 1
  funext a
  apply Fin.ext
  match a with
  | ⟨0, _⟩ => show win4_6.index t (0 : Fin 2) * 1 + 1 * p.val = p.val; rw [e0]; omega
  | ⟨1, _⟩ => show win4_6.index t (1 : Fin 2) * 128 + 1 * q.val = q.val; rw [e1]; omega

/-- WHAT POINT `t` WRITES BACK: rows `10000·t …` of the row map of the arrays the region finds. -/
theorem flushed4 (c : Dev nD) (t : Fin cfg4.N) :
    (dat4 V c).flushed 7 t = ((cfg4.win 7).blk t).view.read (Elt Ideal) (Cert.Spec.dualLin (N := 100000) (V c main_v99) (V c main_v113) (V c main_v120) (V c main_v122) (V c main_v79) (V c main_v117) (V c main_v121)) := by
  show (cfg4.win 7).cut (grid4.coords t) ((dat4 V c).after 7 t) = _
  rw [after4_7]
  unfold out4_7
  rw [View.canon_unit_zero hz4]
  simp only [View.ld_unit_zero (S := S10000x128) hz4, View.ld_unit_zero (S := S128x128) hz4, View.ld_unit_zero (S := S10000x1) hz4, View.ld_unit_zero (S := S1x128) hz4]
  funext y
  obtain ⟨r, n, rfl⟩ : ∃ (r : Fin 10000) (n : Fin 128), y = ix2 r n := ⟨y 0, y 1, eq_ix2 y⟩
  have hN : cfg4.N = 10 := N_4
  have ht : t.val < 10 := hN ▸ t.isLt
  have e0 : win4_7.index t (0 : Fin 2) = t.val := (idx4 t).2.2.2.2.2.2.2.2.2.2.2.2.2.2.1
  have e1 : win4_7.index t (1 : Fin 2) = 0 := (idx4 t).2.2.2.2.2.2.2.2.2.2.2.2.2.2.2
  obtain ⟨R, hR⟩ : ∃ R : Fin 100000, R.val = t.val * 10000 + r.val := ⟨⟨t.val * 10000 + r.val, by omega⟩, rfl⟩
  have hemb : ((cfg4.win 7).blk t).view.emb (ix2 r n) = (ix2 R n : S100000x128.Idx) := by
    funext a
    apply Fin.ext
    match a with
    | ⟨0, _⟩ => show win4_7.index t (0 : Fin 2) * 10000 + 1 * r.val = R.val; rw [e0, hR]; omega
    | ⟨1, _⟩ => show win4_7.index t (1 : Fin 2) * 128 + 1 * n.val = n.val; rw [e1]; omega
  rw [View.read_apply, hemb]
  refine (k4_pay1_apply (iblk4 V c 0 t) (iblk4 V c 1 t) (iblk4 V c 4 t) (iblk4 V c 5 t) (iblk4 V c 3 t) (iblk4 V c 2 t) (iblk4 V c 6 t) r n).trans ?_
  rw [Cert.Spec.dualLin_ix2]
  unfold Cert.Spec.dualLinAt Cert.Spec.rowMul
  simp only [fun q => blk4_0 V c t r q R hR, blk4_1 V c t, blk4_2 V c t, fun q => blk4_3 V c t r q R hR,
    fun q => blk4_4 V c t r q R hR, blk4_5 V c t, blk4_6 V c t]
  rfl

/-- The 10 blocks tile the result: row `i` is in block `i / 10000`. -/
theorem cover4 (i : S100000x128.Idx) :
    ∃ t : Fin cfg4.N, (cfg4.win 7).flush t = true ∧ i ∈ ((cfg4.win 7).blk t).view.set := by
  have hN : cfg4.N = 10 := N_4
  have hi0 : (i 0).val < 100000 := (i 0).isLt
  have hi1 : (i 1).val < 128 := (i 1).isLt
  obtain ⟨t, htv⟩ : ∃ t : Fin cfg4.N, t.val = (i 0).val / 10000 := ⟨⟨(i 0).val / 10000, by rw [hN]; omega⟩, rfl⟩
  have e0 : win4_7.index t (0 : Fin 2) = t.val := (idx4 t).2.2.2.2.2.2.2.2.2.2.2.2.2.2.1
  have e1 : win4_7.index t (1 : Fin 2) = 0 := (idx4 t).2.2.2.2.2.2.2.2.2.2.2.2.2.2.2
  refine ⟨t, flush4_7 t, ?_⟩
  show i ∈ ((View.whole main_v123).slice (win4_7.rect t)).set
  rw [View.set_slice_whole, Rect.mem_set_unit]
  intro a
  match a with
  | ⟨0, _⟩ =>
    show win4_7.index t (0 : Fin 2) * 10000 ≤ (i 0).val ∧ (i 0).val < win4_7.index t (0 : Fin 2) * 10000 + 10000
    rw [e0, htv]; omega
  | ⟨1, _⟩ =>
    show win4_7.index t (1 : Fin 2) * 128 ≤ (i 1).val ∧ (i 1).val < win4_7.index t (1 : Fin 2) * 128 + 128
    rw [e1]; omega

/-- THE ARRAY THE REGION LEAVES: the row map of the arrays it finds. -/
theorem final4 (c : Dev nD) : (dat4 V c).arrAt 7 cfg4.N = Cert.Spec.dualLin (N := 100000) (V c main_v99) (V c main_v113) (V c main_v120) (V c main_v122) (V c main_v79) (V c main_v117) (V c main_v121) :=
  (dat4 V c).arrAt_eq_of_cover 7 (Cert.Spec.dualLin (N := 100000) (V c main_v99) (V c main_v113) (V c main_v120) (V c main_v122) (V c main_v79) (V c main_v117) (V c main_v121)) (fun t _ => flushed4 V c t) (cover4)

end Cert.KernelIdeal.Hand

end
-- ==== Proof.KStep4.lean ====
/-
  Step 4 of the kernel program's fold: what the buffers the next region reads hold after stretch 4 of host
  operations, and what region 4 leaves in its result, as the named functions of the argument arrays.
-/
import proofs.«126235_j54030688583922_2_alg».proof.Proof.KStep3
import proofs.«126235_j54030688583922_2_alg».proof.Proof.KRegion4

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at9_v113 : W9 m ρ c (Proc.devRef .tc main_v113) = w1 (aA7 m c) := by
  have e0 : W8 m ρ c (Proc.devRef .tc main_arg7) = (aA7 m c) := (W8_of_ne m ρ c main_arg7 (by decide)).trans ((keepH3 m ρ c main_arg7 (by decide)).trans ((W6_of_ne m ρ c main_arg7 (by decide)).trans ((keepH2 m ρ c main_arg7 (by decide)).trans ((W4_of_ne m ρ c main_arg7 (by decide)).trans ((keepH1 m ρ c main_arg7 (by decide)).trans ((W2_of_ne m ρ c main_arg7 (by decide)).trans ((keepH0 m ρ c main_arg7 (by decide)).trans (at0_arg7 m ρ c))))))))
  show StableHlo.after hostOps4 _ _ = _
  simp only [hostOps4]
  after_results_simp
  rw [e0]
  rfl

set_option maxHeartbeats 2000000 in
theorem at9_v117 : W9 m ρ c (Proc.devRef .tc main_v117) = w1 (aA9 m c) := by
  have e0 : W8 m ρ c (Proc.devRef .tc main_arg9) = (aA9 m c) := (W8_of_ne m ρ c main_arg9 (by decide)).trans ((keepH3 m ρ c main_arg9 (by decide)).trans ((W6_of_ne m ρ c main_arg9 (by decide)).trans ((keepH2 m ρ c main_arg9 (by decide)).trans ((W4_of_ne m ρ c main_arg9 (by decide)).trans ((keepH1 m ρ c main_arg9 (by decide)).trans ((W2_of_ne m ρ c main_arg9 (by decide)).trans ((keepH0 m ρ c main_arg9 (by decide)).trans (at0_arg9 m ρ c))))))))
  show StableHlo.after hostOps4 _ _ = _
  simp only [hostOps4]
  after_results_simp
  rw [e0]
  rfl

set_option maxHeartbeats 2000000 in
theorem at9_v120 : W9 m ρ c (Proc.devRef .tc main_v120) = row (b1 (aA8 m c)) := by
  have e0 : W8 m ρ c (Proc.devRef .tc main_arg8) = (aA8 m c) := (W8_of_ne m ρ c main_arg8 (by decide)).trans ((keepH3 m ρ c main_arg8 (by decide)).trans ((W6_of_ne m ρ c main_arg8 (by decide)).trans ((keepH2 m ρ c main_arg8 (by decide)).trans ((W4_of_ne m ρ c main_arg8 (by decide)).trans ((keepH1 m ρ c main_arg8 (by decide)).trans ((W2_of_ne m ρ c main_arg8 (by decide)).trans ((keepH0 m ρ c main_arg8 (by decide)).trans (at0_arg8 m ρ c))))))))
  show StableHlo.after hostOps4 _ _ = _
  simp only [hostOps4]
  after_results_simp
  rw [e0]
  rfl

set_option maxHeartbeats 2000000 in
theorem at9_v121 : W9 m ρ c (Proc.devRef .tc main_v121) = row (b1 (aA10 m c)) := by
  have e0 : W8 m ρ c (Proc.devRef .tc main_arg10) = (aA10 m c) := (W8_of_ne m ρ c main_arg10 (by decide)).trans ((keepH3 m ρ c main_arg10 (by decide)).trans ((W6_of_ne m ρ c main_arg10 (by decide)).trans ((keepH2 m ρ c main_arg10 (by decide)).trans ((W4_of_ne m ρ c main_arg10 (by decide)).trans ((keepH1 m ρ c main_arg10 (by decide)).trans ((W2_of_ne m ρ c main_arg10 (by decide)).trans ((keepH0 m ρ c main_arg10 (by decide)).trans (at0_arg10 m ρ c))))))))
  show StableHlo.after hostOps4 _ _ = _
  simp only [hostOps4]
  after_results_simp
  rw [e0]
  rfl

set_option maxHeartbeats 2000000 in
theorem at9_v122 : W9 m ρ c (Proc.devRef .tc main_v122) = degColA (aA2 m c) := by
  have e0 : W8 m ρ c (Proc.devRef .tc main_v14) = degA (aA2 m c) := (W8_of_ne m ρ c main_v14 (by decide)).trans ((keepH3 m ρ c main_v14 (by decide)).trans ((W6_of_ne m ρ c main_v14 (by decide)).trans ((keepH2 m ρ c main_v14 (by decide)).trans ((W4_of_ne m ρ c main_v14 (by decide)).trans ((keepH1 m ρ c main_v14 (by decide)).trans ((W2_of_ne m ρ c main_v14 (by decide)).trans (at1_v14 m ρ c)))))))
  show StableHlo.after hostOps4 _ _ = _
  simp only [hostOps4]
  after_results_simp
  rw [e0]
  rfl

theorem at10_v123 : W10 m ρ c (Proc.devRef .tc main_v123) = kA2p (aA0 m c) (aA1 m c) (aA2 m c) (aA3 m c) (aA5 m c) (aA6 m c) (aA7 m c) (aA8 m c) (aA9 m c) (aA10 m c) (aA11 m c) (aA12 m c) (aA13 m c) (aA14 m c) := by
  have e0 : W9 m ρ c (Proc.devRef .tc main_v99) = rawPA (aA2 m c) (kP1 (aA0 m c) (aA1 m c) (aA2 m c) (aA5 m c) (aA6 m c) (aA11 m c) (aA12 m c)) := (keepH4 m ρ c main_v99 (by decide)).trans ((W8_of_ne m ρ c main_v99 (by decide)).trans (at7_v99 m ρ c))
  have e1 : W9 m ρ c (Proc.devRef .tc main_v113) = w1 (aA7 m c) := at9_v113 m ρ c
  have e2 : W9 m ρ c (Proc.devRef .tc main_v120) = row (b1 (aA8 m c)) := at9_v120 m ρ c
  have e3 : W9 m ρ c (Proc.devRef .tc main_v122) = degColA (aA2 m c) := at9_v122 m ρ c
  have e4 : W9 m ρ c (Proc.devRef .tc main_v79) = kA1 (aA0 m c) (aA1 m c) (aA2 m c) (aA3 m c) (aA7 m c) (aA8 m c) (aA9 m c) (aA10 m c) (aA13 m c) (aA14 m c) := (keepH4 m ρ c main_v79 (by decide)).trans ((W8_of_ne m ρ c main_v79 (by decide)).trans ((keepH3 m ρ c main_v79 (by decide)).trans (at6_v79 m ρ c)))
  have e5 : W9 m ρ c (Proc.devRef .tc main_v117) = w1 (aA9 m c) := at9_v117 m ρ c
  have e6 : W9 m ρ c (Proc.devRef .tc main_v121) = row (b1 (aA10 m c)) := at9_v121 m ρ c
  refine (W10_arr m ρ c 7).trans ((final4 (V9 m ρ) c).trans ?_)
  show dualLin (N := 100000) (W9 m ρ c (Proc.devRef .tc main_v99)) (W9 m ρ c (Proc.devRef .tc main_v113)) (W9 m ρ c (Proc.devRef .tc main_v120)) (W9 m ρ c (Proc.devRef .tc main_v122)) (W9 m ρ c (Proc.devRef .tc main_v79)) (W9 m ρ c (Proc.devRef .tc main_v117)) (W9 m ρ c (Proc.devRef .tc main_v121)) = _
  rw [e0, e1, e2, e3, e4, e5, e6]
  rfl

end Cert.KernelIdeal.Hand

end
-- ==== Proof.KRegion5.lean ====
/-
  Region 5 of the kernel program (a projection added to a table
  over 100000 rows, in 10 blocks of 10000 rows): the array the region leaves is the network's row map of the arrays
  the region finds. Point `t` of the grid reads rows `10000·t … 10000·t + 9999` of the row arrays (and the whole weight
  matrix and bias row), and writes the same rows of the result; the 10 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz5 : (![0, 0] : Fin 2 → Nat) = fun _ => 0 := funext fun a => by fin_cases a <;> rfl

/-- The printed index maps over the grid: a row array's block index is `(t, 0)`, a weight's or a bias row's `(0, 0)`. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem blk5_0 (c : Dev nD) (t : Fin cfg5.N) (r : Fin 10000) (q : Fin 128) (R : Fin 100000) (hR : R.val = t.val * 10000 + r.val) :
    (iblk5 V c 0 t : Vec Ideal S10000x128 .f32) (ix2 r q) = (V c main_v133 : S100000x128.Idx → EReal) (ix2 R q) := by
  have e0 : win5_0.index t (0 : Fin 2) = t.val := (idx5 t).1
  have e1 : win5_0.index t (1 : Fin 2) = 0 := (idx5 t).2.1
  unfold iblk5
  rw [View.read_apply]
  show V c main_v133 _ = V c main_v133 _
  congr 1
  funext a
  apply Fin.ext
  match a with
  | ⟨0, _⟩ => show win5_0.index t (0 : Fin 2) * 10000 + 1 * r.val = R.val; rw [e0, hR]; omega
  | ⟨1, _⟩ => show win5_0.index t (1 : Fin 2) * 128 + 1 * q.val = q.val; rw [e1]; omega

theorem blk5_1 (c : Dev nD) (t : Fin cfg5.N) (p : Fin 128) (q : Fin 128) :
    (iblk5 V c 1 t : Vec Ideal S128x128 .f32) (ix2 p q) = (V c main_v135 : S128x128.Idx → EReal) (ix2 p q) := by
  have e0 : win5_1.index t (0 : Fin 2) = 0 := (idx5 t).2.2.1
  have e1 : win5_1.index t (1 : Fin 2) = 0 := (idx5 t).2.2.2.1
  unfold iblk5
  rw [View.read_apply]
  show V c main_v135 _ = V c main_v135 _
  congr 1
  funext a
  apply Fin.ext
  match a with
  | ⟨0, _⟩ => show win5_1.index t (0 : Fin 2) * 128 + 1 * p.val = p.val; rw [e0]; omega
  | ⟨1, _⟩ => show win5_1.index t (1 : Fin 2) * 128 + 1 * q.val = q.val; rw [e1]; omega

theorem blk5_2 (c : Dev nD) (t : Fin cfg5.N) (p : Fin 1) (q : Fin 128) :
    (iblk5 V c 2 t : Vec Ideal S1x128 .f32) (ix2 p q) = (V c main_v138 : S1x128.Idx → EReal) (ix2 p q) := by
  have e0 : win5_2.index t (0 : Fin 2) = 0 := (idx5 t).2.2.2.2.1
  have e1 : win5_2.index t (1 : Fin 2) = 0 := (idx5 t).2.2.2.2.2.1
  unfold iblk5
  rw [View.read_apply]
  show V c main_v138 _ = V c main_v138 _
  congr 1
  funext a
  apply Fin.ext
  match a with
  | ⟨0, _⟩ => show win5_2.index t (0 : Fin 2) * 1 + 1 * p.val = p.val; rw [e0]; omega
  | ⟨1, _⟩ => show win5_2.index t (1 : Fin 2) * 128 + 1 * q.val = q.val; rw [e1]; omega

theorem blk5_3 (c : Dev nD) (t : Fin cfg5.N) (r : Fin 10000) (q : Fin 1) (R : Fin 100000) (hR : R.val = t.val * 10000 + r.val) :
    (iblk5 V c 3 t : Vec Ideal S10000x1 .f32) (ix2 r q) = (V c main_v139 : S100000x1.Idx → EReal) (ix2 R q) := by
  have e0 : win5_3.index t (0 : Fin 2) = t.val := (idx5 t).2.2.2.2.2.2.1
  have e1 : win5_3.index t (1 : Fin 2) = 0 := (idx5 t).2.2.2.2.2.2.2.1
  unfold iblk5
  rw [View.read_apply]
  show V c main_v139 _ = V c main_v139 _
  congr 1
  funext a
  apply Fin.ext
  match a with
  | ⟨0, _⟩ => show win5_3.index t (0 : Fin 2) * 10000 + 1 * r.val = R.val; rw [e0, hR]; omega
  | ⟨1, _⟩ => show win5_3.index t (1 : Fin 2) * 1 + 1 * q.val = q.val; rw [e1]; omega

theorem blk5_4 (c : Dev nD) (t : Fin cfg5.N) (r : Fin 10000) (q : Fin 128) (R : Fin 100000) (hR : R.val = t.val * 10000 + r.val) :
    (iblk5 V c 4 t : Vec Ideal S10000x128 .f32) (ix2 r q) = (V c main_v123 : S100000x128.Idx → EReal) (ix2 R q) := by
  have e0 : win5_4.index t (0 : Fin 2) = t.val := (idx5 t).2.2.2.2.2.2.2.2.1
  have e1 : win5_4.index t (1 : Fin 2) = 0 := (idx5 t).2.2.2.2.2.2.2.2.2.1
  unfold iblk5
  rw [View.read_apply]
  show V c main_v123 _ = V c main_v123 _
  congr 1
  funext a
  apply Fin.ext
  match a with
  | ⟨0, _⟩ => show win5_4.index t (0 : Fin 2) * 10000 + 1 * r.val = R.val; rw [e0, hR]; omega
  | ⟨1, _⟩ => show win5_4.index t (1 : Fin 2) * 128 + 1 * q.val = q.val; rw [e1]; omega

/-- WHAT POINT `t` WRITES BACK: rows `10000·t …` of the row map of the arrays the region finds. -/
theorem flushed5 (c : Dev nD) (t : Fin cfg5.N) :
    (dat5 V c).flushed 5 t = ((cfg5.win 5).blk t).view.read (Elt Ideal) (Cert.Spec.linAdd (N := 100000) (V c main_v133) (V c main_v135) (V c main_v138) (V c main_v139) (V c main_v123)) := by
  show (cfg5.win 5).cut (grid5.coords t) ((dat5 V c).after 5 t) = _
  rw [after5_5]
  unfold out5_5
  rw [View.canon_unit_zero hz5]
  simp only [View.ld_unit_zero (S := S10000x128) hz5, View.ld_unit_zero (S := S128x128) hz5, View.ld_unit_zero (S := S10000x1) hz5, View.ld_unit_zero (S := S1x128) hz5]
  funext y
  obtain ⟨r, n, rfl⟩ : ∃ (r : Fin 10000) (n : Fin 128), y = ix2 r n := ⟨y 0, y 1, eq_ix2 y⟩
  have hN : cfg5.N = 10 := N_5
  have ht : t.val < 10 := hN ▸ t.isLt
  have e0 : win5_5.index t (0 : Fin 2) = t.val := (idx5 t).2.2.2.2.2.2.2.2.2.2.1
  have e1 : win5_5.index t (1 : Fin 2) = 0 := (idx5 t).2.2.2.2.2.2.2.2.2.2.2
  obtain ⟨R, hR⟩ : ∃ R : Fin 100000, R.val = t.val * 10000 + r.val := ⟨⟨t.val * 10000 + r.val, by omega⟩, rfl⟩
  have hemb : ((cfg5.win 5).blk t).view.emb (ix2 r n) = (ix2 R n : S100000x128.Idx) := by
    funext a
    apply Fin.ext
    match a with
    | ⟨0, _⟩ => show win5_5.index t (0 : Fin 2) * 10000 + 1 * r.val = R.val; rw [e0, hR]; omega
    | ⟨1, _⟩ => show win5_5.index t (1 : Fin 2) * 128 + 1 * n.val = n.val; rw [e1]; omega
  rw [View.read_apply, hemb]
  refine (k5_pay1_apply (iblk5 V c 0 t) (iblk5 V c 1 t) (iblk5 V c 3 t) (iblk5 V c 2 t) (iblk5 V c 4 t) r n).trans ?_
  rw [Cert.Spec.linAdd_ix2]
  unfold Cert.Spec.linAddAt Cert.Spec.rowMul
  simp only [fun q => blk5_0 V c t r q R hR, blk5_1 V c t, blk5_2 V c t, fun q => blk5_3 V c t r q R hR,
    fun q => blk5_4 V c t r q R hR]
  rfl

/-- The 10 blocks tile the result: row `i` is in block `i / 10000`. -/
theorem cover5 (i : S100000x128.Idx) :
    ∃ t : Fin cfg5.N, (cfg5.win 5).flush t = true ∧ i ∈ ((cfg5.win 5).blk t).view.set := by
  have hN : cfg5.N = 10 := N_5
  have hi0 : (i 0).val < 100000 := (i 0).isLt
  have hi1 : (i 1).val < 128 := (i 1).isLt
  obtain ⟨t, htv⟩ : ∃ t : Fin cfg5.N, t.val = (i 0).val / 10000 := ⟨⟨(i 0).val / 10000, by rw [hN]; omega⟩, rfl⟩
  have e0 : win5_5.index t (0 : Fin 2) = t.val := (idx5 t).2.2.2.2.2.2.2.2.2.2.1
  have e1 : win5_5.index t (1 : Fin 2) = 0 := (idx5 t).2.2.2.2.2.2.2.2.2.2.2
  refine ⟨t, flush5_5 t, ?_⟩
  show i ∈ ((View.whole main_v140).slice (win5_5.rect t)).set
  rw [View.set_slice_whole, Rect.mem_set_unit]
  intro a
  match a with
  | ⟨0, _⟩ =>
    show win5_5.index t (0 : Fin 2) * 10000 ≤ (i 0).val ∧ (i 0).val < win5_5.index t (0 : Fin 2) * 10000 + 10000
    rw [e0, htv]; omega
  | ⟨1, _⟩ =>
    show win5_5.index t (1 : Fin 2) * 128 ≤ (i 1).val ∧ (i 1).val < win5_5.index t (1 : Fin 2) * 128 + 128
    rw [e1]; omega

/-- THE ARRAY THE REGION LEAVES: the row map of the arrays it finds. -/
theorem final5 (c : Dev nD) : (dat5 V c).arrAt 5 cfg5.N = Cert.Spec.linAdd (N := 100000) (V c main_v133) (V c main_v135) (V c main_v138) (V c main_v139) (V c main_v123) :=
  (dat5 V c).arrAt_eq_of_cover 5 (Cert.Spec.linAdd (N := 100000) (V c main_v133) (V c main_v135) (V c main_v138) (V c main_v139) (V c main_v123)) (fun t _ => flushed5 V c t) (cover5)

end Cert.KernelIdeal.Hand

end
-- ==== Proof.KStep5.lean ====
/-
  Step 5 of the kernel program's fold: what the buffers the next region reads hold after stretch 5 of host
  operations, and what region 5 leaves in its result, as the named functions of the argument arrays.
-/
import proofs.«126235_j54030688583922_2_alg».proof.Proof.KStep4
import proofs.«126235_j54030688583922_2_alg».proof.Proof.KRegion5

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at11_v133 : W11 m ρ c (Proc.devRef .tc main_v133) = rawCo (aA3 m c) (kA2p (aA0 m c) (aA1 m c) (aA2 m c) (aA3 m c) (aA5 m c) (aA6 m c) (aA7 m c) (aA8 m c) (aA9 m c) (aA10 m c) (aA11 m c) (aA12 m c) (aA13 m c) (aA14 m c)) := by
  have e0 : W10 m ρ c (Proc.devRef .tc main_v123) = kA2p (aA0 m c) (aA1 m c) (aA2 m c) (aA3 m c) (aA5 m c) (aA6 m c) (aA7 m c) (aA8 m c) (aA9 m c) (aA10 m c) (aA11 m c) (aA12 m c) (aA13 m c) (aA14 m c) := at10_v123 m ρ c
  have e1 : W10 m ρ c (Proc.devRef .tc main_v5) = cS (aA3 m c) := (W10_of_ne m ρ c main_v5 (by decide)).trans ((keepH4 m ρ c main_v5 (by decide)).trans ((W8_of_ne m ρ c main_v5 (by decide)).trans ((keepH3 m ρ c main_v5 (by decide)).trans ((W6_of_ne m ρ c main_v5 (by decide)).trans ((keepH2 m ρ c main_v5 (by decide)).trans ((W4_of_ne m ρ c main_v5 (by decide)).trans ((keepH1 m ρ c main_v5 (by decide)).trans ((W2_of_ne m ρ c main_v5 (by decide)).trans (at1_v5 m ρ c)))))))))
  have e2 : W10 m ρ c (Proc.devRef .tc main_v7) = cD (aA3 m c) := (W10_of_ne m ρ c main_v7 (by decide)).trans ((keepH4 m ρ c main_v7 (by decide)).trans ((W8_of_ne m ρ c main_v7 (by decide)).trans ((keepH3 m ρ c main_v7 (by decide)).trans ((W6_of_ne m ρ c main_v7 (by decide)).trans ((keepH2 m ρ c main_v7 (by decide)).trans ((W4_of_ne m ρ c main_v7 (by decide)).trans ((keepH1 m ρ c main_v7 (by decide)).trans ((W2_of_ne m ρ c main_v7 (by decide)).trans (at1_v7 m ρ c)))))))))
  show StableHlo.after hostOps5 _ _ = _
  simp only [hostOps5]
  after_results_simp
  rw [e0, e1, e2]
  rfl

set_option maxHeartbeats 2000000 in
theorem at11_v135 : W11 m ρ c (Proc.devRef .tc main_v135) = w1 (aA13 m c) := by
  have e0 : W10 m ρ c (Proc.devRef .tc main_arg13) = (aA13 m c) := (W10_of_ne m ρ c main_arg13 (by decide)).trans ((keepH4 m ρ c main_arg13 (by decide)).trans ((W8_of_ne m ρ c main_arg13 (by decide)).trans ((keepH3 m ρ c main_arg13 (by decide)).trans ((W6_of_ne m ρ c main_arg13 (by decide)).trans ((keepH2 m ρ c main_arg13 (by decide)).trans ((W4_of_ne m ρ c main_arg13 (by decide)).trans ((keepH1 m ρ c main_arg13 (by decide)).trans ((W2_of_ne m ρ c main_arg13 (by decide)).trans ((keepH0 m ρ c main_arg13 (by decide)).trans (at0_arg13 m ρ c))))))))))
  show StableHlo.after hostOps5 _ _ = _
  simp only [hostOps5]
  after_results_simp
  rw [e0]
  rfl

set_option maxHeartbeats 2000000 in
theorem at11_v138 : W11 m ρ c (Proc.devRef .tc main_v138) = row (b1 (aA14 m c)) := by
  have e0 : W10 m ρ c (Proc.devRef .tc main_arg14) = (aA14 m c) := (W10_of_ne m ρ c main_arg14 (by decide)).trans ((keepH4 m ρ c main_arg14 (by decide)).trans ((W8_of_ne m ρ c main_arg14 (by decide)).trans ((keepH3 m ρ c main_arg14 (by decide)).trans ((W6_of_ne m ρ c main_arg14 (by decide)).trans ((keepH2 m ρ c main_arg14 (by decide)).trans ((W4_of_ne m ρ c main_arg14 (by decide)).trans ((keepH1 m ρ c main_arg14 (by decide)).trans ((W2_of_ne m ρ c main_arg14 (by decide)).trans ((keepH0 m ρ c main_arg14 (by decide)).trans (at0_arg14 m ρ c))))))))))
  show StableHlo.after hostOps5 _ _ = _
  simp only [hostOps5]
  after_results_simp
  rw [e0]
  rfl

set_option maxHeartbeats 2000000 in
theorem at11_v139 : W11 m ρ c (Proc.devRef .tc main_v139) = degColC (aA3 m c) := by
  have e0 : W10 m ρ c (Proc.devRef .tc main_v18) = degC (aA3 m c) := (W10_of_ne m ρ c main_v18 (by decide)).trans ((keepH4 m ρ c main_v18 (by decide)).trans ((W8_of_ne m ρ c main_v18 (by decide)).trans ((keepH3 m ρ c main_v18 (by decide)).trans ((W6_of_ne m ρ c main_v18 (by decide)).trans ((keepH2 m ρ c main_v18 (by decide)).trans ((W4_of_ne m ρ c main_v18 (by decide)).trans ((keepH1 m ρ c main_v18 (by decide)).trans ((W2_of_ne m ρ c main_v18 (by decide)).trans (at1_v18 m ρ c)))))))))
  show StableHlo.after hostOps5 _ _ = _
  simp only [hostOps5]
  after_results_simp
  rw [e0]
  rfl

theorem at12_v140 : W12 m ρ c (Proc.devRef .tc main_v140) = kA2 (aA0 m c) (aA1 m c) (aA2 m c) (aA3 m c) (aA5 m c) (aA6 m c) (aA7 m c) (aA8 m c) (aA9 m c) (aA10 m c) (aA11 m c) (aA12 m c) (aA13 m c) (aA14 m c) := by
  have e0 : W11 m ρ c (Proc.devRef .tc main_v133) = rawCo (aA3 m c) (kA2p (aA0 m c) (aA1 m c) (aA2 m c) (aA3 m c) (aA5 m c) (aA6 m c) (aA7 m c) (aA8 m c) (aA9 m c) (aA10 m c) (aA11 m c) (aA12 m c) (aA13 m c) (aA14 m c)) := at11_v133 m ρ c
  have e1 : W11 m ρ c (Proc.devRef .tc main_v135) = w1 (aA13 m c) := at11_v135 m ρ c
  have e2 : W11 m ρ c (Proc.devRef .tc main_v138) = row (b1 (aA14 m c)) := at11_v138 m ρ c
  have e3 : W11 m ρ c (Proc.devRef .tc main_v139) = degColC (aA3 m c) := at11_v139 m ρ c
  have e4 : W11 m ρ c (Proc.devRef .tc main_v123) = kA2p (aA0 m c) (aA1 m c) (aA2 m c) (aA3 m c) (aA5 m c) (aA6 m c) (aA7 m c) (aA8 m c) (aA9 m c) (aA10 m c) (aA11 m c) (aA12 m c) (aA13 m c) (aA14 m c) := (keepH5 m ρ c main_v123 (by decide)).trans (at10_v123 m ρ c)
  refine (W12_arr m ρ c 5).trans ((final5 (V11 m ρ) c).trans ?_)
  show linAdd (N := 100000) (W11 m ρ c (Proc.devRef .tc main_v133)) (W11 m ρ c (Proc.devRef .tc main_v135)) (W11 m ρ c (Proc.devRef .tc main_v138)) (W11 m ρ c (Proc.devRef .tc main_v139)) (W11 m ρ c (Proc.devRef .tc main_v123)) = _
  rw [e0, e1, e2, e3, e4]
  rfl

end Cert.KernelIdeal.Hand

end
-- ==== Proof.KRegion6.lean ====
/-
  Region 6 of the kernel program (the row dot products
  over 100000 rows, in 10 blocks of 10000 rows): the array the region leaves is the network's row map of the arrays
  the region finds. Point `t` of the grid reads rows `10000·t … 10000·t + 9999` of the row arrays (and the whole weight
  matrix and bias row), and writes the same rows of the result; the 10 blocks tile the result.
-/
import proofs.«126235_j54030688583922_2_alg».proof.Proof.Gen.KernelIdeal.Frame
import proofs.«126235_j54030688583922_2_alg».proof.Proof.KPay

set_option maxRecDepth 16384

noncomputable section

namespace Cert.KernelIdeal.Hand

open Idealize.ShloMosaic Idealize.ShloMosaic.TcCoe Idealize.ShloMosaic.ValueIdx Idealize.ShloMosaic.Pipeline Idealize.SL.Sem
open Cert.KernelIdeal Cert.KernelIdeal.Gen

variable (V : (c : Dev nD) → (b : Ref sig .tc) → Buf (Elt Ideal) ((c : Thread nD τ).loc b))

theorem hz6 : (![0, 0] : Fin 2 → Nat) = fun _ => 0 := funext fun a => by fin_cases a <;> rfl

/-- The printed index maps over the grid: a row array's block index is `(t, 0)`, a weight's or a bias row's `(0, 0)`. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

theorem blk6_0 (c : Dev nD) (t : Fin cfg6.N) (r : Fin 10000) (q : Fin 128) (R : Fin 100000) (hR : R.val = t.val * 10000 + r.val) :
    (iblk6 V c 0 t : Vec Ideal S10000x128 .f32) (ix2 r q) = (V c main_v149 : S100000x128.Idx → EReal) (ix2 R q) := by
  have e0 : win6_0.index t (0 : Fin 2) = t.val := (idx6 t).1
  have e1 : win6_0.index t (1 : Fin 2) = 0 := (idx6 t).2.1
  unfold iblk6
  rw [View.read_apply]
  show V c main_v149 _ = V c main_v149 _
  congr 1
  funext a
  apply Fin.ext
  match a with
  | ⟨0, _⟩ => show win6_0.index t (0 : Fin 2) * 10000 + 1 * r.val = R.val; rw [e0, hR]; omega
  | ⟨1, _⟩ => show win6_0.index t (1 : Fin 2) * 128 + 1 * q.val = q.val; rw [e1]; omega

theorem blk6_1 (c : Dev nD) (t : Fin cfg6.N) (r : Fin 10000) (q : Fin 128) (R : Fin 100000) (hR : R.val = t.val * 10000 + r.val) :
    (iblk6 V c 1 t : Vec Ideal S10000x128 .f32) (ix2 r q) = (V c main_v158 : S100000x128.Idx → EReal) (ix2 R q) := by
  have e0 : win6_1.index t (0 : Fin 2) = t.val := (idx6 t).2.2.1
  have e1 : win6_1.index t (1 : Fin 2) = 0 := (idx6 t).2.2.2.1
  unfold iblk6
  rw [View.read_apply]
  show V c main_v158 _ = V c main_v158 _
  congr 1
  funext a
  apply Fin.ext
  match a with
  | ⟨0, _⟩ => show win6_1.index t (0 : Fin 2) * 10000 + 1 * r.val = R.val; rw [e0, hR]; omega
  | ⟨1, _⟩ => show win6_1.index t (1 : Fin 2) * 128 + 1 * q.val = q.val; rw [e1]; omega

/-- WHAT POINT `t` WRITES BACK: rows `10000·t …` of the row map of the arrays the region finds. -/
theorem flushed6 (c : Dev nD) (t : Fin cfg6.N) :
    (dat6 V c).flushed 2 t = ((cfg6.win 2).blk t).view.read (Elt Ideal) (Cert.Spec.rowDot (N := 100000) (V c main_v149) (V c main_v158)) := by
  show (cfg6.win 2).cut (grid6.coords t) ((dat6 V c).after 2 t) = _
  rw [after6_2]
  unfold out6_2
  rw [View.canon_unit_zero hz6]
  simp only [View.ld_unit_zero (S := S10000x128) hz6, View.ld_unit_zero (S := S10000x1) hz6]
  funext y
  obtain ⟨r, n, rfl⟩ : ∃ (r : Fin 10000) (n : Fin 1), y = ix2 r n := ⟨y 0, y 1, eq_ix2 y⟩
  have hN : cfg6.N = 10 := N_6
  have ht : t.val < 10 := hN ▸ t.isLt
  have e0 : win6_2.index t (0 : Fin 2) = t.val := (idx6 t).2.2.2.2.1
  have e1 : win6_2.index t (1 : Fin 2) = 0 := (idx6 t).2.2.2.2.2
  obtain ⟨R, hR⟩ : ∃ R : Fin 100000, R.val = t.val * 10000 + r.val := ⟨⟨t.val * 10000 + r.val, by omega⟩, rfl⟩
  have hemb : ((cfg6.win 2).blk t).view.emb (ix2 r n) = (ix2 R n : S100000x1.Idx) := by
    funext a
    apply Fin.ext
    match a with
    | ⟨0, _⟩ => show win6_2.index t (0 : Fin 2) * 10000 + 1 * r.val = R.val; rw [e0, hR]; omega
    | ⟨1, _⟩ => show win6_2.index t (1 : Fin 2) * 1 + 1 * n.val = n.val; rw [e1]; omega
  rw [View.read_apply, hemb]
  refine (k6_pay1_apply (iblk6 V c 0 t) (iblk6 V c 1 t) r n).trans ?_
  rw [Cert.Spec.rowDot_ix2]
  unfold Cert.Spec.rowDotAt
  simp only [fun q => blk6_0 V c t r q R hR, fun q => blk6_1 V c t r q R hR]
  rfl

/-- The 10 blocks tile the result: row `i` is in block `i / 10000`. -/
theorem cover6 (i : S100000x1.Idx) :
    ∃ t : Fin cfg6.N, (cfg6.win 2).flush t = true ∧ i ∈ ((cfg6.win 2).blk t).view.set := by
  have hN : cfg6.N = 10 := N_6
  have hi0 : (i 0).val < 100000 := (i 0).isLt
  have hi1 : (i 1).val < 1 := (i 1).isLt
  obtain ⟨t, htv⟩ : ∃ t : Fin cfg6.N, t.val = (i 0).val / 10000 := ⟨⟨(i 0).val / 10000, by rw [hN]; omega⟩, rfl⟩
  have e0 : win6_2.index t (0 : Fin 2) = t.val := (idx6 t).2.2.2.2.1
  have e1 : win6_2.index t (1 : Fin 2) = 0 := (idx6 t).2.2.2.2.2
  refine ⟨t, flush6_2 t, ?_⟩
  show i ∈ ((View.whole main_v159).slice (win6_2.rect t)).set
  rw [View.set_slice_whole, Rect.mem_set_unit]
  intro a
  match a with
  | ⟨0, _⟩ =>
    show win6_2.index t (0 : Fin 2) * 10000 ≤ (i 0).val ∧ (i 0).val < win6_2.index t (0 : Fin 2) * 10000 + 10000
    rw [e0, htv]; omega
  | ⟨1, _⟩ =>
    show win6_2.index t (1 : Fin 2) * 1 ≤ (i 1).val ∧ (i 1).val < win6_2.index t (1 : Fin 2) * 1 + 1
    rw [e1]; omega

/-- THE ARRAY THE REGION LEAVES: the row map of the arrays it finds. -/
theorem final6 (c : Dev nD) : (dat6 V c).arrAt 2 cfg6.N = Cert.Spec.rowDot (N := 100000) (V c main_v149) (V c main_v158) :=
  (dat6 V c).arrAt_eq_of_cover 2 (Cert.Spec.rowDot (N := 100000) (V c main_v149) (V c main_v158)) (fun t _ => flushed6 V c t) (cover6)

end Cert.KernelIdeal.Hand

end
-- ==== Proof.KStep6.lean ====
/-
  Step 6 of the kernel program's fold: what the buffers the next region reads hold after stretch 6 of host
  operations, and what region 6 leaves in its result, as the named functions of the argument arrays.
-/
import proofs.«126235_j54030688583922_2_alg».proof.Proof.KStep5
import proofs.«126235_j54030688583922_2_alg».proof.Proof.KRegion6

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at13_v149 : W13 m ρ c (Proc.devRef .tc main_v149) = gA (aA0 m c) (aA1 m c) (aA2 m c) (aA3 m c) (aA4 m c) (aA5 m c) (aA6 m c) (aA7 m c) (aA8 m c) (aA9 m c) (aA10 m c) (aA11 m c) (aA12 m c) (aA13 m c) (aA14 m c) := by
  have e0 : W12 m ρ c (Proc.devRef .tc main_v140) = kA2 (aA0 m c) (aA1 m c) (aA2 m c) (aA3 m c) (aA5 m c) (aA6 m c) (aA7 m c) (aA8 m c) (aA9 m c) (aA10 m c) (aA11 m c) (aA12 m c) (aA13 m c) (aA14 m c) := at12_v140 m ρ c
  have e1 : W12 m ρ c (Proc.devRef .tc main_arg4) = (aA4 m c) := (W12_of_ne m ρ c main_arg4 (by decide)).trans ((keepH5 m ρ c main_arg4 (by decide)).trans ((W10_of_ne m ρ c main_arg4 (by decide)).trans ((keepH4 m ρ c main_arg4 (by decide)).trans ((W8_of_ne m ρ c main_arg4 (by decide)).trans ((keepH3 m ρ c main_arg4 (by decide)).trans ((W6_of_ne m ρ c main_arg4 (by decide)).trans ((keepH2 m ρ c main_arg4 (by decide)).trans ((W4_of_ne m ρ c main_arg4 (by decide)).trans ((keepH1 m ρ c main_arg4 (by decide)).trans ((W2_of_ne m ρ c main_arg4 (by decide)).trans ((keepH0 m ρ c main_arg4 (by decide)).trans (at0_arg4 m ρ c))))))))))))
  show StableHlo.after hostOps6 _ _ = _
  simp only [hostOps6]
  after_results_simp
  rw [e0, e1]
  rfl

set_option maxHeartbeats 2000000 in
theorem at13_v158 : W13 m ρ c (Proc.devRef .tc main_v158) = gP (aA0 m c) (aA1 m c) (aA2 m c) (aA3 m c) (aA4 m c) (aA5 m c) (aA6 m c) (aA7 m c) (aA8 m c) (aA9 m c) (aA10 m c) (aA11 m c) (aA12 m c) (aA13 m c) (aA14 m c) := by
  have e0 : W12 m ρ c (Proc.devRef .tc main_v111) = kP2 (aA0 m c) (aA1 m c) (aA2 m c) (aA3 m c) (aA5 m c) (aA6 m c) (aA7 m c) (aA8 m c) (aA9 m c) (aA10 m c) (aA11 m c) (aA12 m c) (aA13 m c) (aA14 m c) := (W12_of_ne m ρ c main_v111 (by decide)).trans ((keepH5 m ρ c main_v111 (by decide)).trans ((W10_of_ne m ρ c main_v111 (by decide)).trans ((keepH4 m ρ c main_v111 (by decide)).trans (at8_v111 m ρ c))))
  have e1 : W12 m ρ c (Proc.devRef .tc main_arg4) = (aA4 m c) := (W12_of_ne m ρ c main_arg4 (by decide)).trans ((keepH5 m ρ c main_arg4 (by decide)).trans ((W10_of_ne m ρ c main_arg4 (by decide)).trans ((keepH4 m ρ c main_arg4 (by decide)).trans ((W8_of_ne m ρ c main_arg4 (by decide)).trans ((keepH3 m ρ c main_arg4 (by decide)).trans ((W6_of_ne m ρ c main_arg4 (by decide)).trans ((keepH2 m ρ c main_arg4 (by decide)).trans ((W4_of_ne m ρ c main_arg4 (by decide)).trans ((keepH1 m ρ c main_arg4 (by decide)).trans ((W2_of_ne m ρ c main_arg4 (by decide)).trans ((keepH0 m ρ c main_arg4 (by decide)).trans (at0_arg4 m ρ c))))))))))))
  show StableHlo.after hostOps6 _ _ = _
  simp only [hostOps6]
  after_results_simp
  rw [e0, e1]
  rfl

theorem at14_v159 : W14 m ρ c (Proc.devRef .tc main_v159) = kCol (aA0 m c) (aA1 m c) (aA2 m c) (aA3 m c) (aA4 m c) (aA5 m c) (aA6 m c) (aA7 m c) (aA8 m c) (aA9 m c) (aA10 m c) (aA11 m c) (aA12 m c) (aA13 m c) (aA14 m c) := by
  have e0 : W13 m ρ c (Proc.devRef .tc main_v149) = gA (aA0 m c) (aA1 m c) (aA2 m c) (aA3 m c) (aA4 m c) (aA5 m c) (aA6 m c) (aA7 m c) (aA8 m c) (aA9 m c) (aA10 m c) (aA11 m c) (aA12 m c) (aA13 m c) (aA14 m c) := at13_v149 m ρ c
  have e1 : W13 m ρ c (Proc.devRef .tc main_v158) = gP (aA0 m c) (aA1 m c) (aA2 m c) (aA3 m c) (aA4 m c) (aA5 m c) (aA6 m c) (aA7 m c) (aA8 m c) (aA9 m c) (aA10 m c) (aA11 m c) (aA12 m c) (aA13 m c) (aA14 m c) := at13_v158 m ρ c
  refine (W14_arr m ρ c 2).trans ((final6 (V13 m ρ) c).trans ?_)
  show rowDot (N := 100000) (W13 m ρ c (Proc.devRef .tc main_v149)) (W13 m ρ c (Proc.devRef .tc main_v158)) = _
  rw [e0, e1]
  rfl

end Cert.KernelIdeal.Hand

end
-- ==== Proof.KStep7.lean ====
/-
  Step 7 of the kernel program's fold: what the buffers the next region reads hold after stretch 7 of host
  operations (the result buffer), as the named functions of the argument arrays.
-/
import proofs.«126235_j54030688583922_2_alg».proof.Proof.KStep6

set_option maxRecDepth 16384

noncomputable section

namespace Cert.KernelIdeal.Hand

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

set_option maxHeartbeats 2000000 in
theorem at15_v160 : W15 m ρ c (Proc.devRef .tc main_v160) = kOut (aA0 m c) (aA1 m c) (aA2 m c) (aA3 m c) (aA4 m c) (aA5 m c) (aA6 m c) (aA7 m c) (aA8 m c) (aA9 m c) (aA10 m c) (aA11 m c) (aA12 m c) (aA13 m c) (aA14 m c) := by
  have e0 : W14 m ρ c (Proc.devRef .tc main_v159) = kCol (aA0 m c) (aA1 m c) (aA2 m c) (aA3 m c) (aA4 m c) (aA5 m c) (aA6 m c) (aA7 m c) (aA8 m c) (aA9 m c) (aA10 m c) (aA11 m c) (aA12 m c) (aA13 m c) (aA14 m c) := at14_v159 m ρ c
  show StableHlo.after hostOps7 _ _ = _
  simp only [hostOps7]
  after_results_simp
  rw [e0]
  rfl

end Cert.KernelIdeal.Hand

end
-- ==== Proof.RBridge.lean ====
/-
  The reference program's result is the kernel program's function of the arguments.

  The reference's run ends at a term of host operations. Layer by layer that term is the reference's spelling of a round
  of message passing (`Net.refAgg`, `Net.refSelf`) of tables which, by the exchange law, are the kernel's tables
  (`kP1`, `kA1p`, `kA1`, …): the law applies because every table met on the way has real entries — the arguments by the
  precondition, each later table because sums and products of reals are real. The last step is the row dot products.
-/
import proofs.«126235_j54030688583922_2_alg».proof.Proof.Gen.ReferenceIdeal.Run
import proofs.«126235_j54030688583922_2_alg».proof.Proof.KValues

set_option maxRecDepth 16384

noncomputable section

namespace Cert.Bridge

open Idealize.ShloMosaic Idealize.ShloMosaic.StableHlo Cert.GraphAE Cert.Spec Cert.KernelIdeal.Hand

/-! ## Real entries along the kernel's tables -/

section Reals
open Cert.KernelIdeal

theorem allReal_w0 (a : FVec Ideal S2x128x128 .f32) (h : AllReal a) : AllReal (w0 a) := fun _ => h _
theorem allReal_w1 (a : FVec Ideal S2x128x128 .f32) (h : AllReal a) : AllReal (w1 a) := fun _ => h _
theorem allReal_b0 (a : FVec Ideal S2x128 .f32) (h : AllReal a) : AllReal (b0 a) := fun _ => h _
theorem allReal_b1 (a : FVec Ideal S2x128 .f32) (h : AllReal a) : AllReal (b1 a) := fun _ => h _
theorem allReal_row (b : FVec Ideal S128 .f32) (h : AllReal b) : AllReal (row b) := fun _ => h _
theorem allReal_rawAP (a2 : IVec S2x500000 32) (X : FVec Ideal S100000x128 .f32) (h : AllReal X) : AllReal (rawAP a2 X) :=
  Cert.Net.allReal_kerRaw _ _ _ _ _ _ h
theorem allReal_rawPA (a2 : IVec S2x500000 32) (X : FVec Ideal S200000x128 .f32) (h : AllReal X) : AllReal (rawPA a2 X) :=
  Cert.Net.allReal_kerRaw _ _ _ _ _ _ h
theorem allReal_rawCo (a3 : IVec S2x250000 32) (X : FVec Ideal S100000x128 .f32) (h : AllReal X) : AllReal (rawCo a3 X) :=
  Cert.Net.allReal_kerRaw _ _ _ _ _ _ h
theorem allReal_degColP (a2 : IVec S2x500000 32) : AllReal (degColP a2) := fun _ => Cert.Net.allReal_kerDeg _ _ _ _ _
theorem allReal_degColA (a2 : IVec S2x500000 32) : AllReal (degColA a2) := fun _ => Cert.Net.allReal_kerDeg _ _ _ _ _
theorem allReal_degColC (a3 : IVec S2x250000 32) : AllReal (degColC a3) := fun _ => Cert.Net.allReal_kerDeg _ _ _ _ _

end Reals

/-! ## The reference's tables are the kernel's -/

section Main

variable (V0 : Valuation Cert.ReferenceIdeal.τ Cert.ReferenceIdeal.sig (Elt Ideal))

/-- Argument 0, read off the valuation `V0`. -/
abbrev r0 : FVec Ideal Cert.KernelIdeal.S100000x128 .f32 := V0 (Proc.devRef .tc Cert.ReferenceIdeal.main_arg0)
/-- Argument 1, read off the valuation `V0`. -/
abbrev r1 : FVec Ideal Cert.KernelIdeal.S200000x128 .f32 := V0 (Proc.devRef .tc Cert.ReferenceIdeal.main_arg1)
/-- Argument 2, read off the valuation `V0`. -/
abbrev r2 : IVec Cert.KernelIdeal.S2x500000 32 := V0 (Proc.devRef .tc Cert.ReferenceIdeal.main_arg2)
/-- Argument 3, read off the valuation `V0`. -/
abbrev r3 : IVec Cert.KernelIdeal.S2x250000 32 := V0 (Proc.devRef .tc Cert.ReferenceIdeal.main_arg3)
/-- Argument 4, read off the valuation `V0`. -/
abbrev r4 : IVec Cert.KernelIdeal.S2x100000 32 := V0 (Proc.devRef .tc Cert.ReferenceIdeal.main_arg4)
/-- Argument 5, read off the valuation `V0`. -/
abbrev r5 : FVec Ideal Cert.KernelIdeal.S2x128x128 .f32 := V0 (Proc.devRef .tc Cert.ReferenceIdeal.main_arg5)
/-- Argument 6, read off the valuation `V0`. -/
abbrev r6 : FVec Ideal Cert.KernelIdeal.S2x128 .f32 := V0 (Proc.devRef .tc Cert.ReferenceIdeal.main_arg6)
/-- Argument 7, read off the valuation `V0`. -/
abbrev r7 : FVec Ideal Cert.KernelIdeal.S2x128x128 .f32 := V0 (Proc.devRef .tc Cert.ReferenceIdeal.main_arg7)
/-- Argument 8, read off the valuation `V0`. -/
abbrev r8 : FVec Ideal Cert.KernelIdeal.S2x128 .f32 := V0 (Proc.devRef .tc Cert.ReferenceIdeal.main_arg8)
/-- Argument 9, read off the valuation `V0`. -/
abbrev r9 : FVec Ideal Cert.KernelIdeal.S2x128x128 .f32 := V0 (Proc.devRef .tc Cert.ReferenceIdeal.main_arg9)
/-- Argument 10, read off the valuation `V0`. -/
abbrev r10 : FVec Ideal Cert.KernelIdeal.S2x128 .f32 := V0 (Proc.devRef .tc Cert.ReferenceIdeal.main_arg10)
/-- Argument 11, read off the valuation `V0`. -/
abbrev r11 : FVec Ideal Cert.KernelIdeal.S2x128x128 .f32 := V0 (Proc.devRef .tc Cert.ReferenceIdeal.main_arg11)
/-- Argument 12, read off the valuation `V0`. -/
abbrev r12 : FVec Ideal Cert.KernelIdeal.S2x128 .f32 := V0 (Proc.devRef .tc Cert.ReferenceIdeal.main_arg12)
/-- Argument 13, read off the valuation `V0`. -/
abbrev r13 : FVec Ideal Cert.KernelIdeal.S2x128x128 .f32 := V0 (Proc.devRef .tc Cert.ReferenceIdeal.main_arg13)
/-- Argument 14, read off the valuation `V0`. -/
abbrev r14 : FVec Ideal Cert.KernelIdeal.S2x128 .f32 := V0 (Proc.devRef .tc Cert.ReferenceIdeal.main_arg14)

variable (h0 : AllReal (r0 V0)) (h1 : AllReal (r1 V0)) (h5 : AllReal (r5 V0)) (h6 : AllReal (r6 V0)) (h7 : AllReal (r7 V0)) (h8 : AllReal (r8 V0)) (h9 : AllReal (r9 V0)) (h10 : AllReal (r10 V0)) (h11 : AllReal (r11 V0)) (h12 : AllReal (r12 V0)) (h13 : AllReal (r13 V0)) (h14 : AllReal (r14 V0))

include h0 h1 h5 h6 h11 h12 in
theorem real_kP1 : AllReal (kP1 (r0 V0) (r1 V0) (r2 V0) (r5 V0) (r6 V0) (r11 V0) (r12 V0)) :=
  Cert.Net.allReal_dualLin _ _ _ _ _ _ _ (allReal_rawAP _ _ h0) (allReal_w0 _ h5) (allReal_row _ (allReal_b0 _ h6))
    (allReal_degColP _) h1 (allReal_w0 _ h11) (allReal_row _ (allReal_b0 _ h12))

include h0 h1 h7 h8 h9 h10 in
theorem real_kA1p : AllReal (kA1p (r0 V0) (r1 V0) (r2 V0) (r7 V0) (r8 V0) (r9 V0) (r10 V0)) :=
  Cert.Net.allReal_dualLin _ _ _ _ _ _ _ (allReal_rawPA _ _ h1) (allReal_w0 _ h7) (allReal_row _ (allReal_b0 _ h8))
    (allReal_degColA _) h0 (allReal_w0 _ h9) (allReal_row _ (allReal_b0 _ h10))

include h0 h1 h7 h8 h9 h10 h13 h14 in
theorem real_kA1 : AllReal (kA1 (r0 V0) (r1 V0) (r2 V0) (r3 V0) (r7 V0) (r8 V0) (r9 V0) (r10 V0) (r13 V0) (r14 V0)) :=
  Cert.Net.allReal_linAdd _ _ _ _ _ (allReal_rawCo _ _ (real_kA1p V0 h0 h1 h7 h8 h9 h10)) (allReal_w0 _ h13)
    (allReal_row _ (allReal_b0 _ h14)) (allReal_degColC _) (real_kA1p V0 h0 h1 h7 h8 h9 h10)

include h0 h1 h5 h6 h7 h8 h9 h10 h11 h12 h13 h14 in
theorem real_kA2p : AllReal (kA2p (r0 V0) (r1 V0) (r2 V0) (r3 V0) (r5 V0) (r6 V0) (r7 V0) (r8 V0) (r9 V0) (r10 V0) (r11 V0) (r12 V0) (r13 V0) (r14 V0)) :=
  Cert.Net.allReal_dualLin _ _ _ _ _ _ _ (allReal_rawPA _ _ (real_kP1 V0 h0 h1 h5 h6 h11 h12)) (allReal_w1 _ h7)
    (allReal_row _ (allReal_b1 _ h8)) (allReal_degColA _) (real_kA1 V0 h0 h1 h7 h8 h9 h10 h13 h14) (allReal_w1 _ h9)
    (allReal_row _ (allReal_b1 _ h10))

open Cert.ReferenceIdeal.Value

include h0 h5 h6 in
/-- The paper table after layer 1. -/
theorem res55 : res_main_v55 V0 = (kP1 (r0 V0) (r1 V0) (r2 V0) (r5 V0) (r6 V0) (r11 V0) (r12 V0)) := by
  show addf (Cert.Net.refAgg (M := 100000) (N := 200000) (E := 500000) Cert.ReferenceIdeal.Gen.gather_S100000x128_S500000x1_S500000x128_1_0_n_n_0_1_1128_wf Cert.ReferenceIdeal.Gen.dot_S500000x128_S128x128_S500000x128_1_0_0_1_n_n_wf Cert.ReferenceIdeal.Gen.transposes_S128x128_S128x128_1_0 Cert.ReferenceIdeal.Gen.bcast_S128_S1x128_1 Cert.ReferenceIdeal.Gen.bcast_S1x128_S500000x128_0_1 Cert.ReferenceIdeal.Gen.scatter_S200000x128_S500000x1_S500000x128_1_0_0_1_wf Cert.ReferenceIdeal.Gen.bcast_S_S200000x128 (r0 V0) (col5 (wrap5 100000#32 (eA (r2 V0)))) (col5 (eP (r2 V0))) (w0 (r5 V0)) (b0 (r6 V0)))
    (Cert.Net.refSelf (N := 200000) Cert.ReferenceIdeal.Gen.transposes_S128x128_S128x128_1_0 Cert.ReferenceIdeal.Gen.bcast_S128_S1x128_1 Cert.ReferenceIdeal.Gen.dot_S200000x128_S128x128_S200000x128_1_0_0_1_n_n_wf Cert.ReferenceIdeal.Gen.bcast_S1x128_S200000x128_0_1 (r1 V0) (w0 (r11 V0)) (b0 (r12 V0))) = _
  rw [Cert.Net.round_exchange (wfS1 := Cert.KernelIdeal.Gen.scatter_S200000_S500000x1_S500000_n_0_0_1_wf) (h0N := Cert.KernelIdeal.Gen.bcast_S_S200000) (h1E := Cert.KernelIdeal.Gen.bcast_S_S500000) (hc1 := Cert.KernelIdeal.Gen.shapeCasts_S128_S1x128) (hcN := Cert.KernelIdeal.Gen.shapeCasts_S200000_S200000x1) (hM := by decide) (hX := h0) (hW := allReal_w0 _ h5) (hb := allReal_b0 _ h6)]
  rfl

include h1 h7 h8 in
/-- The author table after the paper messages of layer 1. -/
theorem res65 : res_main_v65 V0 = (kA1p (r0 V0) (r1 V0) (r2 V0) (r7 V0) (r8 V0) (r9 V0) (r10 V0)) := by
  show addf (Cert.Net.refAgg (M := 200000) (N := 100000) (E := 500000) Cert.ReferenceIdeal.Gen.gather_S200000x128_S500000x1_S500000x128_1_0_n_n_0_1_1128_wf Cert.ReferenceIdeal.Gen.dot_S500000x128_S128x128_S500000x128_1_0_0_1_n_n_wf Cert.ReferenceIdeal.Gen.transposes_S128x128_S128x128_1_0 Cert.ReferenceIdeal.Gen.bcast_S128_S1x128_1 Cert.ReferenceIdeal.Gen.bcast_S1x128_S500000x128_0_1 Cert.ReferenceIdeal.Gen.scatter_S100000x128_S500000x1_S500000x128_1_0_0_1_wf Cert.ReferenceIdeal.Gen.bcast_S_S100000x128 (r1 V0) (col5 (wrap5 200000#32 (eP (r2 V0)))) (col5 (eA (r2 V0))) (w0 (r7 V0)) (b0 (r8 V0)))
    (Cert.Net.refSelf (N := 100000) Cert.ReferenceIdeal.Gen.transposes_S128x128_S128x128_1_0 Cert.ReferenceIdeal.Gen.bcast_S128_S1x128_1 Cert.ReferenceIdeal.Gen.dot_S100000x128_S128x128_S100000x128_1_0_0_1_n_n_wf Cert.ReferenceIdeal.Gen.bcast_S1x128_S100000x128_0_1 (r0 V0) (w0 (r9 V0)) (b0 (r10 V0))) = _
  rw [Cert.Net.round_exchange (wfS1 := Cert.KernelIdeal.Gen.scatter_S100000_S500000x1_S500000_n_0_0_1_wf) (h0N := Cert.KernelIdeal.Gen.bcast_S_S100000) (h1E := Cert.KernelIdeal.Gen.bcast_S_S500000) (hc1 := Cert.KernelIdeal.Gen.shapeCasts_S128_S1x128) (hcN := Cert.KernelIdeal.Gen.shapeCasts_S100000_S100000x1) (hM := by decide) (hX := h1) (hW := allReal_w0 _ h7) (hb := allReal_b0 _ h8)]
  rfl

include h0 h1 h7 h8 h9 h10 h13 h14 in
/-- The author table after layer 1. -/
theorem res85 : res_main_v85 V0 = (kA1 (r0 V0) (r1 V0) (r2 V0) (r3 V0) (r7 V0) (r8 V0) (r9 V0) (r10 V0) (r13 V0) (r14 V0)) := by
  show addf (res_main_v65 V0) (Cert.Net.refAgg (M := 100000) (N := 100000) (E := 250000) Cert.ReferenceIdeal.Gen.gather_S100000x128_S250000x1_S250000x128_1_0_n_n_0_1_1128_wf Cert.ReferenceIdeal.Gen.dot_S250000x128_S128x128_S250000x128_1_0_0_1_n_n_wf Cert.ReferenceIdeal.Gen.transposes_S128x128_S128x128_1_0 Cert.ReferenceIdeal.Gen.bcast_S128_S1x128_1 Cert.ReferenceIdeal.Gen.bcast_S1x128_S250000x128_0_1 Cert.ReferenceIdeal.Gen.scatter_S100000x128_S250000x1_S250000x128_1_0_0_1_wf Cert.ReferenceIdeal.Gen.bcast_S_S100000x128 (res_main_v65 V0) (col25 (wrap25 100000#32 (cS (r3 V0)))) (col25 (cD (r3 V0))) (w0 (r13 V0)) (b0 (r14 V0))) = _
  rw [res65 V0 h1 h7 h8, Cert.Net.co_exchange (wfS1 := Cert.KernelIdeal.Gen.scatter_S100000_S250000x1_S250000_n_0_0_1_wf) (h0N := Cert.KernelIdeal.Gen.bcast_S_S100000) (h1E := Cert.KernelIdeal.Gen.bcast_S_S250000) (hc1 := Cert.KernelIdeal.Gen.shapeCasts_S128_S1x128) (hcN := Cert.KernelIdeal.Gen.shapeCasts_S100000_S100000x1) (hN := by decide) (hA := real_kA1p V0 h0 h1 h7 h8 h9 h10)
    (hW := allReal_w0 _ h13) (hb := allReal_b0 _ h14)]
  rfl

include h0 h1 h5 h6 h7 h8 h9 h10 h11 h12 h13 h14 in
/-- The author table after the paper messages of layer 2. -/
theorem res143 : res_main_v143 V0 = (kA2p (r0 V0) (r1 V0) (r2 V0) (r3 V0) (r5 V0) (r6 V0) (r7 V0) (r8 V0) (r9 V0) (r10 V0) (r11 V0) (r12 V0) (r13 V0) (r14 V0)) := by
  show addf (Cert.Net.refAgg (M := 200000) (N := 100000) (E := 500000) Cert.ReferenceIdeal.Gen.gather_S200000x128_S500000x1_S500000x128_1_0_n_n_0_1_1128_wf Cert.ReferenceIdeal.Gen.dot_S500000x128_S128x128_S500000x128_1_0_0_1_n_n_wf Cert.ReferenceIdeal.Gen.transposes_S128x128_S128x128_1_0 Cert.ReferenceIdeal.Gen.bcast_S128_S1x128_1 Cert.ReferenceIdeal.Gen.bcast_S1x128_S500000x128_0_1 Cert.ReferenceIdeal.Gen.scatter_S100000x128_S500000x1_S500000x128_1_0_0_1_wf Cert.ReferenceIdeal.Gen.bcast_S_S100000x128 (res_main_v55 V0) (col5 (wrap5 200000#32 (eP (r2 V0)))) (col5 (eA (r2 V0))) (w1 (r7 V0)) (b1 (r8 V0)))
    (Cert.Net.refSelf (N := 100000) Cert.ReferenceIdeal.Gen.transposes_S128x128_S128x128_1_0 Cert.ReferenceIdeal.Gen.bcast_S128_S1x128_1 Cert.ReferenceIdeal.Gen.dot_S100000x128_S128x128_S100000x128_1_0_0_1_n_n_wf Cert.ReferenceIdeal.Gen.bcast_S1x128_S100000x128_0_1 (res_main_v85 V0) (w1 (r9 V0)) (b1 (r10 V0))) = _
  rw [res55 V0 h0 h5 h6, res85 V0 h0 h1 h7 h8 h9 h10 h13 h14,
    Cert.Net.round_exchange (wfS1 := Cert.KernelIdeal.Gen.scatter_S100000_S500000x1_S500000_n_0_0_1_wf) (h0N := Cert.KernelIdeal.Gen.bcast_S_S100000) (h1E := Cert.KernelIdeal.Gen.bcast_S_S500000) (hc1 := Cert.KernelIdeal.Gen.shapeCasts_S128_S1x128) (hcN := Cert.KernelIdeal.Gen.shapeCasts_S100000_S100000x1) (hM := by decide) (hX := real_kP1 V0 h0 h1 h5 h6 h11 h12)
      (hW := allReal_w1 _ h7) (hb := allReal_b1 _ h8)]
  rfl

include h0 h1 h5 h6 h7 h8 h9 h10 h11 h12 h13 h14 in
/-- THE RESULT: the reference's sum over the columns of the products of the gathered final rows is the kernel's result. -/
theorem refOut :
    Host.reduceAdd (mulf
        (Host.gather Cert.ReferenceIdeal.gather_S100000x128_S100000x1_S100000x128_1_0_n_n_0_1_1128
          (addf (res_main_v143 V0) (Cert.Net.refAgg (M := 100000) (N := 100000) (E := 250000) Cert.ReferenceIdeal.Gen.gather_S100000x128_S250000x1_S250000x128_1_0_n_n_0_1_1128_wf Cert.ReferenceIdeal.Gen.dot_S250000x128_S128x128_S250000x128_1_0_0_1_n_n_wf Cert.ReferenceIdeal.Gen.transposes_S128x128_S128x128_1_0 Cert.ReferenceIdeal.Gen.bcast_S128_S1x128_1 Cert.ReferenceIdeal.Gen.bcast_S1x128_S250000x128_0_1 Cert.ReferenceIdeal.Gen.scatter_S100000x128_S250000x1_S250000x128_1_0_0_1_wf Cert.ReferenceIdeal.Gen.bcast_S_S100000x128 (res_main_v143 V0) (col25 (wrap25 100000#32 (cS (r3 V0)))) (col25 (cD (r3 V0))) (w1 (r13 V0)) (b1 (r14 V0))))
          (col1 (wrap1 100000#32 (sA (r4 V0)))))
        (Host.gather Cert.ReferenceIdeal.gather_S200000x128_S100000x1_S100000x128_1_0_n_n_0_1_1128
          (addf (Cert.Net.refAgg (M := 100000) (N := 200000) (E := 500000) Cert.ReferenceIdeal.Gen.gather_S100000x128_S500000x1_S500000x128_1_0_n_n_0_1_1128_wf Cert.ReferenceIdeal.Gen.dot_S500000x128_S128x128_S500000x128_1_0_0_1_n_n_wf Cert.ReferenceIdeal.Gen.transposes_S128x128_S128x128_1_0 Cert.ReferenceIdeal.Gen.bcast_S128_S1x128_1 Cert.ReferenceIdeal.Gen.bcast_S1x128_S500000x128_0_1 Cert.ReferenceIdeal.Gen.scatter_S200000x128_S500000x1_S500000x128_1_0_0_1_wf Cert.ReferenceIdeal.Gen.bcast_S_S200000x128 (res_main_v85 V0) (col5 (wrap5 100000#32 (eA (r2 V0)))) (col5 (eP (r2 V0))) (w1 (r5 V0)) (b1 (r6 V0)))
            (Cert.Net.refSelf (N := 200000) Cert.ReferenceIdeal.Gen.transposes_S128x128_S128x128_1_0 Cert.ReferenceIdeal.Gen.bcast_S128_S1x128_1 Cert.ReferenceIdeal.Gen.dot_S200000x128_S128x128_S200000x128_1_0_0_1_n_n_wf Cert.ReferenceIdeal.Gen.bcast_S1x128_S200000x128_0_1 (res_main_v55 V0) (w1 (r11 V0)) (b1 (r12 V0))))
          (col1 (wrap1 200000#32 (sP (r4 V0))))))
      (constant Cert.ReferenceIdeal.S_ .f32 0x00000000#32) Cert.ReferenceIdeal.Gen.reducesTo_S100000x128_S100000_d1 Cert.ReferenceIdeal.Gen.h_S_
    = kOut (r0 V0) (r1 V0) (r2 V0) (r3 V0) (r4 V0) (r5 V0) (r6 V0) (r7 V0) (r8 V0) (r9 V0) (r10 V0) (r11 V0) (r12 V0) (r13 V0) (r14 V0) := by
  rw [res143 V0 h0 h1 h5 h6 h7 h8 h9 h10 h11 h12 h13 h14, res85 V0 h0 h1 h7 h8 h9 h10 h13 h14, res55 V0 h0 h5 h6,
    Cert.Net.co_exchange (wfS1 := Cert.KernelIdeal.Gen.scatter_S100000_S250000x1_S250000_n_0_0_1_wf) (h0N := Cert.KernelIdeal.Gen.bcast_S_S100000) (h1E := Cert.KernelIdeal.Gen.bcast_S_S250000) (hc1 := Cert.KernelIdeal.Gen.shapeCasts_S128_S1x128) (hcN := Cert.KernelIdeal.Gen.shapeCasts_S100000_S100000x1) (hN := by decide) (hA := real_kA2p V0 h0 h1 h5 h6 h7 h8 h9 h10 h11 h12 h13 h14)
      (hW := allReal_w1 _ h13) (hb := allReal_b1 _ h14),
    Cert.Net.round_exchange (wfS1 := Cert.KernelIdeal.Gen.scatter_S200000_S500000x1_S500000_n_0_0_1_wf) (h0N := Cert.KernelIdeal.Gen.bcast_S_S200000) (h1E := Cert.KernelIdeal.Gen.bcast_S_S500000) (hc1 := Cert.KernelIdeal.Gen.shapeCasts_S128_S1x128) (hcN := Cert.KernelIdeal.Gen.shapeCasts_S200000_S200000x1) (hM := by decide) (hX := real_kA1 V0 h0 h1 h7 h8 h9 h10 h13 h14)
      (hW := allReal_w1 _ h5) (hb := allReal_b1 _ h6)]
  exact Cert.Net.rowDot_eq (N := 100000) _ _ _ (by decide) _ Cert.KernelIdeal.Gen.shapeCasts_S100000x1_S100000

end Main

end Cert.Bridge

end
-- ==== Proof.Finite.lean ====
/-
  The precondition, read: every float argument holds real numbers.

  The precondition says, per float array, that `|x| < +∞` at every index (a reduction by `and` to one truth value),
  and takes the conjunction of the twelve. An extended real whose absolute value `max x (−x)` is below `+∞` is neither
  infinity, so it is a real number.
-/
import proofs.«126235_j54030688583922_2_alg».proof.Proof.Gen.Pre_finite_inputs
import proofs.«126235_j54030688583922_2_alg».proof.Proof.LibRealEntries
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.GraphAE

/-- An extended real whose absolute value is below the word of `+∞` is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hc
    have h0 : Ideal.cmp .olt (max x (-x)) ⊤ = 0#1 := by
      unfold Ideal.cmp
      rw [decide_eq_false hc]
      rfl
    rw [h0] at h
    exact absurd h (by decide)
  induction x using EReal.rec with
  | bot => simp at hlt
  | coe r => exact ⟨r, rfl⟩
  | top => simp at hlt

instance : Subsingleton (⟨0, ![]⟩ : Shape).Idx := ⟨fun a b => funext fun d => d.elim0⟩

/-- `jnp.all(|x| < inf)` true: every entry of `x` is a real number. -/
theorem allReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ix0 = 1#1) : AllReal x := fun i =>
  real_of_abs_lt_inf (x i) (Host.reduce_andi_all _ _ hr hu ix0 e i)

open Cert.Pre_finite_inputs in
/-- THE PRECONDITION READ: each of the twelve float arguments has real entries. -/
theorem reals_of_pre (a0 : FVec Ideal S100000x128 .f32) (a1 : FVec Ideal S200000x128 .f32) (a2 : IVec S2x500000 32)
    (a3 : IVec S2x250000 32) (a4 : IVec S2x100000 32) (a5 : FVec Ideal S2x128x128 .f32) (a6 : FVec Ideal S2x128 .f32)
    (a7 : FVec Ideal S2x128x128 .f32) (a8 : FVec Ideal S2x128 .f32) (a9 : FVec Ideal S2x128x128 .f32) (a10 : FVec Ideal S2x128 .f32)
    (a11 : FVec Ideal S2x128x128 .f32) (a12 : FVec Ideal S2x128 .f32) (a13 : FVec Ideal S2x128x128 .f32) (a14 : FVec Ideal S2x128 .f32)
    (h : Cert.Pre_finite_inputs.fn (F := Ideal) a0 a1 a2 a3 a4 a5 a6 a7 a8 a9 a10 a11 a12 a13 a14 = fun _ => 1#1) :
    AllReal a0 ∧ AllReal a1 ∧ AllReal a5 ∧ AllReal a6 ∧ AllReal a7 ∧ AllReal a8 ∧ AllReal a9 ∧ AllReal a10 ∧ AllReal a11
      ∧ AllReal a12 ∧ AllReal a13 ∧ AllReal a14 := by
  have h0 := congrFun h ix0
  dsimp only [Cert.Pre_finite_inputs.fn, Cert.Pre_finite_inputs.fn_part1, Cert.Pre_finite_inputs.fn_part2,
    Cert.Pre_finite_inputs.fn_part3] at h0
  simp only [Idealize.ShloMosaic.andi, IntOp.andi_eq_one] at h0
  obtain ⟨⟨⟨⟨⟨⟨⟨⟨⟨⟨⟨e0, e1⟩, e5⟩, e6⟩, e7⟩, e8⟩, e9⟩, e10⟩, e11⟩, e12⟩, e13⟩, e14⟩ := h0
  exact ⟨allReal_of_all a0 _ _ _ e0, allReal_of_all a1 _ _ _ e1, allReal_of_all a5 _ _ _ e5, allReal_of_all a6 _ _ _ e6,
    allReal_of_all a7 _ _ _ e7, allReal_of_all a8 _ _ _ e8, allReal_of_all a9 _ _ _ e9, allReal_of_all a10 _ _ _ e10,
    allReal_of_all a11 _ _ _ e11, allReal_of_all a12 _ _ _ e12, allReal_of_all a13 _ _ _ e13, allReal_of_all a14 _ _ _ e14⟩

end Cert.Finite

end
-- ==== Proof.lean ====
/-
  The certificate: the kernel program (a two-layer message-passing network on an author–paper graph, its dense row maps
  in seven pipelined kernels) against its reference.

  THE FRAMES. Each kernel region is a pipeline over blocks of 10000 rows; the generated frame modules run the fifteen
  segments of @main. The reference has no kernel: its frame is its run with the result dropped.

  THE VALUES, over the extended reals. Per layer the reference projects every gathered row (`x · Wᵀ + b`) and adds the
  projected rows up per destination node; the kernel adds the raw gathered rows up per destination, counts the edges
  per destination, and projects once, `(∑ₑ xₑ) · Wᵀ + deg · b`, fused with the node's own projection. For tables of real
  numbers these are one finite double sum in two orders (`Net.round_exchange`, `Net.co_exchange`); the inputs are real
  by the precondition and every later table is a finite sum of products of reals. The kernel's side is read off the
  fold of @main's segments (each region's array is the row map of the arrays it finds: its blocks tile the array), the
  reference's off its run. The result is the row dot products of the final tables gathered along the supervision
  edges: the host's sum over the columns from zero is that sum.

  No rewrite separates the kernel from its idealization: that conjunct is `True`.
-/
import proofs.«126235_j54030688583922_2_alg».proof.Defs
import proofs.«126235_j54030688583922_2_alg».proof.Proof.Gen.Kernel
import proofs.«126235_j54030688583922_2_alg».proof.Proof.Gen.Kernel.Skeleton
import proofs.«126235_j54030688583922_2_alg».proof.Proof.Gen.Kernel.Launch
import proofs.«126235_j54030688583922_2_alg».proof.Proof.Gen.Kernel.Points
import proofs.«126235_j54030688583922_2_alg».proof.Proof.Gen.Kernel.Frame
import proofs.«126235_j54030688583922_2_alg».proof.Proof.Gen.KernelIdeal
import proofs.«126235_j54030688583922_2_alg».proof.Proof.Gen.KernelIdeal.Skeleton
import proofs.«126235_j54030688583922_2_alg».proof.Proof.Gen.KernelIdeal.Launch
import proofs.«126235_j54030688583922_2_alg».proof.Proof.Gen.KernelIdeal.Points
import proofs.«126235_j54030688583922_2_alg».proof.Proof.Gen.KernelIdeal.Frame
import proofs.«126235_j54030688583922_2_alg».proof.Proof.Gen.ReferenceIdeal
import proofs.«126235_j54030688583922_2_alg».proof.Proof.Gen.Pre_finite_inputs
import proofs.«126235_j54030688583922_2_alg».proof.Proof.Gen.ReferenceIdeal.Run
import proofs.«126235_j54030688583922_2_alg».proof.Proof.KRun
import proofs.«126235_j54030688583922_2_alg».proof.Proof.KStep7
import proofs.«126235_j54030688583922_2_alg».proof.Proof.RBridge
import proofs.«126235_j54030688583922_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Cert.GraphAE

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

open Cert.KernelIdeal.Hand in
/-- Both idealized programs end at the kernel's function `kOut` of the argument arrays: the kernel by the fold of its
    segments, the reference by the exchange law, the arguments real by the precondition. -/
theorem algebraic : Cert.algebraic_KernelIdeal_ReferenceIdeal := by
  intro m ρ m' ρ' hpre hagree
  refine ⟨fun c => kOut (aA0 m c) (aA1 m c) (aA2 m c) (aA3 m c) (aA4 m c) (aA5 m c) (aA6 m c) (aA7 m c) (aA8 m c) (aA9 m c) (aA10 m c) (aA11 m c) (aA12 m c) (aA13 m c) (aA14 m c), ?_, ?_⟩
  · exact (θ_run Cert.KernelIdeal.defs _ _).mono (fun r h c => ⟨(h c).1.trans (at15_v160 m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11, g12, g13, g14⟩ := hagree c
    obtain ⟨h0, h1, h5, h6, h7, h8, h9, h10, h11, h12, h13, h14⟩ :=
      Cert.Finite.reals_of_pre (aA0 m c) (aA1 m c) (aA2 m c) (aA3 m c) (aA4 m c) (aA5 m c) (aA6 m c) (aA7 m c) (aA8 m c) (aA9 m c) (aA10 m c) (aA11 m c) (aA12 m c) (aA13 m c) (aA14 m c) (hpre c)
    have e0 : Cert.Bridge.r0 (StableHlo.launchContents m' c) = aA0 m c := g0
    have e1 : Cert.Bridge.r1 (StableHlo.launchContents m' c) = aA1 m c := g1
    have e2 : Cert.Bridge.r2 (StableHlo.launchContents m' c) = aA2 m c := g2
    have e3 : Cert.Bridge.r3 (StableHlo.launchContents m' c) = aA3 m c := g3
    have e4 : Cert.Bridge.r4 (StableHlo.launchContents m' c) = aA4 m c := g4
    have e5 : Cert.Bridge.r5 (StableHlo.launchContents m' c) = aA5 m c := g5
    have e6 : Cert.Bridge.r6 (StableHlo.launchContents m' c) = aA6 m c := g6
    have e7 : Cert.Bridge.r7 (StableHlo.launchContents m' c) = aA7 m c := g7
    have e8 : Cert.Bridge.r8 (StableHlo.launchContents m' c) = aA8 m c := g8
    have e9 : Cert.Bridge.r9 (StableHlo.launchContents m' c) = aA9 m c := g9
    have e10 : Cert.Bridge.r10 (StableHlo.launchContents m' c) = aA10 m c := g10
    have e11 : Cert.Bridge.r11 (StableHlo.launchContents m' c) = aA11 m c := g11
    have e12 : Cert.Bridge.r12 (StableHlo.launchContents m' c) = aA12 m c := g12
    have e13 : Cert.Bridge.r13 (StableHlo.launchContents m' c) = aA13 m c := g13
    have e14 : Cert.Bridge.r14 (StableHlo.launchContents m' c) = aA14 m c := g14
    refine (Cert.Bridge.refOut (StableHlo.launchContents m' c) (e0 ▸ h0) (e1 ▸ h1) (e5 ▸ h5) (e6 ▸ h6) (e7 ▸ h7) (e8 ▸ h8)
      (e9 ▸ h9) (e10 ▸ h10) (e11 ▸ h11) (e12 ▸ h12) (e13 ▸ h13) (e14 ▸ h14)).trans ?_
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
